-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S1024x128 : Shape := ⟨2, ![1024, 128]⟩
abbrev S1024 : Shape := ⟨1, ![1024]⟩
abbrev S1024x1024 : Shape := ⟨2, ![1024, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32768x128 .f32) (main_arg1 : FVec F S1024x128 .f32) (main_arg2 : FVec F S1024 .f32) (main_arg3 : FVec F S1024x1024 .f32) (main_arg4 : FVec F S1024 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S32768x128 : Shape := ⟨2, ![32768, 128]⟩
abbrev S1024x128 : Shape := ⟨2, ![1024, 128]⟩
abbrev S1024 : Shape := ⟨1, ![1024]⟩
abbrev S1024x1024 : Shape := ⟨2, ![1024, 1024]⟩
abbrev S_ : Shape := ⟨0, ![]⟩
abbrev S1024x1 : Shape := ⟨2, ![1024, 1]⟩
abbrev S128x1024 : Shape := ⟨2, ![128, 1024]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x1024 : Shape := ⟨2, ![1, 1024]⟩
abbrev S32768x1024 : Shape := ⟨2, ![32768, 1024]⟩
abbrev S512x1024 : Shape := ⟨2, ![512, 1024]⟩

abbrev nBuf : Space → Nat
  | .hbm => 80
  | .vmem => 22
  | .smem => 0
  | _ => 0

abbrev bufTy : (tb : Table) → Fin (tcTables nBuf tb) → BufTy
  | .hbm, ⟨0, _⟩ => ⟨S32768x128, .f32⟩
  | .hbm, ⟨1, _⟩ => ⟨S1024x128, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x128, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024x1, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S_, .f32⟩
  | .hbm, ⟨21, _⟩ => ⟨S1024x128, .f32⟩
  | .hbm, ⟨22, _⟩ => ⟨S1024x128, .f32⟩
  | .hbm, ⟨23, _⟩ => ⟨S128x1024, .f32⟩
  | .hbm, ⟨24, _⟩ => ⟨S128x1024, .bf16⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024x1, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .bf16⟩
  | .hbm, ⟨45, _⟩ => ⟨S1x1, .f32⟩
  | .hbm, ⟨46, _⟩ => ⟨S_, .f32⟩
  | .hbm, ⟨47, _⟩ => ⟨S1x1, .f32⟩
  | .hbm, ⟨48, _⟩ => ⟨S1x1, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S32768x1024, .f32⟩
  | .hbm, ⟨57, _⟩ => ⟨S1x1, .f32⟩
  | .hbm, ⟨58, _⟩ => ⟨S1x1, .f32⟩
  | .hbm, ⟨59, _⟩ => ⟨S_, .f32⟩
  | .hbm, ⟨60, _⟩ => ⟨S1x1, .f32⟩
  | .hbm, ⟨61, _⟩ => ⟨S1x1, .f32⟩
  | .hbm, ⟨62, _⟩ => ⟨S_, .f32⟩
  | .hbm, ⟨63, _⟩ => ⟨S1x1, .f32⟩
  | .hbm, ⟨64, _⟩ => ⟨S1x1, .f32⟩
  | .hbm, ⟨65, _⟩ => ⟨S1x1, .f32⟩
  | .hbm, ⟨66, _⟩ => ⟨S_, .f32⟩
  | .hbm, ⟨67, _⟩ => ⟨S1x1, .f32⟩
  | .hbm, ⟨68, _⟩ => ⟨S1x1, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1x1024, .f32⟩
  | .hbm, ⟨78, _⟩ => ⟨S1x1024, .f32⟩
  | .hbm, ⟨79, _⟩ => ⟨S32768x1024, .f32⟩
  | .local _ .vmem, ⟨0, _⟩ => ⟨S4096x128, .f32⟩
  | .local _ .vmem, ⟨1, _⟩ => ⟨S4096x128, .f32⟩
  | .local _ .vmem, ⟨2, _⟩ => ⟨S1x1, .f32⟩
  | .local _ .vmem, ⟨3, _⟩ => ⟨S1024x128, .f32⟩
  | .local _ .vmem, ⟨4, _⟩ => ⟨S1024x128, .f32⟩
  | .local _ .vmem, ⟨5, _⟩ => ⟨S128x1024, .bf16⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1024x1024, .f32⟩
  | .local _ .vmem, ⟨10, _⟩ => ⟨S1024x1024, .f32⟩
  | .local _ .vmem, ⟨11, _⟩ => ⟨S1x1, .f32⟩
  | .local _ .vmem, ⟨12, _⟩ => ⟨S1x1, .f32⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1x1, .f32⟩
  | .local _ .vmem, ⟨19, _⟩ => ⟨S1x1, .f32⟩
  | .local _ .vmem, ⟨20, _⟩ => ⟨S512x1024, .f32⟩
  | .local _ .vmem, ⟨21, _⟩ => ⟨S512x1024, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_cst_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg7_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem7_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  reducesTo_S1024x128_S1024_d1 : S1024x128.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S_S1024x128 : S_.BroadcastsInDim S1024x128 (![] : Fin 0 → Fin S1024x128.rank)
  transposes_S1024x128_S128x1024_1_0 : S1024x128.Transposes [1, 0] S128x1024
  bitsLt_bf16_f32 : FTy.bits .bf16 < FTy.bits .f32
  reducesTo_S1024x1024_S1024_d1 : S1024x1024.ReducesTo [1] S1024
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x1024_S1024x1024_1_0 : S1024x1024.Transposes [1, 0] S1024x1024
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  shapeCasts_S1x1_S_ : S1x1.ShapeCasts S_
  shapeCasts_S1024_S1x1024 : S1024.ShapeCasts S1x1024
  inpos_S1x1_p0_0 : ∀ a, (![0, 0] : Fin 2 → Nat) a < S1x1.size a
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S1024x1024 : S1024x1024.ShapeCasts S1024x1024
  broadcasts_S1x1024_S512x1024 : S1x1024.Broadcasts S512x1024
  dot_S1024x128_S128x1024_S1024x1024_1_0_0_1_n_n_wf : DotDims.WF S1024x128 S128x1024 S1024x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S32768x128.size a
  hwx1_0 : ∀ i : grid1.Coords, EltTy.bits .f32 = 32 ∨ (Rect.block (s := S32768x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .bf16 = 32 ∨ (Rect.block (s := S128x1024) S128x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S32768x1024.size a
  hwx1_5 : ∀ i : grid1.Coords, EltTy.bits .f32 = 32 ∨ (Rect.block (s := S32768x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S32768x1024.size a
  hwx2_0 : ∀ i : grid2.Coords, EltTy.bits .f32 = 32 ∨ (Rect.block (s := S32768x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S32768x1024.size a
  hwx2_6 : ∀ i : grid2.Coords, EltTy.bits .f32 = 32 ∨ (Rect.block (s := S32768x1024) S512x1024.size (cc2_transform_6 i) (hinb2_6 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32_0) S1024x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_1) S1x1.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32_2) S1x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v32_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S32768x128 : Shape := ⟨2, ![32768, 128]⟩
abbrev S1024x128 : Shape := ⟨2, ![1024, 128]⟩
abbrev S1024 : Shape := ⟨1, ![1024]⟩
abbrev S1024x1024 : Shape := ⟨2, ![1024, 1024]⟩
abbrev S_ : Shape := ⟨0, ![]⟩
abbrev S1024x1 : Shape := ⟨2, ![1024, 1]⟩
abbrev S128x1024 : Shape := ⟨2, ![128, 1024]⟩
abbrev S32768x1024 : Shape := ⟨2, ![32768, 1024]⟩
abbrev S1x1024 : Shape := ⟨2, ![1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1024x128, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S32768x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768x128, .f32⟩
  | .hbm, ⟨11, _⟩ => ⟨S32768x128, .f32⟩
  | .hbm, ⟨12, _⟩ => ⟨S32768x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32768x128, .f32⟩
  | .hbm, ⟨17, _⟩ => ⟨S32768x128, .f32⟩
  | .hbm, ⟨18, _⟩ => ⟨S_, .f32⟩
  | .hbm, ⟨19, _⟩ => ⟨S32768x128, .f32⟩
  | .hbm, ⟨20, _⟩ => ⟨S32768x128, .f32⟩
  | .hbm, ⟨21, _⟩ => ⟨S32768x128, .f32⟩
  | .hbm, ⟨22, _⟩ => ⟨S32768x128, .f32⟩
  | .hbm, ⟨23, _⟩ => ⟨S1024x128, .f32⟩
  | .hbm, ⟨24, _⟩ => ⟨S_, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024x1, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1024x128, .f32⟩
  | .hbm, ⟨37, _⟩ => ⟨S1024x128, .f32⟩
  | .hbm, ⟨38, _⟩ => ⟨S_, .f32⟩
  | .hbm, ⟨39, _⟩ => ⟨S1024x128, .f32⟩
  | .hbm, ⟨40, _⟩ => ⟨S1024x128, .f32⟩
  | .hbm, ⟨41, _⟩ => ⟨S32768x128, .f32⟩
  | .hbm, ⟨42, _⟩ => ⟨S32768x128, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S128x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S32768x1024, .f32⟩
  | .hbm, ⟨83, _⟩ => ⟨S32768x1024, .f32⟩
  | .hbm, ⟨84, _⟩ => ⟨S_, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S32768x1024, .f32⟩
  | .hbm, ⟨90, _⟩ => ⟨S32768x1024, .f32⟩
  | .hbm, ⟨91, _⟩ => ⟨S1024x1024, .f32⟩
  | .hbm, ⟨92, _⟩ => ⟨S_, .f32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1024x1, .f32⟩
  | .hbm, ⟨98, _⟩ => ⟨S1024x1024, .f32⟩
  | .hbm, ⟨99, _⟩ => ⟨S1024x1024, .f32⟩
  | .hbm, ⟨100, _⟩ => ⟨S1024x1024, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1024x1024, .f32⟩
  | .hbm, ⟨105, _⟩ => ⟨S1024x1024, .f32⟩
  | .hbm, ⟨106, _⟩ => ⟨S_, .f32⟩
  | .hbm, ⟨107, _⟩ => ⟨S1024x1024, .f32⟩
  | .hbm, ⟨108, _⟩ => ⟨S1024x1024, .f32⟩
  | .hbm, ⟨109, _⟩ => ⟨S32768x1024, .f32⟩
  | .hbm, ⟨110, _⟩ => ⟨S32768x1024, .f32⟩
  | .hbm, ⟨111, _⟩ => ⟨S1024, .f32⟩
  | .hbm, ⟨112, _⟩ => ⟨S1024, .f32⟩
  | .hbm, ⟨113, _⟩ => ⟨S1024, .f32⟩
  | .hbm, ⟨114, _⟩ => ⟨S1024, .f32⟩
  | .hbm, ⟨115, _⟩ => ⟨S1024x1024, .f32⟩
  | .hbm, ⟨116, _⟩ => ⟨S32768x1024, .f32⟩
  | .hbm, ⟨117, _⟩ => ⟨S1x1024, .f32⟩
  | .hbm, ⟨118, _⟩ => ⟨S32768x1024, .f32⟩
  | .hbm, ⟨119, _⟩ => ⟨S32768x1024, .f32⟩
  | .hbm, ⟨120, _⟩ => ⟨S1024, .f32⟩
  | .hbm, ⟨121, _⟩ => ⟨S1024, .f32⟩
  | .hbm, ⟨122, _⟩ => ⟨S1x1024, .f32⟩
  | .hbm, ⟨123, _⟩ => ⟨S32768x1024, .f32⟩
  | .hbm, ⟨124, _⟩ => ⟨S32768x1024, .f32⟩
  | .hbm, ⟨125, _⟩ => ⟨S_, .f32⟩
  | .hbm, ⟨126, _⟩ => ⟨S32768x1024, .f32⟩
  | .hbm, ⟨127, _⟩ => ⟨S32768x1024, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_cst_6 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call5_cst : Ref sig .tc := ⟨.hbm, 57, rfl⟩
abbrev main_call5_v0 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_cst_11 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_cst_13 : Ref sig .tc := ⟨.hbm, 80, rfl⟩
abbrev main_call8_v0 : Ref sig .tc := ⟨.hbm, 81, rfl⟩
abbrev main_call8_v1 : Ref sig .tc := ⟨.hbm, 82, rfl⟩
abbrev main_call8_v2 : Ref sig .tc := ⟨.hbm, 83, rfl⟩
abbrev main_call8_v3 : Ref sig .tc := ⟨.hbm, 84, rfl⟩
abbrev main_call8_v4 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_14 : Ref sig .tc := ⟨.hbm, 92, rfl⟩
abbrev main_v55 : Ref sig .tc := ⟨.hbm, 93, rfl⟩
abbrev main_cst_15 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_16 : Ref sig .tc := ⟨.hbm, 101, rfl⟩
abbrev main_cst_17 : Ref sig .tc := ⟨.hbm, 102, rfl⟩
abbrev main_call10_v0 : Ref sig .tc := ⟨.hbm, 103, rfl⟩
abbrev main_call10_v1 : Ref sig .tc := ⟨.hbm, 104, rfl⟩
abbrev main_call10_v2 : Ref sig .tc := ⟨.hbm, 105, rfl⟩
abbrev main_call10_v3 : Ref sig .tc := ⟨.hbm, 106, rfl⟩
abbrev main_call10_v4 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_call12_cst : Ref sig .tc := ⟨.hbm, 125, rfl⟩
abbrev main_call12_v0 : Ref sig .tc := ⟨.hbm, 126, rfl⟩
abbrev main_v79 : Ref sig .tc := ⟨.hbm, 127, rfl⟩

abbrev nD : Nat := 1
abbrev τ : Topo := Topo.v7x

variable {F : FTy → Type} [FloatOps F]

class Facts₀ : Prop where
  reducesTo_S32768x128_S_d0_1 : S32768x128.ReducesTo [0, 1] S_
  h_S_ : 0 < S_.numel
  bcast_S_S32768x128 : S_.BroadcastsInDim S32768x128 (![] : Fin 0 → Fin S32768x128.rank)
  reducesTo_S1024x128_S1024_d1 : S1024x128.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S_S1024x128 : S_.BroadcastsInDim S1024x128 (![] : Fin 0 → Fin S1024x128.rank)
  transposes_S1024x128_S128x1024_1_0 : S1024x128.Transposes [1, 0] S128x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  reducesTo_S32768x1024_S_d0_1 : S32768x1024.ReducesTo [0, 1] S_
  reducesTo_S1024x1024_S1024_d1 : S1024x1024.ReducesTo [1] S1024
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x1024_S1024x1024_1_0 : S1024x1024.Transposes [1, 0] S1024x1024
  dot_S32768x128_S128x1024_S32768x1024_1_0_0_1_n_n_wf : DotDims.WF S32768x128 S128x1024 S32768x1024 [1] [0] [0] [1] [] []
  dot_S32768x1024_S1024x1024_S32768x1024_1_0_0_1_n_n_wf : DotDims.WF S32768x1024 S1024x1024 S32768x1024 [1] [0] [0] [1] [] []

variable [Facts₀]

def dot_S32768x128_S128x1024_S32768x1024_1_0_0_1_n_n : DotDims S32768x128 S128x1024 S32768x1024 where
  lhsContracting := [1]
  rhsContracting := [0]
  lhsNonContracting := [0]
  rhsNonContracting := [1]
  lhsBatch := []
  rhsBatch := []
  wf := dot_S32768x128_S128x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.KRun.lean ====
/- The run of the program with the three result arrays read off the last boundary of the fold.

   Every weakly fair execution of the program on the TensorCores terminates without faulting, and in every final
   state each of the three result arrays holds what the fold of buffer contents assigns it at the last boundary
   (the exit of the third region), while the five argument arrays hold what they held at launch. -/
import proofs.«100486_j23888608100973_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates, and in every final state the three result arrays
    are the last boundary's contents and the five argument arrays are as launched. -/
theorem run_values : θ_run defs (onTc (τ := τ) (main (F := F))) ⟨m, fun _ => 0, ρ⟩ (fun r => ∀ c : Dev nD,
      r.2.mem ((c.tc : Thread nD τ).loc main_v50) = W20 m ρ c (Proc.devRef .tc main_v50)
      ∧ r.2.mem ((c.tc : Thread nD τ).loc main_v43) = W20 m ρ c (Proc.devRef .tc main_v43)
      ∧ r.2.mem ((c.tc : Thread nD τ).loc main_v45) = W20 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v50 (by decide)),
       h c _ (mem_uc main_v43 (by decide)),
       h c _ (mem_uc main_v45 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c)⟩)

end Cert.KernelIdeal.Run

end
-- ==== Proof.LibQuant.lean ====
/-
  The vocabulary in which the kernel's value and the reference's value are both stated: an 8-bit fake-quantised
  two-layer perceptron over the extended reals.

  * `q8 s x`: symmetric quantisation of `x` at scale `s`, round-half-even of `x / s` clamped to [-128, 127].
  * `qu8 s z x`: asymmetric quantisation at scale `s` and zero point `z`, round-half-even of `x / s` shifted by `z`,
    clamped to [0, 255], and shifted back.
  * `layer a w bi fc`: one output element of a quantised linear layer followed by the rectifier: the integer
    accumulation `∑ k, a k * w k` plus the integer bias `bi`, rescaled by `fc`, clamped below at zero.
  * `supAll f`, `infAll f`: the largest and the smallest entry of a matrix `f`.

  The float literals stay as the words the programs print (the same word on both sides is never evaluated);
  their values are read once, in the module of the scalar laws.
-/
import Idealize.ShloMosaic.PureOps.Ideal

noncomputable section

namespace Cert.Quant

open Idealize.ShloMosaic

/-- Round to the nearest integer, ties to even, the infinities fixed. -/
abbrev rne (x : EReal) : EReal := Ideal.liftRound Ideal.roundHalfEven x

/-- The word of `-128`. -/
abbrev lo8 : EReal := Ideal.ofBits .f32 0xC3000000#32
/-- The word of `127`. -/
abbrev hi8 : EReal := Ideal.ofBits .f32 0x42FE0000#32
/-- The word of `255`. -/
abbrev hiU8 : EReal := Ideal.ofBits .f32 0x437F0000#32
/-- The word of `+0.0`. -/
abbrev zero32 : EReal := Ideal.ofBits .f32 0x00000000#32

/-- The magnitude of an extended real. -/
abbrev mag (x : EReal) : EReal := max x (-x)

/-- Symmetric 8-bit quantisation of `x` at scale `s`. -/
def q8 (s x : EReal) : EReal := min hi8 (max lo8 (rne (Ideal.div x s)))

/-- Asymmetric 8-bit quantisation of `x` at scale `s` and zero point `z`, recentred at the zero point. -/
def qu8 (s z x : EReal) : EReal := min hiU8 (max zero32 (rne (Ideal.div x s) + z)) - z

/-- One output element of a quantised linear layer and the rectifier after it. -/
def layer {K : Nat} (a w : Fin K → EReal) (bi fc : EReal) : EReal := max ((∑ k : Fin K, a k * w k + bi) * fc) zero32

/-- The largest entry of a matrix. -/
def supAll {R C : Nat} (f : Fin R → Fin C → EReal) : EReal :=
  Finset.univ.sup fun r : Fin R => Finset.univ.sup fun j : Fin C => f r j

/-- The smallest entry of a matrix. -/
def infAll {R C : Nat} (f : Fin R → Fin C → EReal) : EReal :=
  Finset.univ.inf fun r : Fin R => Finset.univ.inf fun j : Fin C => f r j

/-- The activation scale of the second layer from the extreme hidden activations: the range
    `max(hmax, 0) - min(hmin, 0)` over 255. -/
def scale2 (hmin hmax : EReal) : EReal := Ideal.div (max hmax zero32 - min hmin zero32) hiU8

/-- The zero point of the second layer: `-min(hmin, 0)` over the scale, rounded. -/
def zeroPoint (hmin s2 : EReal) : EReal := rne (Ideal.div (-(min hmin zero32)) s2)

/-- The integer bias of a layer: the bias over the layer's combined scale, rounded. -/
def biasInt (b fc : EReal) : EReal := rne (Ideal.div b fc)

end Cert.Quant

end
-- ==== Proof.LibQuantLaws.lean ====
/-
  The scalar laws of 8-bit fake quantisation on the extended reals.

  A reference that quantises an activation, multiplies the integer back by its scale `s` and later divides by `s`
  again computes `(c * s) / s`, where a fused kernel keeps the integer `c`. On the extended reals
  the two agree whenever `s ≠ 0`: for a nonzero real `s` by associativity (`s * s⁻¹ = 1`), and for an infinite `s`
  because every quotient by an infinity is `0`, so the integer `c` itself is `0`. For `s = 0` they differ, but then
  the layer's combined scale `s * w` is `0` and the rescaled output is `0` whatever the accumulation was.
  The values of the float words the programs spell are read here, once.
-/
import proofs.«100486_j23888608100973_1_alg».proof.Proof.LibQuant
import Idealize.ShloMosaic.PureOps.Ideal.Laws

noncomputable section

namespace Cert.Quant

open Idealize.ShloMosaic

/-! ## The float words -/

/-- The word `0xFF800000` is `-∞`. -/
theorem bot32 : Ideal.ofBits .f32 0xFF800000#32 = ⊥ := by simp [Ideal.ofBits, Ideal.ieee]
/-- The word `0x7F800000` is `+∞`. -/
theorem top32 : Ideal.ofBits .f32 0x7F800000#32 = ⊤ := by simp [Ideal.ofBits, Ideal.ieee]
/-- The word `0x00000000` is `0`. -/
theorem zero32_eq : zero32 = 0 := Ideal.ofBits_zero_f32
/-- The word `0x42FE0000` is `127`. -/
theorem hi8_eq : hi8 = ((127 : ℝ) : EReal) := by
  simp [Ideal.ofBits, Ideal.ieee, -EReal.coe_mul]; norm_num
/-- The word `0xC3000000` is `-128`. -/
theorem lo8_eq : lo8 = ((-128 : ℝ) : EReal) := by
  simp [Ideal.ofBits, Ideal.ieee, -EReal.coe_mul]; norm_num
/-- The word `0x437F0000` is `255`. -/
theorem hiU8_eq : hiU8 = ((255 : ℝ) : EReal) := by
  simp [Ideal.ofBits, Ideal.ieee, -EReal.coe_mul]; norm_num

theorem lo8_le_zero : lo8 ≤ 0 := by rw [lo8_eq]; exact_mod_cast (by norm_num : (-128 : ℝ) ≤ 0)
theorem zero_le_hi8 : (0 : EReal) ≤ hi8 := by rw [hi8_eq]; exact_mod_cast (by norm_num : (0 : ℝ) ≤ 127)
theorem zero_le_hiU8 : (0 : EReal) ≤ hiU8 := by rw [hiU8_eq]; exact_mod_cast (by norm_num : (0 : ℝ) ≤ 255)

/-! ## Quotients by an infinite scale -/

/-- Every quotient by an infinity is `0`. -/
theorem div_inf (x s : EReal) (hs : s = ⊤ ∨ s = ⊥) : Ideal.div x s = 0 := by
  rcases hs with rfl | rfl
  · rw [Ideal.div, if_neg (by decide), EReal.inv_top, mul_zero]
  · rw [Ideal.div, if_neg (by decide), EReal.inv_bot, mul_zero]

/-- Rounding fixes `0`. -/
theorem rne_zero : rne 0 = 0 := by
  show Ideal.liftRound Ideal.roundHalfEven ((0 : ℝ) : EReal) = 0
  rw [Ideal.liftRound_coe]
  simp [Ideal.roundHalfEven]

/-- At an infinite scale the symmetric quantiser returns `0`. -/
theorem q8_inf (x s : EReal) (hs : s = ⊤ ∨ s = ⊥) : q8 s x = 0 := by
  unfold q8
  rw [div_inf x s hs, rne_zero, max_eq_right lo8_le_zero, min_eq_right zero_le_hi8]

/-- At an infinite scale the zero point is `0`. -/
theorem zeroPoint_inf (hmin s : EReal) (hs : s = ⊤ ∨ s = ⊥) : zeroPoint hmin s = 0 := by
  unfold zeroPoint
  rw [div_inf _ s hs, rne_zero]

/-- At an infinite scale the recentred asymmetric quantiser, at that scale's zero point, returns `0`. -/
theorem qu8_inf (x hmin s : EReal) (hs : s = ⊤ ∨ s = ⊥) : qu8 s (zeroPoint hmin s) x = 0 := by
  unfold qu8
  rw [zeroPoint_inf hmin s hs, div_inf x s hs, rne_zero, add_zero, zero32_eq, max_self, min_eq_right zero_le_hiU8, sub_zero]

/-! ## Multiplying by the scale and dividing by it again -/

/-- `(c * s) / s = c` for a nonzero scale, provided `c = 0` when the scale is infinite. -/
theorem dequant (c s : EReal) (hs0 : s ≠ 0) (hinf : s = ⊤ ∨ s = ⊥ → c = 0) : Ideal.div (c * s) s = c := by
  rw [Ideal.div, if_neg hs0]
  induction s using EReal.rec with
  | bot => rw [hinf (Or.inr rfl), zero_mul, zero_mul]
  | top => rw [hinf (Or.inl rfl), zero_mul, zero_mul]
  | coe r =>
    have hr : r ≠ 0 := fun h => hs0 (by rw [h]; rfl)
    rw [mul_assoc, ← EReal.coe_inv, ← EReal.coe_mul, mul_inv_cancel₀ hr, EReal.coe_one, mul_one]

/-- A layer whose combined scale is `0` outputs the clamp of `0`, whatever it accumulated. -/
theorem layer_scale_zero {K : Nat} (a w : Fin K → EReal) (bi : EReal) : layer a w bi 0 = max 0 zero32 := by
  unfold layer; rw [mul_zero]

/-- THE LAW. A layer fed `(a k * s) / s` equals the layer fed `a k`, when its combined scale is `s * ws` and the
    `a k` vanish at an infinite `s`: for `s = 0` both outputs are the clamp of `0`; otherwise the inputs agree. -/
theorem layer_dequant {K : Nat} (a w : Fin K → EReal) (s ws bi : EReal) (hinf : s = ⊤ ∨ s = ⊥ → ∀ k, a k = 0) :
    layer (fun k => Ideal.div (a k * s) s) w bi (s * ws) = layer a w bi (s * ws) := by
  by_cases hs : s = 0
  · subst hs
    rw [zero_mul, layer_scale_zero, layer_scale_zero]
  · exact congrArg (fun f => layer f w bi (s * ws)) (funext fun k => dequant (a k) s hs fun h => hinf h k)

/-! ## The two-layer network, in the fused form and in the quantise–dequantise–divide form -/

/-- The hidden layer, fused form: the integers `q8 s1 x` feed the accumulation directly. -/
def hiddenK {R K C : Nat} (x : Fin R → Fin K → EReal) (w : Fin K → Fin C → EReal) (b ws : Fin C → EReal) (s1 : EReal) :
    Fin R → Fin C → EReal :=
  fun r j => layer (fun k => q8 s1 (x r k)) (fun k => w k j) (biasInt (b j) (s1 * ws j)) (s1 * ws j)

/-- The hidden layer, reference form: the integers are multiplied by the scale and divided by it again. -/
def hiddenR {R K C : Nat} (x : Fin R → Fin K → EReal) (w : Fin K → Fin C → EReal) (b ws : Fin C → EReal) (s1 : EReal) :
    Fin R → Fin C → EReal :=
  fun r j => layer (fun k => Ideal.div (q8 s1 (x r k) * s1) s1) (fun k => w k j) (biasInt (b j) (s1 * ws j)) (s1 * ws j)

/-- The two forms of the hidden layer are one function. -/
theorem hiddenR_eq_hiddenK {R K C : Nat} (x : Fin R → Fin K → EReal) (w : Fin K → Fin C → EReal) (b ws : Fin C → EReal)
    (s1 : EReal) : hiddenR x w b ws s1 = hiddenK x w b ws s1 :=
  funext fun r => funext fun j =>
    layer_dequant (fun k => q8 s1 (x r k)) (fun k => w k j) s1 (ws j) (biasInt (b j) (s1 * ws j)) fun h k => q8_inf (x r k) s1 h

/-- The second layer's activation scale from the hidden activations. -/
def scaleOf {R C : Nat} (h : Fin R → Fin C → EReal) : EReal := scale2 (infAll h) (supAll h)

/-- The second layer's zero point from the hidden activations. -/
def zeroOf {R C : Nat} (h : Fin R → Fin C → EReal) : EReal := zeroPoint (infAll h) (scaleOf h)

/-- The output layer, fused form. -/
def outK {R C D : Nat} (h : Fin R → Fin C → EReal) (w : Fin C → Fin D → EReal) (b ws : Fin D → EReal) : Fin R → Fin D → EReal :=
  fun r j => layer (fun k => qu8 (scaleOf h) (zeroOf h) (h r k)) (fun k => w k j) (biasInt (b j) (scaleOf h * ws j)) (scaleOf h * ws j)

/-- The output layer, reference form. -/
def outR {R C D : Nat} (h : Fin R → Fin C → EReal) (w : Fin C → Fin D → EReal) (b ws : Fin D → EReal) : Fin R → Fin D → EReal :=
  fun r j => layer (fun k => Ideal.div (qu8 (scaleOf h) (zeroOf h) (h r k) * scaleOf h) (scaleOf h)) (fun k => w k j)
    (biasInt (b j) (scaleOf h * ws j)) (scaleOf h * ws j)

/-- The two forms of the output layer are one function. -/
theorem outR_eq_outK {R C D : Nat} (h : Fin R → Fin C → EReal) (w : Fin C → Fin D → EReal) (b ws : Fin D → EReal) :
    outR h w b ws = outK h w b ws :=
  funext fun r => funext fun j =>
    layer_dequant (fun k => qu8 (scaleOf h) (zeroOf h) (h r k)) (fun k => w k j) (scaleOf h) (ws j)
      (biasInt (b j) (scaleOf h * ws j)) fun hs k => qu8_inf (h r k) (infAll h) (scaleOf h) hs

end Cert.Quant

end
-- ==== Proof.KRegion0.lean ====
/-
  The largest magnitude of the input when the first region is left, for any contents of the arrays at the region's entry.

  The region walks the 32768 rows of the input in 8 blocks of 4096 rows and keeps one running value. At the first
  block it sets the running value to zero; at every block it replaces the running value by the larger of itself and
  the block's largest magnitude. The running value is written out once, after the last block. Every block's largest
  magnitude is at most the largest magnitude M of the whole input, every row of the input lies in one block (row r in
  block r / 4096), and zero is at most M because a magnitude max(y, -y) is never negative: so the running value after
  the last block is exactly M.
-/
import proofs.«100486_j23888608100973_1_alg».proof.Proof.Gen.KernelIdeal.Frame
import proofs.«100486_j23888608100973_1_alg».proof.Proof.LibQuant
import proofs.«100486_j23888608100973_1_alg».proof.Proof.LibQuantLaws
import Idealize.ShloMosaic.Lib.Pipeline.Value
import Idealize.ShloMosaic.Lib.ValueIdx
import Idealize.ShloMosaic.Lib.Tactic

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The reset stores zero (a fact about the block's arithmetic that this module takes as given). -/
abbrev ResetLaw : Prop := ∀ (y : S1x1.Idx), k0_pay1 (F := Ideal) y = Quant.zero32

/-- A block's update: the larger of the running value and the block's largest magnitude (taken as given). -/
abbrev StepLaw : Prop :=
  ∀ (x : Vec Ideal S4096x128 .f32) (v9 : Vec Ideal S1x1 .f32) (y : S1x1.Idx),
    k0_pay2 (F := Ideal) x v9 y = max (v9 y) (Quant.supAll fun (p : Fin 4096) (k : Fin 128) => Quant.mag (x (ix2 p k)))

theorem zeroOff : (![0, 0] : Fin 2 → Nat) = fun _ => 0 := funext fun a => by fin_cases a <;> rfl

/-- A later point leaves the update of its block over the running value it found. -/
theorem laterPoint (c : Dev nD) (i : grid0.Coords) (a1 : Memref sig .tc .vmem S4096x128 .f32) (h1 : a1.IsWhole)
    (a2 : Memref sig .tc .vmem S1x1 .f32) (h2 : a2.IsWhole) (hc : ¬cond0_0 i) (x : Vec Ideal S4096x128 .f32)
    (xo : Vec Ideal S1x1 .f32) :
    out0_B_1 (F := Ideal) c i a1 h1 a2 h2 hc x xo = k0_pay2 (F := Ideal) x xo := by
  unfold out0_B_1
  rw [View.read_writes_eq_canon _ _ _ (cover0_B_1 c i a1 h1 a2 h2 hc x xo)]
  unfold kernelRun0_B
  dsimp only
  rw [View.canon_unit_zero zeroOff]
  simp only [View.readAt_eq_ld, h1.read_unread, h2.read_unread, View.ld_unit_zero (S := S4096x128) zeroOff,
    View.ld_unit_zero (S := S1x1) zeroOff]

/-- The first point leaves the update of its block over the reset's value. -/
theorem firstPoint (c : Dev nD) (i : grid0.Coords) (a1 : Memref sig .tc .vmem S4096x128 .f32) (h1 : a1.IsWhole)
    (a2 : Memref sig .tc .vmem S1x1 .f32) (h2 : a2.IsWhole) (hc : cond0_0 i) (x : Vec Ideal S4096x128 .f32) :
    out0_A_1 (F := Ideal) c i a1 h1 a2 h2 hc x = k0_pay2 (F := Ideal) x (k0_pay1 (F := Ideal)) := by
  unfold out0_A_1
  rw [View.read_writes_eq_canon _ _ _ (cover0_A_1 c i a1 h1 a2 h2 hc x)]
  unfold kernelRun0_A
  dsimp only
  sl_unfold_words
  rw [View.canon_cons_unit_zero (S := S1x1) zeroOff, View.readCov_unit_zero (S := S1x1) _ zeroOff]
  simp only [View.readAt_eq_ld, h1.read_unread, View.ld_unit_zero (S := S4096x128) zeroOff]

/-- The largest magnitude of the whole input as the region finds it. -/
def allMax (c : Dev nD) : EReal :=
  Quant.supAll fun (r : Fin 32768) (k : Fin 128) =>
    Quant.mag ((V c (Pipeline.arrRef spec0 0) : S32768x128.Idx → EReal) (ix2 r k))

/-- The largest magnitude of the input's block at point t. -/
def blockMax (c : Dev nD) (t : Fin cfg0.N) : EReal :=
  Quant.supAll fun (p : Fin 4096) (k : Fin 128) => Quant.mag ((iblk0 V c 0 t : Vec Ideal S4096x128 .f32) (ix2 p k))

/-- Where each block sits: the input's block at point t starts at row block t; the running value is one block. -/
theorem blockPlaces : ∀ t : Fin cfg0.N,
    win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The input's block at point t is rows 4096 t … 4096 t + 4095 of the input. -/
theorem rowsBlock (c : Dev nD) (t : Fin cfg0.N) (y : S4096x128.Idx) (i : S32768x128.Idx)
    (h0 : (i 0).val = 4096 * t.val + (y 0).val) (h1 : (i 1).val = (y 1).val) :
    (iblk0 V c 0 t : Vec Ideal S4096x128 .f32) y = (V c (Pipeline.arrRef spec0 0) : S32768x128.Idx → EReal) i := by
  obtain ⟨e0, e1, -⟩ := blockPlaces t
  unfold iblk0
  rw [View.read_apply]
  show (V c (Pipeline.arrRef spec0 0) : S32768x128.Idx → EReal) _ = _
  congr 1
  funext a
  apply Fin.ext
  match a with
  | ⟨0, _⟩ => show win0_0.index t (0 : Fin 2) * 4096 + 1 * (y 0).val = (i 0).val; rw [e0, h0]; omega
  | ⟨1, _⟩ => show win0_0.index t (1 : Fin 2) * 128 + 1 * (y 1).val = (i 1).val; rw [e1, h1]; omega

/-- A block's largest magnitude is at most the whole input's: every row of a block is a row of the input. -/
theorem blockMax_le (c : Dev nD) (t : Fin cfg0.N) : blockMax V c t ≤ allMax V c := by
  have ht : t.val < 8 := lt_of_lt_of_eq t.isLt (show cfg0.N = 8 from N_0)
  unfold blockMax allMax Quant.supAll
  refine Finset.sup_le fun p _ => Finset.sup_le fun k _ => ?_
  have hp : p.val < 4096 := p.isLt
  refine (le_of_eq (congrArg Quant.mag
    (rowsBlock V c t (ix2 p k) (ix2 (⟨4096 * t.val + p.val, by omega⟩ : Fin 32768) k) rfl rfl))).trans ?_
  exact le_trans
    (Finset.le_sup (f := fun k : Fin 128 => Quant.mag ((V c (Pipeline.arrRef spec0 0) : S32768x128.Idx → EReal)
      (ix2 (⟨4096 * t.val + p.val, by omega⟩ : Fin 32768) k))) (Finset.mem_univ k))
    (Finset.le_sup (f := fun r : Fin 32768 => Finset.univ.sup fun k : Fin 128 =>
      Quant.mag ((V c (Pipeline.arrRef spec0 0) : S32768x128.Idx → EReal) (ix2 r k))) (Finset.mem_univ _))

/-- Every entry of the input is in some block: row r is in block r / 4096. -/
theorem le_blockMax (c : Dev nD) (r : Fin 32768) (k : Fin 128) :
    ∃ t : Fin cfg0.N, Quant.mag ((V c (Pipeline.arrRef spec0 0) : S32768x128.Idx → EReal) (ix2 r k)) ≤ blockMax V c t := by
  have hr : r.val < 32768 := r.isLt
  have hN : cfg0.N = 8 := N_0
  have hlt : r.val / 4096 < cfg0.N := by rw [hN]; omega
  have hp : r.val % 4096 < 4096 := by omega
  have hrow : r.val = 4096 * (r.val / 4096) + r.val % 4096 := by omega
  refine ⟨⟨r.val / 4096, hlt⟩, ?_⟩
  refine (le_of_eq (congrArg Quant.mag
    (rowsBlock V c ⟨r.val / 4096, hlt⟩ (ix2 (⟨r.val % 4096, hp⟩ : Fin 4096) k) (ix2 r k) hrow rfl).symm)).trans ?_
  exact le_trans
    (Finset.le_sup (f := fun k : Fin 128 => Quant.mag ((iblk0 V c 0 ⟨r.val / 4096, hlt⟩ : Vec Ideal S4096x128 .f32)
      (ix2 (⟨r.val % 4096, hp⟩ : Fin 4096) k))) (Finset.mem_univ k))
    (Finset.le_sup (f := fun p : Fin 4096 => Finset.univ.sup fun k : Fin 128 =>
      Quant.mag ((iblk0 V c 0 ⟨r.val / 4096, hlt⟩ : Vec Ideal S4096x128 .f32) (ix2 p k))) (Finset.mem_univ _))

/-- A magnitude is never negative. -/
theorem zero_le_mag (x : EReal) : (0 : EReal) ≤ Quant.mag x := by
  rcases le_total 0 x with h | h
  · exact le_trans h (le_max_left _ _)
  · exact le_trans (EReal.neg_nonneg.mpr h) (le_max_right _ _)

/-- The reset's zero is at most the largest magnitude of the input: the input has an entry. -/
theorem zero_le_allMax (c : Dev nD) : Quant.zero32 ≤ allMax V c := by
  rw [Quant.zero32_eq]
  unfold allMax Quant.supAll
  exact le_trans (zero_le_mag ((V c (Pipeline.arrRef spec0 0) : S32768x128.Idx → EReal) (ix2 (0 : Fin 32768) (0 : Fin 128))))
    (le_trans
      (Finset.le_sup (f := fun k : Fin 128 => Quant.mag ((V c (Pipeline.arrRef spec0 0) : S32768x128.Idx → EReal)
        (ix2 (0 : Fin 32768) k))) (Finset.mem_univ (0 : Fin 128)))
      (Finset.le_sup (f := fun r : Fin 32768 => Finset.univ.sup fun k : Fin 128 =>
        Quant.mag ((V c (Pipeline.arrRef spec0 0) : S32768x128.Idx → EReal) (ix2 r k))) (Finset.mem_univ (0 : Fin 32768))))

/-- After the first point the running value is the larger of zero and the first block's largest magnitude. -/
theorem valueFirst (hP0a : ResetLaw) (hP0b : StepLaw) (c : Dev nD) (y : S1x1.Idx) (h : 0 < cfg0.N) :
    (outsAt0 (F := Ideal) V c 0 h : S1x1.Idx → EReal) y = max Quant.zero32 (blockMax V c ⟨0, h⟩) := by
  have e : outsAt0 (F := Ideal) V c 0 h = k0_pay2 (F := Ideal) (iblk0 V c 0 ⟨0, h⟩) (k0_pay1 (F := Ideal)) :=
    (outsAt0_A V c ⟨0, h⟩ rfl).trans
      (firstPoint c (grid0.coords ⟨0, h⟩) (ms0_0 ⟨0, h⟩) (hs0_0 ⟨0, h⟩) (ms0_1 ⟨0, h⟩) (hs0_1 ⟨0, h⟩)
        ((hcond0_0 ⟨0, h⟩).mpr rfl) (iblk0 V c 0 ⟨0, h⟩))
  rw [e]
  refine (hP0b (iblk0 V c 0 ⟨0, h⟩) (k0_pay1 (F := Ideal)) y).trans ?_
  rw [hP0a y]
  rfl

/-- After a later point the running value is the larger of what it was and that block's largest magnitude. -/
theorem valueLater (hP0b : StepLaw) (c : Dev nD) (y : S1x1.Idx) (n : ℕ) (h : n + 1 < cfg0.N) :
    (outsAt0 (F := Ideal) V c (n + 1) h : S1x1.Idx → EReal) y
      = max ((outsAt0 (F := Ideal) V c n (Nat.lt_of_succ_lt h) : S1x1.Idx → EReal) y) (blockMax V c ⟨n + 1, h⟩) := by
  have hN : cfg0.N = 8 := N_0
  have hB : ¬(⟨n + 1, h⟩ : Fin cfg0.N).val % 8 = 0 := by dsimp only; omega
  have e : outsAt0 (F := Ideal) V c (n + 1) h
      = k0_pay2 (F := Ideal) (iblk0 V c 0 ⟨n + 1, h⟩) (outsAt0 (F := Ideal) V c n (Nat.lt_of_succ_lt h)) :=
    (outsAt0_B V c ⟨n + 1, h⟩ hB).trans
      (laterPoint c (grid0.coords ⟨n + 1, h⟩) (ms0_0 ⟨n + 1, h⟩) (hs0_0 ⟨n + 1, h⟩) (ms0_1 ⟨n + 1, h⟩) (hs0_1 ⟨n + 1, h⟩)
        (fun hh => hB ((hcond0_0 ⟨n + 1, h⟩).mp hh)) (iblk0 V c 0 ⟨n + 1, h⟩)
        (outsAt0 (F := Ideal) V c n (Nat.lt_of_succ_lt h)))
  rw [e]
  exact hP0b (iblk0 V c 0 ⟨n + 1, h⟩) (outsAt0 (F := Ideal) V c n (Nat.lt_of_succ_lt h)) y

/-- The running value after point n is at most the input's largest magnitude and at least the largest magnitude of
    every block up to n: by induction on the point. -/
theorem running (hP0a : ResetLaw) (hP0b : StepLaw) (c : Dev nD) (y : S1x1.Idx) :
    ∀ (n : ℕ) (h : n < cfg0.N), (outsAt0 (F := Ideal) V c n h : S1x1.Idx → EReal) y ≤ allMax V c
      ∧ ∀ t : Fin cfg0.N, t.val ≤ n → blockMax V c t ≤ (outsAt0 (F := Ideal) V c n h : S1x1.Idx → EReal) y
  | 0, h => by
    rw [valueFirst V hP0a hP0b c y h]
    refine ⟨max_le (zero_le_allMax V c) (blockMax_le V c _), fun t ht => ?_⟩
    obtain rfl : t = ⟨0, h⟩ := Fin.ext (Nat.le_zero.mp ht)
    exact le_max_right _ _
  | n + 1, h => by
    obtain ⟨ih1, ih2⟩ := running hP0a hP0b c y n (Nat.lt_of_succ_lt h)
    rw [valueLater V hP0b c y n h]
    refine ⟨max_le ih1 (blockMax_le V c _), fun t ht => ?_⟩
    rcases Nat.lt_or_ge t.val (n + 1) with hlt | hge
    · exact le_trans (ih2 t (Nat.lt_succ_iff.mp hlt)) (le_max_left _ _)
    · obtain rfl : t = ⟨n + 1, h⟩ := Fin.ext (Nat.le_antisymm ht hge)
      exact le_max_right _ _

/-- After the last point the running value is the input's largest magnitude. -/
theorem lastValue (hP0a : ResetLaw) (hP0b : StepLaw) (c : Dev nD) (h : 7 < cfg0.N) :
    (outsAt0 (F := Ideal) V c 7 h : S1x1.Idx → EReal) = fun _ => allMax V c := by
  funext y
  obtain ⟨hle, hge⟩ := running V hP0a hP0b c y 7 h
  refine le_antisymm hle ?_
  unfold allMax Quant.supAll
  refine Finset.sup_le fun r _ => Finset.sup_le fun k _ => ?_
  obtain ⟨t, ht⟩ := le_blockMax V c r k
  have ht8 : t.val < 8 := lt_of_lt_of_eq t.isLt (show cfg0.N = 8 from N_0)
  exact le_trans ht (hge t (by omega))

/-- The one write-back, after the last point, writes the input's largest magnitude. -/
theorem flushed_eq (hP0a : ResetLaw) (hP0b : StepLaw) (c : Dev nD) (t : Fin cfg0.N) (hf : (cfg0.win 1).flush t = true) :
    (dat0 (F := Ideal) V c).flushed 1 t = ((cfg0.win 1).blk t).view.read (Elt Ideal) (fun _ => allMax V c) := by
  have hN : cfg0.N = 8 := N_0
  have h7 : t.val = 7 := by have := (flush0_1 t).mp hf; have := t.isLt; omega
  obtain rfl : t = t0_7 := Fin.ext h7
  show (cfg0.win 1).cut (grid0.coords t0_7) ((dat0 (F := Ideal) V c).after 1 t0_7) = _
  have e : outsAt0 (F := Ideal) V c t0_7.val t0_7.isLt = fun _ => allMax V c := lastValue V hP0a hP0b c t0_7.isLt
  rw [after0_1, e]
  have hz' : (fun a => win0_1.index t0_7 a * main_v22.ty.shape.size a) = fun _ => 0 :=
    funext fun a => by fin_cases a <;> decide
  exact (Memref.read_access_unit_zero (Elt Ideal) main_v22 hz' (fun a => by rw [congrFun hz' a]; simp)
    (fun _ => allMax V c)).symm

/-- THE RUNNING VALUE'S ARRAY when the region is left: the largest magnitude of the whole input. -/
theorem amax_final (hP0a : ResetLaw) (hP0b : StepLaw) (c : Dev nD) :
    ((dat0 (F := Ideal) V c).arrAt 1 cfg0.N : S1x1.Idx → EReal) = fun _ =>
      Quant.supAll fun (r : Fin 32768) (k : Fin 128) =>
        Quant.mag ((V c (Pipeline.arrRef spec0 0) : S32768x128.Idx → EReal) (ix2 r k)) :=
  (dat0 (F := Ideal) V c).arrAt_eq_of_cover 1 (fun _ => allMax V c) (flushed_eq V hP0a hP0b c) fun i =>
    ⟨t0_7, (flush0_1 t0_7).mpr rfl, by
      show i ∈ ((View.whole main_v22).slice (win0_1.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1 from by decide +kernel]; omega⟩

end Cert.KernelIdeal.Region0

end
-- ==== Proof.KRegion1Pieces.lean ====
/-
  What one step of the first-layer region leaves in its three staging buffers, as functions of the blocks it loads,
  for any float values.

  A step loads the activation scale, a block of 1024 activation rows, the quantised weights and the two rows of
  per-column constants; it stores the block's hidden activations (one store covering the buffer), and replaces the
  running least and the running greatest hidden activation by their combination with the block's least and greatest
  entry. At the first step the two running scalars are first overwritten with +infinity and -infinity, so what the
  step reads back there is what it has just stored; at a later step it reads what the step before left.
-/
import proofs.«100486_j23888608100973_1_alg».proof.Proof.Gen.KernelIdeal.Frame
import proofs.«100486_j23888608100973_1_alg».proof.Proof.LibQuant
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

/-! ## What one grid point leaves in the three staging buffers, for any float values -/

section Pieces

variable {F : FTy → Type} [FloatOps F]

theorem hz : (![0, 0] : Fin 2 → Nat) = fun _ => 0 := funext fun a => by fin_cases a <;> rfl

/-- At the first block the hidden-activation buffer holds the layer of the block: one store covering the buffer. -/
theorem out_A_5 (c : Dev nD) (i : grid1.Coords) (a1 : Memref sig .tc .vmem S1024x128 .f32) (h1 : a1.IsWhole) (a2 : Memref sig .tc .vmem S128x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1 .f32) (h5 : a5.IsWhole) (a6 : Memref sig .tc .vmem S1024x1024 .f32) (h6 : a6.IsWhole) (a7 : Memref sig .tc .vmem S1x1 .f32) (h7 : a7.IsWhole) (a8 : Memref sig .tc .vmem S1x1 .f32) (h8 : a8.IsWhole) (hc : cond1_0 i) (x0 : Vec F S1024x128 .f32) (x1 : Vec F S128x1024 .bf16) (x2 : Vec F S1x1024 .f32) (x3 : Vec F S1x1024 .f32) (x4 : Vec F S1x1 .f32) :
    out1_A_5 c i a1 h1 a2 h2 a3 h3 a4 h4 a5 h5 a6 h6 a7 h7 a8 h8 hc x0 x1 x2 x3 x4 = k1_pay5 x4 x0 x1 x2 x3 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz]
  simp only [View.readAt_eq_ld, h1.read_unread, h2.read_unread, h3.read_unread, h4.read_unread, h5.read_unread, h7.read_unread, h8.read_unread, View.ld_unit_zero (S := S1024x128) hz, View.ld_unit_zero (S := S128x1024) hz, View.ld_unit_zero (S := S1x1024) hz, View.ld_unit_zero (S := S1x1) hz, View.ld_unit_zero (S := S1024x1024) hz, shapeCast_self]

/-- At the first block the running least is the block's least entry against the +infinity just stored there. -/
theorem out_A_6 (c : Dev nD) (i : grid1.Coords) (a1 : Memref sig .tc .vmem S1024x128 .f32) (h1 : a1.IsWhole) (a2 : Memref sig .tc .vmem S128x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1 .f32) (h5 : a5.IsWhole) (a6 : Memref sig .tc .vmem S1024x1024 .f32) (h6 : a6.IsWhole) (a7 : Memref sig .tc .vmem S1x1 .f32) (h7 : a7.IsWhole) (a8 : Memref sig .tc .vmem S1x1 .f32) (h8 : a8.IsWhole) (hc : cond1_0 i) (x0 : Vec F S1024x128 .f32) (x1 : Vec F S128x1024 .bf16) (x2 : Vec F S1x1024 .f32) (x3 : Vec F S1x1024 .f32) (x4 : Vec F S1x1 .f32) :
    out1_A_6 c i a1 h1 a2 h2 a3 h3 a4 h4 a5 h5 a6 h6 a7 h7 a8 h8 hc x0 x1 x2 x3 x4 = k1_pay2 (k1_pay7 x4 x0 x1 x2 x3) k1_pay3 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h7.read_unread, h8.read_unread, View.ld_unit_zero (S := S1024x128) hz, View.ld_unit_zero (S := S128x1024) hz, View.ld_unit_zero (S := S1x1024) hz, View.ld_unit_zero (S := S1x1) hz, View.ld_unit_zero (S := S1024x1024) hz, shapeCast_self]

/-- At the first block the running greatest is the block's greatest entry against the -infinity just stored there. -/
theorem out_A_7 (c : Dev nD) (i : grid1.Coords) (a1 : Memref sig .tc .vmem S1024x128 .f32) (h1 : a1.IsWhole) (a2 : Memref sig .tc .vmem S128x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1 .f32) (h5 : a5.IsWhole) (a6 : Memref sig .tc .vmem S1024x1024 .f32) (h6 : a6.IsWhole) (a7 : Memref sig .tc .vmem S1x1 .f32) (h7 : a7.IsWhole) (a8 : Memref sig .tc .vmem S1x1 .f32) (h8 : a8.IsWhole) (hc : cond1_0 i) (x0 : Vec F S1024x128 .f32) (x1 : Vec F S128x1024 .bf16) (x2 : Vec F S1x1024 .f32) (x3 : Vec F S1x1024 .f32) (x4 : Vec F S1x1 .f32) :
    out1_A_7 c i a1 h1 a2 h2 a3 h3 a4 h4 a5 h5 a6 h6 a7 h7 a8 h8 hc x0 x1 x2 x3 x4 = k1_pay1 (k1_pay6 x4 x0 x1 x2 x3) k1_pay4 := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h7.read_unread, h8.read_unread, View.ld_unit_zero (S := S1024x128) hz, View.ld_unit_zero (S := S128x1024) hz, View.ld_unit_zero (S := S1x1024) hz, View.ld_unit_zero (S := S1x1) hz, View.ld_unit_zero (S := S1024x1024) hz, shapeCast_self]

/-- At a later block the hidden-activation buffer holds the layer of the block. -/
theorem out_B_5 (c : Dev nD) (i : grid1.Coords) (a1 : Memref sig .tc .vmem S1024x128 .f32) (h1 : a1.IsWhole) (a2 : Memref sig .tc .vmem S128x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1 .f32) (h5 : a5.IsWhole) (a6 : Memref sig .tc .vmem S1024x1024 .f32) (h6 : a6.IsWhole) (a7 : Memref sig .tc .vmem S1x1 .f32) (h7 : a7.IsWhole) (a8 : Memref sig .tc .vmem S1x1 .f32) (h8 : a8.IsWhole) (hc : ¬cond1_0 i) (x0 : Vec F S1024x128 .f32) (x1 : Vec F S128x1024 .bf16) (x2 : Vec F S1x1024 .f32) (x3 : Vec F S1x1024 .f32) (x4 : Vec F S1x1 .f32) (xo6 xo7 : Vec F S1x1 .f32) :
    out1_B_5 c i a1 h1 a2 h2 a3 h3 a4 h4 a5 h5 a6 h6 a7 h7 a8 h8 hc x0 x1 x2 x3 x4 xo6 xo7 = k1_pay5 x4 x0 x1 x2 x3 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread, h7.read_unread, h8.read_unread, View.ld_unit_zero (S := S1024x128) hz, View.ld_unit_zero (S := S128x1024) hz, View.ld_unit_zero (S := S1x1024) hz, View.ld_unit_zero (S := S1x1) hz, View.ld_unit_zero (S := S1024x1024) hz, shapeCast_self]

/-- At a later block the running least is the block's least entry against the least carried from the block before. -/
theorem out_B_6 (c : Dev nD) (i : grid1.Coords) (a1 : Memref sig .tc .vmem S1024x128 .f32) (h1 : a1.IsWhole) (a2 : Memref sig .tc .vmem S128x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1 .f32) (h5 : a5.IsWhole) (a6 : Memref sig .tc .vmem S1024x1024 .f32) (h6 : a6.IsWhole) (a7 : Memref sig .tc .vmem S1x1 .f32) (h7 : a7.IsWhole) (a8 : Memref sig .tc .vmem S1x1 .f32) (h8 : a8.IsWhole) (hc : ¬cond1_0 i) (x0 : Vec F S1024x128 .f32) (x1 : Vec F S128x1024 .bf16) (x2 : Vec F S1x1024 .f32) (x3 : Vec F S1x1024 .f32) (x4 : Vec F S1x1 .f32) (xo6 xo7 : Vec F S1x1 .f32) :
    out1_B_6 c i a1 h1 a2 h2 a3 h3 a4 h4 a5 h5 a6 h6 a7 h7 a8 h8 hc x0 x1 x2 x3 x4 xo6 xo7 = k1_pay2 (k1_pay7 x4 x0 x1 x2 x3) xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S1024x128) hz, View.ld_unit_zero (S := S128x1024) hz, View.ld_unit_zero (S := S1x1024) hz, View.ld_unit_zero (S := S1x1) hz, View.ld_unit_zero (S := S1024x1024) hz, shapeCast_self]

/-- At a later block the running greatest is the block's greatest entry against the greatest carried from the block before. -/
theorem out_B_7 (c : Dev nD) (i : grid1.Coords) (a1 : Memref sig .tc .vmem S1024x128 .f32) (h1 : a1.IsWhole) (a2 : Memref sig .tc .vmem S128x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1 .f32) (h5 : a5.IsWhole) (a6 : Memref sig .tc .vmem S1024x1024 .f32) (h6 : a6.IsWhole) (a7 : Memref sig .tc .vmem S1x1 .f32) (h7 : a7.IsWhole) (a8 : Memref sig .tc .vmem S1x1 .f32) (h8 : a8.IsWhole) (hc : ¬cond1_0 i) (x0 : Vec F S1024x128 .f32) (x1 : Vec F S128x1024 .bf16) (x2 : Vec F S1x1024 .f32) (x3 : Vec F S1x1024 .f32) (x4 : Vec F S1x1 .f32) (xo6 xo7 : Vec F S1x1 .f32) :
    out1_B_7 c i a1 h1 a2 h2 a3 h3 a4 h4 a5 h5 a6 h6 a7 h7 a8 h8 hc x0 x1 x2 x3 x4 xo6 xo7 = k1_pay1 (k1_pay6 x4 x0 x1 x2 x3) xo7 := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S1024x128) hz, View.ld_unit_zero (S := S128x1024) hz, View.ld_unit_zero (S := S1x1024) hz, View.ld_unit_zero (S := S1x1) hz, View.ld_unit_zero (S := S1024x1024) hz, shapeCast_self]

end Pieces

end Cert.KernelIdeal.Region1

end
-- ==== Proof.KRegion1.lean ====
/-
  What the first-layer region leaves in its three output arrays, for any contents of the arrays it is entered with.

  The region walks the 32 row blocks (1024 rows each) of the activation matrix. At every block it writes the block's
  hidden activations, the rectified quantised linear layer of the block's rows, to the matching rows of the hidden
  array; and it keeps two running scalars, the least and the greatest hidden activation met so far, started at
  +infinity and -infinity at the first block and written out once, after the last block. So the hidden array ends
  holding the layer of every row, and the two scalars the least and the greatest entry of that whole matrix: an
  extremum taken block by block is the extremum over all rows, because a bound on every entry of every block is a
  bound on every entry of every row and conversely (row r is row r mod 1024 of block r / 1024).
-/
import proofs.«100486_j23888608100973_1_alg».proof.Proof.KRegion1Pieces
import proofs.«100486_j23888608100973_1_alg».proof.Proof.LibQuant
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

/-! ## What the three staging buffers hold after each block -/

section Points

variable {F : FTy → Type} [FloatOps F]
variable (V : (c : Dev nD) → (b : Ref sig .tc) → Buf (Elt F) ((c : Thread nD τ).loc b))

/-- After any block the hidden-activation buffer holds the layer of that block's rows. -/
theorem outs5 (c : Dev nD) (t : Fin cfg1.N) :
    (outsAt1 V c t.val t.isLt).1 = k1_pay5 (iblk1 V c 4 t) (iblk1 V c 0 t) (iblk1 V c 1 t) (iblk1 V c 2 t) (iblk1 V c 3 t) := by
  by_cases h0 : t.val % 32 = 0
  · rw [outsAt1_A V c t h0]
    dsimp only
    exact out_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)
  · rw [outsAt1_B V c t h0]
    dsimp only
    exact out_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

/-- After the first block the running least is the first block's least entry against +infinity. -/
theorem outs6_first (c : Dev nD) (h : 0 < cfg1.N) :
    (outsAt1 V c 0 h).2.1 = k1_pay2 (k1_pay7 (iblk1 V c 4 ⟨0, h⟩) (iblk1 V c 0 ⟨0, h⟩) (iblk1 V c 1 ⟨0, h⟩) (iblk1 V c 2 ⟨0, h⟩) (iblk1 V c 3 ⟨0, h⟩)) k1_pay3 := by
  rw [outsAt1_A V c ⟨0, h⟩ rfl]
  dsimp only
  exact out_A_6 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩)

/-- After the first block the running greatest is the first block's greatest entry against -infinity. -/
theorem outs7_first (c : Dev nD) (h : 0 < cfg1.N) :
    (outsAt1 V c 0 h).2.2 = k1_pay1 (k1_pay6 (iblk1 V c 4 ⟨0, h⟩) (iblk1 V c 0 ⟨0, h⟩) (iblk1 V c 1 ⟨0, h⟩) (iblk1 V c 2 ⟨0, h⟩) (iblk1 V c 3 ⟨0, h⟩)) k1_pay4 := by
  rw [outsAt1_A V c ⟨0, h⟩ rfl]
  dsimp only
  exact out_A_7 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩)

/-- After a later block the running least is that block's least entry against the running least before it. -/
theorem outs6_next (c : Dev nD) (n : Nat) (h : n + 1 < cfg1.N) :
    (outsAt1 V c (n + 1) h).2.1 = k1_pay2 (k1_pay7 (iblk1 V c 4 ⟨n + 1, h⟩) (iblk1 V c 0 ⟨n + 1, h⟩) (iblk1 V c 1 ⟨n + 1, h⟩) (iblk1 V c 2 ⟨n + 1, h⟩) (iblk1 V c 3 ⟨n + 1, h⟩)) (outsAt1 V c n (Nat.lt_of_succ_lt h)).2.1 := by
  have hN : n + 1 < 32 := lt_of_lt_of_eq h (show cfg1.N = 32 from N_1)
  have hB : ¬(⟨n + 1, h⟩ : Fin cfg1.N).val % 32 = 0 := by dsimp only; omega
  rw [outsAt1_B V c ⟨n + 1, h⟩ hB]
  dsimp only
  exact out_B_6 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun h' => hB ((hcond1_0 ⟨n + 1, h⟩).mp h')) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 (outsAt1 V c n (Nat.lt_of_succ_lt h)).2.2

/-- After a later block the running greatest is that block's greatest entry against the running greatest before it. -/
theorem outs7_next (c : Dev nD) (n : Nat) (h : n + 1 < cfg1.N) :
    (outsAt1 V c (n + 1) h).2.2 = k1_pay1 (k1_pay6 (iblk1 V c 4 ⟨n + 1, h⟩) (iblk1 V c 0 ⟨n + 1, h⟩) (iblk1 V c 1 ⟨n + 1, h⟩) (iblk1 V c 2 ⟨n + 1, h⟩) (iblk1 V c 3 ⟨n + 1, h⟩)) (outsAt1 V c n (Nat.lt_of_succ_lt h)).2.2 := by
  have hN : n + 1 < 32 := lt_of_lt_of_eq h (show cfg1.N = 32 from N_1)
  have hB : ¬(⟨n + 1, h⟩ : Fin cfg1.N).val % 32 = 0 := by dsimp only; omega
  rw [outsAt1_B V c ⟨n + 1, h⟩ hB]
  dsimp only
  exact out_B_7 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun h' => hB ((hcond1_0 ⟨n + 1, h⟩).mp h')) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 (outsAt1 V c n (Nat.lt_of_succ_lt h)).2.2

end Points

/-! ## The arithmetic of one step, as laws of the payload functions over the extended reals

  Each is a statement about a payload function alone; this module takes them as hypotheses. -/

/-- The hidden block at an entry: the rectified quantised linear layer of the row and the column. -/
abbrev Pay5Law : Prop := ∀ (s : Vec Ideal S1x1 .f32) (x : Vec Ideal S1024x128 .f32) (w : Vec Ideal S128x1024 .bf16) (bi fc : Vec Ideal S1x1024 .f32) (p q : Fin 1024),
  k1_pay5 (F := Ideal) s x w bi fc (ix2 p q) = Quant.layer (fun k : Fin 128 => Quant.q8 (s (ix2 0 0)) (x (ix2 p k))) (fun k : Fin 128 => w (ix2 k q)) (bi (ix2 0 q)) (fc (ix2 0 q))
/-- The block's greatest entry. -/
abbrev Pay6Law : Prop := ∀ (s : Vec Ideal S1x1 .f32) (x : Vec Ideal S1024x128 .f32) (w : Vec Ideal S128x1024 .bf16) (bi fc : Vec Ideal S1x1024 .f32) (y : S1x1.Idx),
  k1_pay6 (F := Ideal) s x w bi fc y = Quant.supAll fun (p q : Fin 1024) => k1_pay5 (F := Ideal) s x w bi fc (ix2 p q)
/-- The block's least entry. -/
abbrev Pay7Law : Prop := ∀ (s : Vec Ideal S1x1 .f32) (x : Vec Ideal S1024x128 .f32) (w : Vec Ideal S128x1024 .bf16) (bi fc : Vec Ideal S1x1024 .f32) (y : S1.Idx),
  k1_pay7 (F := Ideal) s x w bi fc y = Quant.infAll fun (p q : Fin 1024) => k1_pay5 (F := Ideal) s x w bi fc (ix2 p q)
/-- The running greatest against a block's greatest. -/
abbrev Pay1Law : Prop := ∀ (v31 v36 : Vec Ideal S1x1 .f32) (y : S1x1.Idx), k1_pay1 (F := Ideal) v31 v36 y = max (v36 y) (v31 y)
/-- The running least against a block's least. -/
abbrev Pay2Law : Prop := ∀ (v34 : Vec Ideal S1 .f32) (v40 : Vec Ideal S1x1 .f32) (y : S1x1.Idx), k1_pay2 (F := Ideal) v34 v40 y = min (v40 y) (v34 (ix1 0))
/-- The running least starts at +infinity. -/
abbrev Pay3Law : Prop := ∀ (y : S1x1.Idx), k1_pay3 (F := Ideal) y = (⊤ : EReal)
/-- The running greatest starts at -infinity. -/
abbrev Pay4Law : Prop := ∀ (y : S1x1.Idx), k1_pay4 (F := Ideal) y = (⊥ : EReal)

/-! ## The hidden array: every row's layer -/

section Hidden

variable (V : (c : Dev nD) → (b : Ref sig .tc) → Buf (Elt Ideal) ((c : Thread nD τ).loc b))

/-- The hidden activations as one matrix of the arrays the region is entered with: entry (r, j) is the rectified
    quantised linear layer of activation row r (quantised at the region's scale) and weight column j. -/
def hidK (c : Dev nD) : Fin 32768 → Fin 1024 → EReal := fun r j =>
  Quant.layer (fun k : Fin 128 => Quant.q8 ((V c (Pipeline.arrRef spec1 4) : S1x1.Idx → EReal) (ix2 0 0)) ((V c (Pipeline.arrRef spec1 0) : S32768x128.Idx → EReal) (ix2 r k)))
    (fun k : Fin 128 => (V c (Pipeline.arrRef spec1 1) : S128x1024.Idx → EReal) (ix2 k j))
    ((V c (Pipeline.arrRef spec1 2) : S1x1024.Idx → EReal) (ix2 0 j))
    ((V c (Pipeline.arrRef spec1 3) : S1x1024.Idx → EReal) (ix2 0 j))

/-- The block indices, decided over the 32 points: the activation window and the hidden window sit at row block t,
    every other window at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row p of block t is row 1024 t + p of the matrix. -/
def rowOf (t : Fin cfg1.N) (p : Fin 1024) : Fin 32768 :=
  ⟨1024 * t.val + p.val, by have := lt_of_lt_of_eq t.isLt (show cfg1.N = 32 from N_1); have := p.isLt; omega⟩

/-- The activation block at point t reads rows 1024 t … of the activations. -/
theorem read0 (c : Dev nD) (t : Fin cfg1.N) (p : Fin 1024) (k : Fin 128) :
    (iblk1 V c 0 t : S1024x128.Idx → EReal) (ix2 p k) = (V c (Pipeline.arrRef spec1 0) : S32768x128.Idx → EReal) (ix2 (rowOf t p) k) := by
  obtain ⟨e0, e1, -⟩ := idx_facts t
  unfold iblk1
  rw [View.read_apply]
  show (V c (Pipeline.arrRef spec1 0) : S32768x128.Idx → EReal) _ = _
  congr 1
  funext a
  apply Fin.ext
  match a with
  | ⟨0, _⟩ => show win1_0.index t (0 : Fin 2) * 1024 + 1 * p.val = 1024 * t.val + p.val; rw [e0]; omega
  | ⟨1, _⟩ => show win1_0.index t (1 : Fin 2) * 128 + 1 * k.val = k.val; rw [e1]; omega

/-- The weight block at every point is the whole weight matrix. -/
theorem read1 (c : Dev nD) (t : Fin cfg1.N) (k : Fin 128) (q : Fin 1024) :
    (iblk1 V c 1 t : S128x1024.Idx → EReal) (ix2 k q) = (V c (Pipeline.arrRef spec1 1) : S128x1024.Idx → EReal) (ix2 k q) := by
  obtain ⟨-, -, e0, e1, -⟩ := idx_facts t
  unfold iblk1
  rw [View.read_apply]
  show (V c (Pipeline.arrRef spec1 1) : S128x1024.Idx → EReal) _ = _
  congr 1
  funext a
  apply Fin.ext
  match a with
  | ⟨0, _⟩ => show win1_1.index t (0 : Fin 2) * 128 + 1 * k.val = k.val; rw [e0]; omega
  | ⟨1, _⟩ => show win1_1.index t (1 : Fin 2) * 1024 + 1 * q.val = q.val; rw [e1]; omega

/-- The integer-bias block at every point is the whole row. -/
theorem read2 (c : Dev nD) (t : Fin cfg1.N) (q : Fin 1024) :
    (iblk1 V c 2 t : S1x1024.Idx → EReal) (ix2 0 q) = (V c (Pipeline.arrRef spec1 2) : S1x1024.Idx → EReal) (ix2 0 q) := by
  obtain ⟨-, -, -, -, e0, e1, -⟩ := idx_facts t
  unfold iblk1
  rw [View.read_apply]
  show (V c (Pipeline.arrRef spec1 2) : S1x1024.Idx → EReal) _ = _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = q.val; rw [e1]; omega

/-- The rescaling block at every point is the whole row. -/
theorem read3 (c : Dev nD) (t : Fin cfg1.N) (q : Fin 1024) :
    (iblk1 V c 3 t : S1x1024.Idx → EReal) (ix2 0 q) = (V c (Pipeline.arrRef spec1 3) : S1x1024.Idx → EReal) (ix2 0 q) := by
  obtain ⟨-, -, -, -, -, -, e0, e1, -⟩ := idx_facts t
  unfold iblk1
  rw [View.read_apply]
  show (V c (Pipeline.arrRef spec1 3) : S1x1024.Idx → EReal) _ = _
  congr 1
  funext a
  apply Fin.ext
  match a with
  | ⟨0, _⟩ => show win1_3.index t (0 : Fin 2) * 1 + 1 * 0 = 0; rw [e0]
  | ⟨1, _⟩ => show win1_3.index t (1 : Fin 2) * 1024 + 1 * q.val = q.val; rw [e1]; omega

/-- The scale block at every point is the scale. -/
theorem read4 (c : Dev nD) (t : Fin cfg1.N) :
    (iblk1 V c 4 t : S1x1.Idx → EReal) (ix2 0 0) = (V c (Pipeline.arrRef spec1 4) : S1x1.Idx → EReal) (ix2 0 0) := by
  obtain ⟨-, -, -, -, -, -, -, -, e0, e1, -⟩ := idx_facts t
  unfold iblk1
  rw [View.read_apply]
  show (V c (Pipeline.arrRef spec1 4) : S1x1.Idx → EReal) _ = _
  congr 1
  funext a
  apply Fin.ext
  match a with
  | ⟨0, _⟩ => show win1_4.index t (0 : Fin 2) * 1 + 1 * 0 = 0; rw [e0]
  | ⟨1, _⟩ => show win1_4.index t (1 : Fin 2) * 1 + 1 * 0 = 0; rw [e1]

/-- Entry (p, q) of the hidden block of point t is entry (1024 t + p, q) of the hidden matrix. -/
theorem block_eq (hP5 : Pay5Law) (c : Dev nD) (t : Fin cfg1.N) (p q : Fin 1024) :
    k1_pay5 (F := Ideal) (iblk1 V c 4 t) (iblk1 V c 0 t) (iblk1 V c 1 t) (iblk1 V c 2 t) (iblk1 V c 3 t) (ix2 p q) = hidK V c (rowOf t p) q := by
  refine (hP5 (iblk1 V c 4 t) (iblk1 V c 0 t) (iblk1 V c 1 t) (iblk1 V c 2 t) (iblk1 V c 3 t) p q).trans ?_
  unfold hidK
  rw [read4 V c t, read2 V c t q, read3 V c t q]
  congr 1
  · funext k; rw [read0 V c t p k]
  · funext k; exact read1 V c t k q

end Hidden

section HiddenArray

variable (V : (c : Dev nD) → (b : Ref sig .tc) → Buf (Elt Ideal) ((c : Thread nD τ).loc b))

/-- What point t writes back to the hidden array is rows 1024 t … of the hidden matrix. -/
theorem flushed5_eq (hP5 : Pay5Law) (c : Dev nD) (t : Fin cfg1.N) :
    (dat1 (F := Ideal) V c).flushed 5 t = ((cfg1.win 5).blk t).view.read (Elt Ideal) (fun i : S32768x1024.Idx => hidK V c (i 0) (i 1)) := by
  show (cfg1.win 5).cut (grid1.coords t) ((dat1 V c).after 5 t) = _
  rw [after1_5, outs5]
  obtain ⟨-, -, -, -, -, -, -, -, -, -, e50, e51, -⟩ := idx_facts t
  funext j
  have hp : (j 0).val < 1024 := (j 0).isLt
  have hq : (j 1).val < 1024 := (j 1).isLt
  have ej : (cfg1.win 5).xinj (grid1.coords t) j = ix2 (⟨(j 0).val, hp⟩ : Fin 1024) (⟨(j 1).val, hq⟩ : Fin 1024) :=
    funext fun a => by match a with | ⟨0, _⟩ => rfl | ⟨1, _⟩ => rfl
  show k1_pay5 (F := Ideal) (iblk1 V c 4 t) (iblk1 V c 0 t) (iblk1 V c 1 t) (iblk1 V c 2 t) (iblk1 V c 3 t) ((cfg1.win 5).xinj (grid1.coords t) j) = _
  rw [ej, block_eq V hP5 c t, View.read_apply]
  show hidK V c _ _ = hidK V c _ _
  congr 1
  · apply Fin.ext
    show 1024 * t.val + (j 0).val = win1_5.index t (0 : Fin 2) * 1024 + 1 * (j 0).val
    rw [e50]; omega
  · apply Fin.ext
    show (j 1).val = win1_5.index t (1 : Fin 2) * 1024 + 1 * (j 1).val
    rw [e51]; omega

/-- An index of the hidden array is in point t's block iff each coordinate is in the block's range on its axis. -/
theorem mem_blk5 (t : Fin cfg1.N) (i : S32768x1024.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v32_0).slice (win1_5.rect t)).set ↔ _
  rw [View.set_slice_whole, Rect.mem_set_unit]
  exact Iff.rfl

/-- The hidden array, when the region is left, holds the layer of every activation row: row r was written at point
    r / 1024. -/
theorem h_final (hP5 : Pay5Law) (c : Dev nD) :
    ((dat1 (F := Ideal) V c).arrAt 5 cfg1.N : S32768x1024.Idx → EReal) = fun i => hidK V c (i 0) (i 1) :=
  (dat1 (F := Ideal) V c).arrAt_eq_of_cover 5 (fun i : S32768x1024.Idx => hidK V c (i 0) (i 1)) (fun t _ => flushed5_eq V hP5 c t) fun i => by
    have hi0 : (i 0).val < 32768 := (i 0).isLt
    have hi1 : (i 1).val < 1024 := (i 1).isLt
    have hN : cfg1.N = 32 := N_1
    obtain ⟨t, ht⟩ : ∃ t : Fin cfg1.N, t.val = (i 0).val / 1024 := ⟨⟨(i 0).val / 1024, by rw [hN]; omega⟩, rfl⟩
    obtain ⟨-, -, -, -, -, -, -, -, -, -, e50, e51, -⟩ := idx_facts t
    refine ⟨t, flush1_5 t, ?_⟩
    rw [mem_blk5]
    intro a
    match a with
    | ⟨0, _⟩ =>
      show win1_5.index t (0 : Fin 2) * 1024 ≤ (i 0).val ∧ (i 0).val < win1_5.index t (0 : Fin 2) * 1024 + 1024
      rw [e50, ht]; omega
    | ⟨1, _⟩ =>
      show win1_5.index t (1 : Fin 2) * 1024 ≤ (i 1).val ∧ (i 1).val < win1_5.index t (1 : Fin 2) * 1024 + 1024
      rw [e51]; omega

end HiddenArray

/-! ## The two running extrema -/

section Extrema

/-- A bound above every entry of a matrix is a bound above its greatest entry, and conversely. -/
theorem supAll_le_iff {R C : Nat} (f : Fin R → Fin C → EReal) (z : EReal) : Quant.supAll f ≤ z ↔ ∀ r j, f r j ≤ z := by
  unfold Quant.supAll
  simp only [Finset.sup_le_iff, Finset.mem_univ, forall_true_left]

/-- A bound below every entry of a matrix is a bound below its least entry, and conversely. -/
theorem le_infAll_iff {R C : Nat} (f : Fin R → Fin C → EReal) (z : EReal) : z ≤ Quant.infAll f ↔ ∀ r j, z ≤ f r j := by
  unfold Quant.infAll
  simp only [Finset.le_inf_iff, Finset.mem_univ, forall_true_left]

/-- Every row of the matrix is a row of one of the 32 blocks: row r is row r mod 1024 of block r / 1024. -/
theorem rows_iff (P : Fin 32768 → Prop) : (∀ (t : Fin cfg1.N) (p : Fin 1024), P (rowOf t p)) ↔ ∀ r, P r := by
  constructor
  · intro H r
    have hr : r.val < 32768 := r.isLt
    have hN : cfg1.N = 32 := N_1
    have h := H ⟨r.val / 1024, by rw [hN]; omega⟩ ⟨r.val % 1024, Nat.mod_lt _ (by norm_num)⟩
    have e : rowOf ⟨r.val / 1024, by rw [hN]; omega⟩ ⟨r.val % 1024, Nat.mod_lt _ (by norm_num)⟩ = r :=
      Fin.ext (by show 1024 * (r.val / 1024) + r.val % 1024 = r.val; omega)
    rwa [e] at h
  · intro H t p
    exact H _

variable (V : (c : Dev nD) → (b : Ref sig .tc) → Buf (Elt Ideal) ((c : Thread nD τ).loc b))

/-- The hidden block of point t, entry by entry. -/
def blockK (c : Dev nD) (t : Fin cfg1.N) : Fin 1024 → Fin 1024 → EReal := fun p q =>
  k1_pay5 (F := Ideal) (iblk1 V c 4 t) (iblk1 V c 0 t) (iblk1 V c 1 t) (iblk1 V c 2 t) (iblk1 V c 3 t) (ix2 p q)

/-- A bound on every entry of every block is a bound on every entry of the hidden matrix, and conversely. -/
theorem blocks_iff (hP5 : Pay5Law) (c : Dev nD) (P : EReal → Prop) :
    (∀ (t : Fin cfg1.N) (p q : Fin 1024), P (blockK V c t p q)) ↔ ∀ r j, P (hidK V c r j) := by
  rw [← rows_iff (fun r => ∀ j, P (hidK V c r j))]
  constructor
  · intro H t p q
    have h := H t p q
    unfold blockK at h
    rwa [block_eq V hP5 c t p q] at h
  · intro H t p q
    unfold blockK
    rw [block_eq V hP5 c t p q]
    exact H t p q

/-- After the first block the running greatest is the first block's greatest entry (against -infinity). -/
theorem max_first (hP6 : Pay6Law) (hP1 : Pay1Law) (hP4 : Pay4Law) (c : Dev nD) (h : 0 < cfg1.N) (y : S1x1.Idx) :
    (outsAt1 V c 0 h).2.2 y = max ⊥ (Quant.supAll (blockK V c ⟨0, h⟩)) := by
  rw [outs7_first V c h]
  refine (hP1 (k1_pay6 (F := Ideal) (iblk1 V c 4 ⟨0, h⟩) (iblk1 V c 0 ⟨0, h⟩) (iblk1 V c 1 ⟨0, h⟩) (iblk1 V c 2 ⟨0, h⟩) (iblk1 V c 3 ⟨0, h⟩)) (k1_pay4 (F := Ideal)) y).trans ?_
  rw [hP4 y]
  unfold blockK
  exact congrArg (max ⊥) (hP6 (iblk1 V c 4 ⟨0, h⟩) (iblk1 V c 0 ⟨0, h⟩) (iblk1 V c 1 ⟨0, h⟩) (iblk1 V c 2 ⟨0, h⟩) (iblk1 V c 3 ⟨0, h⟩) y)

/-- After a later block the running greatest is the greater of the one before and the block's greatest entry. -/
theorem max_next (hP6 : Pay6Law) (hP1 : Pay1Law) (c : Dev nD) (n : Nat) (h : n + 1 < cfg1.N) (y : S1x1.Idx) :
    (outsAt1 V c (n + 1) h).2.2 y = max ((outsAt1 V c n (Nat.lt_of_succ_lt h)).2.2 y) (Quant.supAll (blockK V c ⟨n + 1, h⟩)) := by
  rw [outs7_next V c n h]
  refine (hP1 (k1_pay6 (F := Ideal) (iblk1 V c 4 ⟨n + 1, h⟩) (iblk1 V c 0 ⟨n + 1, h⟩) (iblk1 V c 1 ⟨n + 1, h⟩) (iblk1 V c 2 ⟨n + 1, h⟩) (iblk1 V c 3 ⟨n + 1, h⟩)) (outsAt1 V c n (Nat.lt_of_succ_lt h)).2.2 y).trans ?_
  unfold blockK
  exact congrArg (max _) (hP6 (iblk1 V c 4 ⟨n + 1, h⟩) (iblk1 V c 0 ⟨n + 1, h⟩) (iblk1 V c 1 ⟨n + 1, h⟩) (iblk1 V c 2 ⟨n + 1, h⟩) (iblk1 V c 3 ⟨n + 1, h⟩) y)

/-- After block n the running greatest is the least upper bound of the blocks up to n. -/
theorem max_inv (hP6 : Pay6Law) (hP1 : Pay1Law) (hP4 : Pay4Law) (c : Dev nD) : ∀ (n : Nat) (h : n < cfg1.N) (y : S1x1.Idx) (z : EReal),
    (outsAt1 V c n h).2.2 y ≤ z ↔ ∀ t : Fin cfg1.N, t.val ≤ n → Quant.supAll (blockK V c t) ≤ z
  | 0, h, y, z => by
    rw [max_first V hP6 hP1 hP4 c h y, max_le_iff]
    constructor
    · rintro ⟨-, hB⟩ t ht
      obtain rfl : t = ⟨0, h⟩ := Fin.ext (by show t.val = 0; omega)
      exact hB
    · intro H
      exact ⟨bot_le, H ⟨0, h⟩ le_rfl⟩
  | n + 1, h, y, z => by
    rw [max_next V hP6 hP1 c n h y, max_le_iff, max_inv hP6 hP1 hP4 c n (Nat.lt_of_succ_lt h) y z]
    constructor
    · rintro ⟨H, hB⟩ t ht
      by_cases e : t.val = n + 1
      · obtain rfl : t = ⟨n + 1, h⟩ := Fin.ext e
        exact hB
      · exact H t (by omega)
    · intro H
      exact ⟨fun t ht => H t (by omega), H ⟨n + 1, h⟩ le_rfl⟩

/-- After the last block the running greatest is the greatest entry of the hidden matrix. -/
theorem max_last (hP5 : Pay5Law) (hP6 : Pay6Law) (hP1 : Pay1Law) (hP4 : Pay4Law) (c : Dev nD) (n : Nat) (h : n < cfg1.N) (hn : n = 31)
    (y : S1x1.Idx) : (outsAt1 V c n h).2.2 y = Quant.supAll (hidK V c) := by
  apply eq_of_forall_ge_iff
  intro z
  have hN : cfg1.N = 32 := N_1
  rw [max_inv V hP6 hP1 hP4 c n h y z, supAll_le_iff, ← blocks_iff V hP5 c (fun x => x ≤ z)]
  constructor
  · intro H t p q
    exact (supAll_le_iff _ z).mp (H t (by have := t.isLt; omega)) p q
  · intro H t _
    exact (supAll_le_iff _ z).mpr (H t)

/-- After the first block the running least is the first block's least entry (against +infinity). -/
theorem min_first (hP7 : Pay7Law) (hP2 : Pay2Law) (hP3 : Pay3Law) (c : Dev nD) (h : 0 < cfg1.N) (y : S1x1.Idx) :
    (outsAt1 V c 0 h).2.1 y = min ⊤ (Quant.infAll (blockK V c ⟨0, h⟩)) := by
  rw [outs6_first V c h]
  refine (hP2 (k1_pay7 (F := Ideal) (iblk1 V c 4 ⟨0, h⟩) (iblk1 V c 0 ⟨0, h⟩) (iblk1 V c 1 ⟨0, h⟩) (iblk1 V c 2 ⟨0, h⟩) (iblk1 V c 3 ⟨0, h⟩)) (k1_pay3 (F := Ideal)) y).trans ?_
  rw [hP3 y]
  unfold blockK
  exact congrArg (min ⊤) (hP7 (iblk1 V c 4 ⟨0, h⟩) (iblk1 V c 0 ⟨0, h⟩) (iblk1 V c 1 ⟨0, h⟩) (iblk1 V c 2 ⟨0, h⟩) (iblk1 V c 3 ⟨0, h⟩) (ix1 0))

/-- After a later block the running least is the lesser of the one before and the block's least entry. -/
theorem min_next (hP7 : Pay7Law) (hP2 : Pay2Law) (c : Dev nD) (n : Nat) (h : n + 1 < cfg1.N) (y : S1x1.Idx) :
    (outsAt1 V c (n + 1) h).2.1 y = min ((outsAt1 V c n (Nat.lt_of_succ_lt h)).2.1 y) (Quant.infAll (blockK V c ⟨n + 1, h⟩)) := by
  rw [outs6_next V c n h]
  refine (hP2 (k1_pay7 (F := Ideal) (iblk1 V c 4 ⟨n + 1, h⟩) (iblk1 V c 0 ⟨n + 1, h⟩) (iblk1 V c 1 ⟨n + 1, h⟩) (iblk1 V c 2 ⟨n + 1, h⟩) (iblk1 V c 3 ⟨n + 1, h⟩)) (outsAt1 V c n (Nat.lt_of_succ_lt h)).2.1 y).trans ?_
  unfold blockK
  exact congrArg (min _) (hP7 (iblk1 V c 4 ⟨n + 1, h⟩) (iblk1 V c 0 ⟨n + 1, h⟩) (iblk1 V c 1 ⟨n + 1, h⟩) (iblk1 V c 2 ⟨n + 1, h⟩) (iblk1 V c 3 ⟨n + 1, h⟩) (ix1 0))

/-- After block n the running least is the greatest lower bound of the blocks up to n. -/
theorem min_inv (hP7 : Pay7Law) (hP2 : Pay2Law) (hP3 : Pay3Law) (c : Dev nD) : ∀ (n : Nat) (h : n < cfg1.N) (y : S1x1.Idx) (z : EReal),
    z ≤ (outsAt1 V c n h).2.1 y ↔ ∀ t : Fin cfg1.N, t.val ≤ n → z ≤ Quant.infAll (blockK V c t)
  | 0, h, y, z => by
    rw [min_first V hP7 hP2 hP3 c h y, le_min_iff]
    constructor
    · rintro ⟨-, hB⟩ t ht
      obtain rfl : t = ⟨0, h⟩ := Fin.ext (by show t.val = 0; omega)
      exact hB
    · intro H
      exact ⟨le_top, H ⟨0, h⟩ le_rfl⟩
  | n + 1, h, y, z => by
    rw [min_next V hP7 hP2 c n h y, le_min_iff, min_inv hP7 hP2 hP3 c n (Nat.lt_of_succ_lt h) y z]
    constructor
    · rintro ⟨H, hB⟩ t ht
      by_cases e : t.val = n + 1
      · obtain rfl : t = ⟨n + 1, h⟩ := Fin.ext e
        exact hB
      · exact H t (by omega)
    · intro H
      exact ⟨fun t ht => H t (by omega), H ⟨n + 1, h⟩ le_rfl⟩

/-- After the last block the running least is the least entry of the hidden matrix. -/
theorem min_last (hP5 : Pay5Law) (hP7 : Pay7Law) (hP2 : Pay2Law) (hP3 : Pay3Law) (c : Dev nD) (n : Nat) (h : n < cfg1.N) (hn : n = 31)
    (y : S1x1.Idx) : (outsAt1 V c n h).2.1 y = Quant.infAll (hidK V c) := by
  apply eq_of_forall_le_iff
  intro z
  have hN : cfg1.N = 32 := N_1
  rw [min_inv V hP7 hP2 hP3 c n h y z, le_infAll_iff, ← blocks_iff V hP5 c (fun x => z ≤ x)]
  constructor
  · intro H t p q
    exact (le_infAll_iff _ z).mp (H t (by have := t.isLt; omega)) p q
  · intro H t _
    exact (le_infAll_iff _ z).mpr (H t)

/-- Writing back a one-entry buffer that holds S writes S: the block of either scalar array is the array. -/
theorem cut_const7 (t : Fin cfg1.N) (S : EReal) :
    (cfg1.win 7).cut (grid1.coords t) (fun _ : S1x1.Idx => S) = ((cfg1.win 7).blk t).view.read (Elt Ideal) (fun _ : S1x1.Idx => S) := by
  funext j
  rw [View.read_apply]
  rfl

theorem cut_const6 (t : Fin cfg1.N) (S : EReal) :
    (cfg1.win 6).cut (grid1.coords t) (fun _ : S1x1.Idx => S) = ((cfg1.win 6).blk t).view.read (Elt Ideal) (fun _ : S1x1.Idx => S) := by
  funext j
  rw [View.read_apply]
  rfl

/-- The one write-back of the running greatest, after the last block, writes the greatest entry of the hidden matrix. -/
theorem flushed7_eq (hP5 : Pay5Law) (hP6 : Pay6Law) (hP1 : Pay1Law) (hP4 : Pay4Law) (c : Dev nD) (t : Fin cfg1.N)
    (hf : (cfg1.win 7).flush t = true) :
    (dat1 (F := Ideal) V c).flushed 7 t = ((cfg1.win 7).blk t).view.read (Elt Ideal) (fun _ : S1x1.Idx => Quant.supAll (hidK V c)) := by
  have hN : cfg1.N = 32 := N_1
  have h31 : t.val = 31 := by have := (flush1_7 t).mp hf; have := t.isLt; omega
  show (cfg1.win 7).cut (grid1.coords t) ((dat1 V c).after 7 t) = _
  rw [after1_7]
  rw [show (outsAt1 V c t.val t.isLt).2.2 = fun _ : S1x1.Idx => Quant.supAll (hidK V c) from
    funext fun y => max_last V hP5 hP6 hP1 hP4 c t.val t.isLt h31 y]
  exact cut_const7 t _

/-- The one write-back of the running least, after the last block, writes the least entry of the hidden matrix. -/
theorem flushed6_eq (hP5 : Pay5Law) (hP7 : Pay7Law) (hP2 : Pay2Law) (hP3 : Pay3Law) (c : Dev nD) (t : Fin cfg1.N)
    (hf : (cfg1.win 6).flush t = true) :
    (dat1 (F := Ideal) V c).flushed 6 t = ((cfg1.win 6).blk t).view.read (Elt Ideal) (fun _ : S1x1.Idx => Quant.infAll (hidK V c)) := by
  have hN : cfg1.N = 32 := N_1
  have h31 : t.val = 31 := by have := (flush1_6 t).mp hf; have := t.isLt; omega
  show (cfg1.win 6).cut (grid1.coords t) ((dat1 V c).after 6 t) = _
  rw [after1_6]
  rw [show (outsAt1 V c t.val t.isLt).2.1 = fun _ : S1x1.Idx => Quant.infAll (hidK V c) from
    funext fun y => min_last V hP5 hP7 hP2 hP3 c t.val t.isLt h31 y]
  exact cut_const6 t _

/-- The array of the running greatest, when the region is left, holds the greatest entry of the hidden matrix. -/
theorem hmax_final (hP5 : Pay5Law) (hP6 : Pay6Law) (hP1 : Pay1Law) (hP4 : Pay4Law) (c : Dev nD) :
    ((dat1 (F := Ideal) V c).arrAt 7 cfg1.N : S1x1.Idx → EReal) = fun _ => Quant.supAll (hidK V c) :=
  (dat1 (F := Ideal) V c).arrAt_eq_of_cover 7 (fun _ : S1x1.Idx => Quant.supAll (hidK V c)) (flushed7_eq V hP5 hP6 hP1 hP4 c) fun i => by
    have hN : cfg1.N = 32 := N_1
    obtain ⟨t, ht⟩ : ∃ t : Fin cfg1.N, t.val = 31 := ⟨⟨31, by rw [hN]; norm_num⟩, rfl⟩
    obtain ⟨-, -, -, -, -, -, -, -, -, -, -, -, -, -, e0, e1⟩ := idx_facts t
    refine ⟨t, (flush1_7 t).mpr (by rw [ht]), ?_⟩
    show i ∈ ((View.whole main_v32_2).slice (win1_7.rect t)).set
    rw [View.set_slice_whole, Rect.mem_set_unit]
    intro a
    have h0 : (i 0).val < 1 := (i 0).isLt
    have h1 : (i 1).val < 1 := (i 1).isLt
    match a with
    | ⟨0, _⟩ =>
      show win1_7.index t (0 : Fin 2) * 1 ≤ (i 0).val ∧ (i 0).val < win1_7.index t (0 : Fin 2) * 1 + 1
      rw [e0]; omega
    | ⟨1, _⟩ =>
      show win1_7.index t (1 : Fin 2) * 1 ≤ (i 1).val ∧ (i 1).val < win1_7.index t (1 : Fin 2) * 1 + 1
      rw [e1]; omega

/-- The array of the running least, when the region is left, holds the least entry of the hidden matrix. -/
theorem hmin_final (hP5 : Pay5Law) (hP7 : Pay7Law) (hP2 : Pay2Law) (hP3 : Pay3Law) (c : Dev nD) :
    ((dat1 (F := Ideal) V c).arrAt 6 cfg1.N : S1x1.Idx → EReal) = fun _ => Quant.infAll (hidK V c) :=
  (dat1 (F := Ideal) V c).arrAt_eq_of_cover 6 (fun _ : S1x1.Idx => Quant.infAll (hidK V c)) (flushed6_eq V hP5 hP7 hP2 hP3 c) fun i => by
    have hN : cfg1.N = 32 := N_1
    obtain ⟨t, ht⟩ : ∃ t : Fin cfg1.N, t.val = 31 := ⟨⟨31, by rw [hN]; norm_num⟩, rfl⟩
    obtain ⟨-, -, -, -, -, -, -, -, -, -, -, -, e0, e1, -⟩ := idx_facts t
    refine ⟨t, (flush1_6 t).mpr (by rw [ht]), ?_⟩
    show i ∈ ((View.whole main_v32_1).slice (win1_6.rect t)).set
    rw [View.set_slice_whole, Rect.mem_set_unit]
    intro a
    have h0 : (i 0).val < 1 := (i 0).isLt
    have h1 : (i 1).val < 1 := (i 1).isLt
    match a with
    | ⟨0, _⟩ =>
      show win1_6.index t (0 : Fin 2) * 1 ≤ (i 0).val ∧ (i 0).val < win1_6.index t (0 : Fin 2) * 1 + 1
      rw [e0]; omega
    | ⟨1, _⟩ =>
      show win1_6.index t (1 : Fin 2) * 1 ≤ (i 1).val ∧ (i 1).val < win1_6.index t (1 : Fin 2) * 1 + 1
      rw [e1]; omega

end Extrema

end Cert.KernelIdeal.Region1

end
-- ==== Proof.KRegion2.lean ====
/-
  The second layer's result array when its region is left, for any contents of the arrays at the region's entry.

  The region walks the 32768 rows of the hidden activations in 64 blocks of 512 rows. At every block it requantises
  the block's rows at one scale and one zero point, multiplies them into the whole 1024 x 1024 weight matrix, adds the
  integer bias row, rescales by the row of combined scales, clamps below at zero, and writes the 512 x 1024 block of
  results back at the same rows. No state is carried from block to block, so row r of the result array is computed at
  block r / 512 from row r of the hidden activations alone: the array ends holding, at (r, q), one quantised layer
  element of row r of the activations against column q of the weights.
-/
import proofs.«100486_j23888608100973_1_alg».proof.Proof.Gen.KernelIdeal.Frame
import proofs.«100486_j23888608100973_1_alg».proof.Proof.LibQuant
import Idealize.ShloMosaic.Lib.Pipeline.Value
import Idealize.ShloMosaic.Lib.ValueIdx
import Idealize.ShloMosaic.Lib.Tactic

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What one block's computation is, element by element: a quantised layer element of the block's row against a
    weight column (the fact about the block's arithmetic that this module takes as given). -/
abbrev BlockLaw : Prop :=
  ∀ (s z : Vec Ideal S1x1 .f32) (h : Vec Ideal S512x1024 .f32) (w : Vec Ideal S1024x1024 .bf16)
    (bi fc : Vec Ideal S1x1024 .f32) (p : Fin 512) (q : Fin 1024),
    k2_pay1 (F := Ideal) s z h w bi fc (ix2 p q)
      = Quant.layer (fun k : Fin 1024 => Quant.qu8 (s (ix2 0 0)) (z (ix2 0 0)) (h (ix2 p k)))
          (fun k : Fin 1024 => w (ix2 k q)) (bi (ix2 0 q)) (fc (ix2 0 q))

theorem zeroOff : (![0, 0] : Fin 2 → Nat) = fun _ => 0 := funext fun a => by fin_cases a <;> rfl

/-- The whole result as one function of the six arrays the region reads. -/
def result (s z : S1x1.Idx → EReal) (h : S32768x1024.Idx → EReal) (w : S1024x1024.Idx → EReal)
    (bi fc : S1x1024.Idx → EReal) : S32768x1024.Idx → EReal := fun i =>
  Quant.layer (fun k : Fin 1024 => Quant.qu8 (s (ix2 0 0)) (z (ix2 0 0)) (h (ix2 (i 0) k)))
    (fun k : Fin 1024 => w (ix2 k (i 1))) (bi (ix2 0 (i 1))) (fc (ix2 0 (i 1)))

/-- Where each block sits: the activations' and the result's block at point t starts at row block t, column block 0;
    the five small arrays are one block each. -/
theorem blockPlaces : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The activations' block at point t is rows 512 t … 512 t + 511 of the activations. -/
theorem rowsBlock (c : Dev nD) (t : Fin cfg2.N) (y : S512x1024.Idx) (i : S32768x1024.Idx)
    (h0 : (i 0).val = 512 * t.val + (y 0).val) (h1 : (i 1).val = (y 1).val) :
    (iblk2 V c 0 t : Vec Ideal S512x1024 .f32) y = (V c (Pipeline.arrRef spec2 0) : S32768x1024.Idx → EReal) i := by
  obtain ⟨e0, e1, -⟩ := blockPlaces t
  unfold iblk2
  rw [View.read_apply]
  show (V c (Pipeline.arrRef spec2 0) : S32768x1024.Idx → EReal) _ = _
  congr 1
  funext a
  apply Fin.ext
  match a with
  | ⟨0, _⟩ => show win2_0.index t (0 : Fin 2) * 512 + 1 * (y 0).val = (i 0).val; rw [e0, h0]; omega
  | ⟨1, _⟩ => show win2_0.index t (1 : Fin 2) * 1024 + 1 * (y 1).val = (i 1).val; rw [e1, h1]; omega

/-- The weights' one block is the weight matrix. -/
theorem wholeBlock1 (c : Dev nD) (t : Fin cfg2.N) :
    (iblk2 V c 1 t : Vec Ideal S1024x1024 .bf16) = (V c (Pipeline.arrRef spec2 1) : S1024x1024.Idx → EReal) := by
  obtain ⟨-, -, -, -, e0, e1, -⟩ := blockPlaces t
  funext y
  unfold iblk2
  rw [View.read_apply]
  show (V c (Pipeline.arrRef spec2 1) : S1024x1024.Idx → EReal) _ = _
  congr 1
  funext a
  apply Fin.ext
  match a with
  | ⟨0, _⟩ => show win2_1.index t (0 : Fin 2) * 1024 + 1 * (y 0).val = (y 0).val; rw [e0]; omega
  | ⟨1, _⟩ => show win2_1.index t (1 : Fin 2) * 1024 + 1 * (y 1).val = (y 1).val; rw [e1]; omega

/-- The integer bias row's one block is the row. -/
theorem wholeBlock2 (c : Dev nD) (t : Fin cfg2.N) :
    (iblk2 V c 2 t : Vec Ideal S1x1024 .f32) = (V c (Pipeline.arrRef spec2 2) : S1x1024.Idx → EReal) := by
  obtain ⟨-, -, -, -, -, -, e0, e1, -⟩ := blockPlaces t
  funext y
  unfold iblk2
  rw [View.read_apply]
  show (V c (Pipeline.arrRef spec2 2) : S1x1024.Idx → EReal) _ = _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 1024 + 1 * (y 1).val = (y 1).val; rw [e1]; omega

/-- The combined scales' one block is the row. -/
theorem wholeBlock3 (c : Dev nD) (t : Fin cfg2.N) :
    (iblk2 V c 3 t : Vec Ideal S1x1024 .f32) = (V c (Pipeline.arrRef spec2 3) : S1x1024.Idx → EReal) := by
  obtain ⟨-, -, -, -, -, -, -, -, e0, e1, -⟩ := blockPlaces t
  funext y
  unfold iblk2
  rw [View.read_apply]
  show (V c (Pipeline.arrRef spec2 3) : S1x1024.Idx → EReal) _ = _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 1024 + 1 * (y 1).val = (y 1).val; rw [e1]; omega

/-- The activation scale's one block is the scale. -/
theorem wholeBlock4 (c : Dev nD) (t : Fin cfg2.N) :
    (iblk2 V c 4 t : Vec Ideal S1x1 .f32) = (V c (Pipeline.arrRef spec2 4) : S1x1.Idx → EReal) := by
  obtain ⟨-, -, -, -, -, -, -, -, -, -, e0, e1, -⟩ := blockPlaces t
  funext y
  unfold iblk2
  rw [View.read_apply]
  show (V c (Pipeline.arrRef spec2 4) : S1x1.Idx → EReal) _ = _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 1 + 1 * (y 1).val = (y 1).val; rw [e1]; omega

/-- The zero point's one block is the zero point. -/
theorem wholeBlock5 (c : Dev nD) (t : Fin cfg2.N) :
    (iblk2 V c 5 t : Vec Ideal S1x1 .f32) = (V c (Pipeline.arrRef spec2 5) : S1x1.Idx → EReal) := by
  obtain ⟨-, -, -, -, -, -, -, -, -, -, -, -, e0, e1⟩ := blockPlaces t
  funext y
  unfold iblk2
  rw [View.read_apply]
  show (V c (Pipeline.arrRef spec2 5) : S1x1.Idx → EReal) _ = _
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 1 + 1 * (y 1).val = (y 1).val; rw [e1]; omega

/-- One block's computation, on a block of rows of any activations array, is the whole result at those rows. -/
theorem blockResult (hP2 : BlockLaw) (s z : Vec Ideal S1x1 .f32) (h : Vec Ideal S512x1024 .f32)
    (w : Vec Ideal S1024x1024 .bf16) (bi fc : Vec Ideal S1x1024 .f32) (H : S32768x1024.Idx → EReal)
    (y : S512x1024.Idx) (i : S32768x1024.Idx) (h1 : (i 1).val = (y 1).val)
    (hh : ∀ k : Fin 1024, h (ix2 (y 0) k) = H (ix2 (i 0) k)) :
    k2_pay1 (F := Ideal) s z h w bi fc y = result s z H w bi fc i := by
  have e1 : (i 1 : Fin 1024) = y 1 := Fin.ext h1
  refine (congrArg (k2_pay1 (F := Ideal) s z h w bi fc) (eq_ix2 y)).trans ?_
  refine (hP2 s z h w bi fc (y 0) (y 1)).trans ?_
  unfold result
  rw [e1]
  simp only [hh]

/-- The same with each small array's block named by the array it is. -/
theorem blockResult' (hP2 : BlockLaw) (s z : Vec Ideal S1x1 .f32) (h : Vec Ideal S512x1024 .f32)
    (w : Vec Ideal S1024x1024 .bf16) (bi fc : Vec Ideal S1x1024 .f32)
    (S Z : S1x1.Idx → EReal) (W : S1024x1024.Idx → EReal) (BI FC : S1x1024.Idx → EReal) (H : S32768x1024.Idx → EReal)
    (hs : s = S) (hz : z = Z) (hw : w = W) (hbi : bi = BI) (hfc : fc = FC)
    (y : S512x1024.Idx) (i : S32768x1024.Idx) (h1 : (i 1).val = (y 1).val)
    (hh : ∀ k : Fin 1024, h (ix2 (y 0) k) = H (ix2 (i 0) k)) :
    k2_pay1 (F := Ideal) s z h w bi fc y = result S Z H W BI FC i := by
  subst hs hz hw hbi hfc
  exact blockResult hP2 s z h w bi fc H y i h1 hh

set_option maxHeartbeats 1000000 in
/-- What point t writes back is block t of the whole result of the arrays as the region finds them. -/
theorem flushed_eq (hP2 : BlockLaw) (c : Dev nD) (t : Fin cfg2.N) :
    (dat2 (F := Ideal) V c).flushed 6 t = ((cfg2.win 6).blk t).view.read (Elt Ideal)
      (result (V c (Pipeline.arrRef spec2 4)) (V c (Pipeline.arrRef spec2 5)) (V c (Pipeline.arrRef spec2 0))
        (V c (Pipeline.arrRef spec2 1)) (V c (Pipeline.arrRef spec2 2)) (V c (Pipeline.arrRef spec2 3))) := by
  obtain ⟨-, -, e0, e1, -⟩ := blockPlaces t
  show (cfg2.win 6).cut (grid2.coords t) ((dat2 (F := Ideal) V c).after 6 t) = _
  rw [after2_6]
  unfold out2_6
  rw [View.canon_unit_zero zeroOff]
  simp only [View.ld_unit_zero (S := S1x1) zeroOff, View.ld_unit_zero (S := S512x1024) zeroOff,
    View.ld_unit_zero (S := S1024x1024) zeroOff, View.ld_unit_zero (S := S1x1024) zeroOff]
  funext j
  show k2_pay1 (F := Ideal) (iblk2 V c 4 t) (iblk2 V c 5 t) (iblk2 V c 0 t) (iblk2 V c 1 t) (iblk2 V c 2 t) (iblk2 V c 3 t) j
    = result (V c (Pipeline.arrRef spec2 4)) (V c (Pipeline.arrRef spec2 5)) (V c (Pipeline.arrRef spec2 0))
        (V c (Pipeline.arrRef spec2 1)) (V c (Pipeline.arrRef spec2 2)) (V c (Pipeline.arrRef spec2 3))
        (((cfg2.win 6).blk t).view.emb j)
  have r0 : ((((cfg2.win 6).blk t).view.emb j) 0).val = 512 * t.val + (j 0).val := by
    show win2_6.index t (0 : Fin 2) * 512 + 1 * (j 0).val = _; rw [e0]; omega
  have r1 : ((((cfg2.win 6).blk t).view.emb j) 1).val = (j 1).val := by
    show win2_6.index t (1 : Fin 2) * 1024 + 1 * (j 1).val = _; rw [e1]; omega
  exact blockResult' hP2 (iblk2 V c 4 t) (iblk2 V c 5 t) (iblk2 V c 0 t) (iblk2 V c 1 t) (iblk2 V c 2 t) (iblk2 V c 3 t)
    (V c (Pipeline.arrRef spec2 4)) (V c (Pipeline.arrRef spec2 5)) (V c (Pipeline.arrRef spec2 1))
    (V c (Pipeline.arrRef spec2 2)) (V c (Pipeline.arrRef spec2 3)) (V c (Pipeline.arrRef spec2 0))
    (wholeBlock4 V c t) (wholeBlock5 V c t) (wholeBlock1 V c t) (wholeBlock2 V c t) (wholeBlock3 V c t)
    j (((cfg2.win 6).blk t).view.emb j) r1
    (fun k => rowsBlock V c t (ix2 (j 0) k) (ix2 ((((cfg2.win 6).blk t).view.emb j) 0) k) r0 rfl)

/-- An index of the result array is in point t's block iff each coordinate is in the block's range on its axis. -/
theorem mem_block (t : Fin cfg2.N) (i : S32768x1024.Idx) :
    i ∈ ((cfg2.win 6).blk t).view.set ↔ ∀ a : Fin 2, win2_6.index t a * S512x1024.size a ≤ (i a).val ∧ (i a).val < win2_6.index t a * S512x1024.size a + S512x1024.size a := by
  show i ∈ ((View.whole main_v50).slice (win2_6.rect t)).set ↔ _
  rw [View.set_slice_whole, Rect.mem_set_unit]
  exact Iff.rfl

/-- Every index of the result array is in some point's block: row r is in block r / 512. -/
theorem covered (i : S32768x1024.Idx) :
    ∃ t : Fin cfg2.N, (cfg2.win 6).flush t = true ∧ i ∈ ((cfg2.win 6).blk t).view.set := by
  have hi0 : (i 0).val < 32768 := (i 0).isLt
  have hi1 : (i 1).val < 1024 := (i 1).isLt
  have hN : cfg2.N = 64 := N_2
  let t : Fin cfg2.N := ⟨(i 0).val / 512, by rw [hN]; omega⟩
  obtain ⟨-, -, e0, e1, -⟩ := blockPlaces t
  have et : t.val = (i 0).val / 512 := rfl
  refine ⟨t, flush2_6 t, ?_⟩
  rw [mem_block]
  intro a
  match a with
  | ⟨0, _⟩ => show win2_6.index t (0 : Fin 2) * 512 ≤ (i 0).val ∧ (i 0).val < win2_6.index t (0 : Fin 2) * 512 + 512; rw [e0, et]; omega
  | ⟨1, _⟩ => show win2_6.index t (1 : Fin 2) * 1024 ≤ (i 1).val ∧ (i 1).val < win2_6.index t (1 : Fin 2) * 1024 + 1024; rw [e1]; omega

/-- THE RESULT ARRAY when the region is left: at (r, q), the quantised layer element of row r of the activations
    against column q of the weights, at the scale and zero point the region finds. -/
theorem o_final (hP2 : BlockLaw) (c : Dev nD) :
    ((dat2 (F := Ideal) V c).arrAt 6 cfg2.N : S32768x1024.Idx → EReal) = fun i =>
      Quant.layer (fun k : Fin 1024 => Quant.qu8 ((V c (Pipeline.arrRef spec2 4) : S1x1.Idx → EReal) (ix2 0 0))
          ((V c (Pipeline.arrRef spec2 5) : S1x1.Idx → EReal) (ix2 0 0))
          ((V c (Pipeline.arrRef spec2 0) : S32768x1024.Idx → EReal) (ix2 (i 0) k)))
        (fun k : Fin 1024 => (V c (Pipeline.arrRef spec2 1) : S1024x1024.Idx → EReal) (ix2 k (i 1)))
        ((V c (Pipeline.arrRef spec2 2) : S1x1024.Idx → EReal) (ix2 0 (i 1)))
        ((V c (Pipeline.arrRef spec2 3) : S1x1024.Idx → EReal) (ix2 0 (i 1))) :=
  (dat2 (F := Ideal) V c).arrAt_eq_of_cover 6
    (result (V c (Pipeline.arrRef spec2 4)) (V c (Pipeline.arrRef spec2 5)) (V c (Pipeline.arrRef spec2 0))
      (V c (Pipeline.arrRef spec2 1)) (V c (Pipeline.arrRef spec2 2)) (V c (Pipeline.arrRef spec2 3)))
    (fun t _ => flushed_eq V hP2 c t) covered

end Cert.KernelIdeal.Region2

end
-- ==== Proof.KPayloadBase.lean ====
/-
  Reading a 1x1 block: the element a static extract at position (0, 0) takes is the block's one entry, the entry
  at coordinates (0, 0).
-/
import proofs.«100486_j23888608100973_1_alg».proof.Proof.Gen.KernelIdeal.Skeleton
import proofs.«100486_j23888608100973_1_alg».proof.Proof.LibQuant
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The element of a 1x1 block taken by a static extract at position (0, 0). -/
theorem extractAt_1x1 {α : Type} (s : S1x1.Idx → α) (h : ∀ a, (![0, 0] : Fin 2 → Nat) a < S1x1.size a) :
    extractAt ![0, 0] s h = s (ix2 0 0) :=
  congrArg s (funext fun a => match a with | ⟨0, _⟩ => rfl | ⟨1, _⟩ => rfl)

end Cert.KernelIdeal.Payload

end
-- ==== Proof.KPayloadExtremes.lean ====
/-
  The largest and the smallest entry of a matrix, as a block program computes them: a reduction along each row (a fold of
  max from -∞, or of min from +∞, over the row's entries), the row results stood up as a column, and a reduction down
  that column. A fold of max from -∞ over a finite set is the set's supremum, a fold of min from +∞ its infimum;
  so the two-stage reduction is the supremum (infimum) over the rows of the supremum (infimum) over each row.
-/
import proofs.«100486_j23888608100973_1_alg».proof.Proof.LibQuantLaws
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx

/-- The fold of max from -∞ over a finite set is the supremum over the set. -/
theorem fold_max_bot_eq_sup {ι : Type} (s : Finset ι) (f : ι → EReal) : s.fold max ⊥ f = s.sup f := by
  classical
  induction s using Finset.induction_on with
  | empty => rfl
  | insert a s ha ih => rw [Finset.fold_insert ha, Finset.sup_insert, ih]

/-- The fold of min from +∞ over a finite set is the infimum over the set. -/
theorem fold_min_top_eq_inf {ι : Type} (s : Finset ι) (f : ι → EReal) : s.fold min ⊤ f = s.inf f := by
  classical
  induction s using Finset.induction_on with
  | empty => rfl
  | insert a s ha ih => rw [Finset.fold_insert ha, Finset.inf_insert, ih]

/-- A minimum reduction over one axis: the fold of min from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

section
variable {α : Type} {n m : ℕ}

/-- A vector of n entries stood up as an n x 1 column reads, at (i, 0), the vector at i. -/
theorem shapeCast_a_a1_apply (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The entry of row p inserted at column k is the matrix index (p, k). -/
theorem lift_row (h : (⟨2, ![n, m]⟩ : Shape).Reduces [1] ⟨1, ![n]⟩) (p : Fin n) (k : Fin m) :
    h.lift (ix1 p) k = ix2 p k :=
  funext fun a => Fin.ext (match a with | ⟨0, _⟩ => rfl | ⟨1, _⟩ => rfl)

/-- The entry of a one-column matrix inserted at row p is the matrix index (p, 0). -/
theorem lift_col (h : (⟨2, ![n, 1]⟩ : Shape).Reduces [0] ⟨1, ![1]⟩) (u : Fin 1) (p : Fin n) :
    h.lift (ix1 u) p = ix2 p u :=
  funext fun a => Fin.ext (match a with | ⟨0, _⟩ => rfl | ⟨1, _⟩ => rfl)

/-- The maximum reduction along the rows, from -∞: at row p the supremum of the row's entries. -/
theorem rowMax_apply (src : FVec Ideal ⟨2, ![n, m]⟩ .f32) (h : (⟨2, ![n, m]⟩ : Shape).Reduces [1] ⟨1, ![n]⟩)
    (hφ : FKind.Formats .f32) (hacc : (0xFF800000#32 : BitVec 32) = FKind.maximumf.neutral .f32 hφ) (p : Fin n) :
    multiReduction .maximumf [1] ⟨1, ![n]⟩ src 0xFF800000#32 h hφ hacc (ix1 p)
      = Finset.univ.sup fun k : Fin m => src (ix2 p k) := by
  refine (Ideal.multiReduction_maximumf_single src _ h hφ hacc (ix1 p)).trans ?_
  show Finset.fold max (Ideal.ofBits .f32 0xFF800000#32) _ _ = _
  rw [Quant.bot32, fold_max_bot_eq_sup]
  exact Finset.sup_congr rfl fun k _ => congrArg src (lift_row h p k)

/-- The maximum reduction down a one-column matrix, from -∞: the supremum of the column's entries. -/
theorem colMax_apply (src : FVec Ideal ⟨2, ![n, 1]⟩ .f32) (h : (⟨2, ![n, 1]⟩ : Shape).Reduces [0] ⟨1, ![1]⟩)
    (hφ : FKind.Formats .f32) (hacc : (0xFF800000#32 : BitVec 32) = FKind.maximumf.neutral .f32 hφ) (u : Fin 1) :
    multiReduction .maximumf [0] ⟨1, ![1]⟩ src 0xFF800000#32 h hφ hacc (ix1 u)
      = Finset.univ.sup fun p : Fin n => src (ix2 p u) := by
  refine (Ideal.multiReduction_maximumf_single src _ h hφ hacc (ix1 u)).trans ?_
  show Finset.fold max (Ideal.ofBits .f32 0xFF800000#32) _ _ = _
  rw [Quant.bot32, fold_max_bot_eq_sup]
  exact Finset.sup_congr rfl fun p _ => congrArg src (lift_col h u p)

/-- The minimum reduction along the rows, from +∞: at row p the infimum of the row's entries. -/
theorem rowMin_apply (src : FVec Ideal ⟨2, ![n, m]⟩ .f32) (h : (⟨2, ![n, m]⟩ : Shape).Reduces [1] ⟨1, ![n]⟩)
    (hφ : FKind.Formats .f32) (hacc : (0x7F800000#32 : BitVec 32) = FKind.minimumf.neutral .f32 hφ) (p : Fin n) :
    multiReduction .minimumf [1] ⟨1, ![n]⟩ src 0x7F800000#32 h hφ hacc (ix1 p)
      = Finset.univ.inf fun k : Fin m => src (ix2 p k) := by
  refine (multiReduction_minimumf_single src _ h hφ hacc (ix1 p)).trans ?_
  show Finset.fold min (Ideal.ofBits .f32 0x7F800000#32) _ _ = _
  rw [Quant.top32, fold_min_top_eq_inf]
  exact Finset.inf_congr rfl fun k _ => congrArg src (lift_row h p k)

/-- The minimum reduction down a one-column matrix, from +∞: the infimum of the column's entries. -/
theorem colMin_apply (src : FVec Ideal ⟨2, ![n, 1]⟩ .f32) (h : (⟨2, ![n, 1]⟩ : Shape).Reduces [0] ⟨1, ![1]⟩)
    (hφ : FKind.Formats .f32) (hacc : (0x7F800000#32 : BitVec 32) = FKind.minimumf.neutral .f32 hφ) (u : Fin 1) :
    multiReduction .minimumf [0] ⟨1, ![1]⟩ src 0x7F800000#32 h hφ hacc (ix1 u)
      = Finset.univ.inf fun p : Fin n => src (ix2 p u) := by
  refine (multiReduction_minimumf_single src _ h hφ hacc (ix1 u)).trans ?_
  show Finset.fold min (Ideal.ofBits .f32 0x7F800000#32) _ _ = _
  rw [Quant.top32, fold_min_top_eq_inf]
  exact Finset.inf_congr rfl fun p _ => congrArg src (lift_col h u p)

/-- Rows first, then the column of row maxima: the largest entry of the matrix. -/
theorem allMax_apply (src : FVec Ideal ⟨2, ![n, m]⟩ .f32) (h1 : (⟨2, ![n, m]⟩ : Shape).Reduces [1] ⟨1, ![n]⟩)
    (hφ1 : FKind.Formats .f32) (hacc1 : (0xFF800000#32 : BitVec 32) = FKind.maximumf.neutral .f32 hφ1)
    (h2 : (⟨1, ![n]⟩ : Shape).ShapeCasts ⟨2, ![n, 1]⟩) (h3 : (⟨2, ![n, 1]⟩ : Shape).Reduces [0] ⟨1, ![1]⟩)
    (hφ3 : FKind.Formats .f32) (hacc3 : (0xFF800000#32 : BitVec 32) = FKind.maximumf.neutral .f32 hφ3) (u : Fin 1) :
    multiReduction .maximumf [0] ⟨1, ![1]⟩
        (shapeCast ⟨2, ![n, 1]⟩ (multiReduction .maximumf [1] ⟨1, ![n]⟩ src 0xFF800000#32 h1 hφ1 hacc1) h2)
        0xFF800000#32 h3 hφ3 hacc3 (ix1 u)
      = Quant.supAll fun (p : Fin n) (k : Fin m) => src (ix2 p k) := by
  refine (colMax_apply _ h3 hφ3 hacc3 u).trans ?_
  exact Finset.sup_congr rfl fun p _ => (shapeCast_a_a1_apply _ h2 p u).trans (rowMax_apply src h1 hφ1 hacc1 p)

/-- Rows first, then the column of row minima: the smallest entry of the matrix. -/
theorem allMin_apply (src : FVec Ideal ⟨2, ![n, m]⟩ .f32) (h1 : (⟨2, ![n, m]⟩ : Shape).Reduces [1] ⟨1, ![n]⟩)
    (hφ1 : FKind.Formats .f32) (hacc1 : (0x7F800000#32 : BitVec 32) = FKind.minimumf.neutral .f32 hφ1)
    (h2 : (⟨1, ![n]⟩ : Shape).ShapeCasts ⟨2, ![n, 1]⟩) (h3 : (⟨2, ![n, 1]⟩ : Shape).Reduces [0] ⟨1, ![1]⟩)
    (hφ3 : FKind.Formats .f32) (hacc3 : (0x7F800000#32 : BitVec 32) = FKind.minimumf.neutral .f32 hφ3) (u : Fin 1) :
    multiReduction .minimumf [0] ⟨1, ![1]⟩
        (shapeCast ⟨2, ![n, 1]⟩ (multiReduction .minimumf [1] ⟨1, ![n]⟩ src 0x7F800000#32 h1 hφ1 hacc1) h2)
        0x7F800000#32 h3 hφ3 hacc3 (ix1 u)
      = Quant.infAll fun (p : Fin n) (k : Fin m) => src (ix2 p k) := by
  refine (colMin_apply _ h3 hφ3 hacc3 u).trans ?_
  exact Finset.inf_congr rfl fun p _ => (shapeCast_a_a1_apply _ h2 p u).trans (rowMin_apply src h1 hφ1 hacc1 p)

end

end Cert.KernelIdeal.Payload

end
-- ==== Proof.KPayload0.lean ====
/-
  The accumulator arithmetic of the three block programs.

  The first program keeps the largest magnitude seen so far: its stored value is the maximum of the carried value and
  the largest magnitude in the current 4096x128 block, and it starts the carried value at zero. The second program
  computes, besides its output block, the largest and the smallest entry of that block, folds them into a carried
  maximum (started at -∞) and a carried minimum (started at +∞).
-/
import proofs.«100486_j23888608100973_1_alg».proof.Proof.Gen.KernelIdeal.Skeleton
import proofs.«100486_j23888608100973_1_alg».proof.Proof.LibQuant
import proofs.«100486_j23888608100973_1_alg».proof.Proof.KPayloadBase
import proofs.«100486_j23888608100973_1_alg».proof.Proof.KPayloadExtremes
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The value the running maximum of magnitudes starts from: the zero word. -/
theorem k0_pay1_apply (y : S1x1.Idx) : k0_pay1 (F := Ideal) y = Quant.zero32 := rfl

/-- The running maximum of magnitudes after a block: the carried value against the block's largest magnitude. -/
theorem k0_pay2_apply (x : Vec Ideal S4096x128 .f32) (v9 : Vec Ideal S1x1 .f32) (y : S1x1.Idx) :
    k0_pay2 (F := Ideal) x v9 y
      = max (v9 y) (Quant.supAll fun (p : Fin 4096) (k : Fin 128) => Quant.mag (x (ix2 p k))) := by
  obtain ⟨u, v, rfl⟩ : ∃ (u v : Fin 1), y = ix2 u v := ⟨y 0, y 1, eq_ix2 y⟩
  unfold k0_pay2
  refine (congrArg₂ max (congrFun (shapeCast_self v9 _) (ix2 u v))
    ((shapeCast_a_1a_apply _ _ u v).trans (allMax_apply (absf x) _ _ _ _ _ _ _ v))).trans ?_
  rfl

/-- The running maximum of the hidden activations after a block. -/
theorem k1_pay1_apply (v31 v36 : Vec Ideal S1x1 .f32) (y : S1x1.Idx) :
    k1_pay1 (F := Ideal) v31 v36 y = max (v36 y) (v31 y) := by
  unfold k1_pay1
  exact congrArg₂ max (congrFun (shapeCast_self v36 _) y) rfl

/-- The running minimum of the hidden activations after a block. -/
theorem k1_pay2_apply (v34 : Vec Ideal S1 .f32) (v40 : Vec Ideal S1x1 .f32) (y : S1x1.Idx) :
    k1_pay2 (F := Ideal) v34 v40 y = min (v40 y) (v34 (ix1 0)) := by
  obtain ⟨u, v, rfl⟩ : ∃ (u v : Fin 1), y = ix2 u v := ⟨y 0, y 1, eq_ix2 y⟩
  obtain rfl : v = 0 := Subsingleton.elim _ _
  unfold k1_pay2
  exact congrArg₂ min (congrFun (shapeCast_self v40 _) (ix2 u 0)) (shapeCast_a_1a_apply v34 _ u 0)

/-- The value the running minimum starts from: +∞. -/
theorem k1_pay3_apply (y : S1x1.Idx) : k1_pay3 (F := Ideal) y = (⊤ : EReal) := Quant.top32

/-- The value the running maximum starts from: -∞. -/
theorem k1_pay4_apply (y : S1x1.Idx) : k1_pay4 (F := Ideal) y = (⊥ : EReal) := Quant.bot32

/-- The largest entry of the first layer's block. -/
theorem k1_pay6_apply (s : Vec Ideal S1x1 .f32) (x : Vec Ideal S1024x128 .f32) (w : Vec Ideal S128x1024 .bf16)
    (bi fc : Vec Ideal S1x1024 .f32) (y : S1x1.Idx) :
    k1_pay6 (F := Ideal) s x w bi fc y
      = Quant.supAll fun (p q : Fin 1024) => k1_pay5 (F := Ideal) s x w bi fc (ix2 p q) := by
  obtain ⟨u, v, rfl⟩ : ∃ (u v : Fin 1), y = ix2 u v := ⟨y 0, y 1, eq_ix2 y⟩
  unfold k1_pay6
  exact (shapeCast_a_1a_apply _ _ u v).trans (allMax_apply (k1_pay5 (F := Ideal) s x w bi fc) _ _ _ _ _ _ _ v)

/-- The smallest entry of the first layer's block. -/
theorem k1_pay7_apply (s : Vec Ideal S1x1 .f32) (x : Vec Ideal S1024x128 .f32) (w : Vec Ideal S128x1024 .bf16)
    (bi fc : Vec Ideal S1x1024 .f32) (y : S1.Idx) :
    k1_pay7 (F := Ideal) s x w bi fc y
      = Quant.infAll fun (p q : Fin 1024) => k1_pay5 (F := Ideal) s x w bi fc (ix2 p q) := by
  obtain ⟨v, rfl⟩ : ∃ v : Fin 1, y = ix1 v := ⟨y 0, eq_ix1 y⟩
  unfold k1_pay7
  exact allMin_apply (k1_pay5 (F := Ideal) s x w bi fc) _ _ _ _ _ _ _ v

end Cert.KernelIdeal.Payload

end
-- ==== Proof.KPayload1.lean ====
/-
  The first layer's block arithmetic at one output entry (p, q): the row p of the activation block is quantised
  symmetrically at the block's scale, multiplied into column q of the integer weights (a sum over the 128
  contracted positions, the matrix product having a zero accumulator), the integer bias of column q is added,
  the sum is rescaled by the combined scale of column q and clamped below at zero.
-/
import proofs.«100486_j23888608100973_1_alg».proof.Proof.Gen.KernelIdeal.Skeleton
import proofs.«100486_j23888608100973_1_alg».proof.Proof.LibQuant
import proofs.«100486_j23888608100973_1_alg».proof.Proof.KPayloadBase
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The first layer's contraction: rows of a 1024x128 block against columns of a 128x1024 block. -/
abbrev D1 : DotDims S1024x128 S128x1024 S1024x1024 := dot_S1024x128_S128x1024_S1024x1024_1_0_0_1_n_n

theorem D1_lhs0 (i : S1024x1024.Idx) (c : D1.contr.Idx) : (D1.lhsIdx i c 0).val = (i 0).val := by
  unfold DotDims.lhsIdx
  rw [dif_neg (show ¬(0 : Fin S1024x128.rank) ∈ D1.lhsBatch by decide), dif_pos (show (0 : Fin S1024x128.rank) ∈ D1.lhsNonContracting by decide)]
  rfl
theorem D1_lhs1 (i : S1024x1024.Idx) (c : D1.contr.Idx) : (D1.lhsIdx i c 1).val = (c ⟨0, by decide⟩).val :=
  D1.lhsIdx_val_of_single rfl i c
theorem D1_rhs0 (i : S1024x1024.Idx) (c : D1.contr.Idx) : (D1.rhsIdx i c 0).val = (c ⟨0, by decide⟩).val :=
  D1.rhsIdx_val_of_single rfl i c
theorem D1_rhs1 (i : S1024x1024.Idx) (c : D1.contr.Idx) : (D1.rhsIdx i c 1).val = (i 1).val := by
  unfold DotDims.rhsIdx
  rw [dif_neg (show ¬(1 : Fin S128x1024.rank) ∈ D1.rhsBatch by decide), dif_pos (show (1 : Fin S128x1024.rank) ∈ D1.rhsNonContracting by decide)]
  rfl

/-- The matrix product into a zero accumulator, at row p and column q: the sum over the 128 contracted positions
    of the left operand's row p times the right operand's column q. -/
theorem matmul1_apply (A : FVec Ideal S1024x128 .bf16) (B : FVec Ideal S128x1024 .bf16) (p q : Fin 1024) :
    FloatOps.matmul D1 none A B (constant (F := Ideal) S1024x1024 .f32 0x00000000#32) (ix2 p q)
      = ∑ k : Fin 128, A (ix2 p k) * B (ix2 k q) := by
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 p q) ((contrEquiv1 D1 128 rfl rfl).symm k) = ix2 p k := funext fun a => Fin.ext (by
    match a with
    | ⟨0, _⟩ => exact D1_lhs0 _ _
    | ⟨1, _⟩ => exact (D1_lhs1 _ _).trans hk)
  have er : D1.rhsIdx (ix2 p q) ((contrEquiv1 D1 128 rfl rfl).symm k) = ix2 k q := funext fun a => Fin.ext (by
    match a with
    | ⟨0, _⟩ => exact (D1_rhs0 _ _).trans hk
    | ⟨1, _⟩ => exact D1_rhs1 _ _)
  rw [el, er]

/-- The first layer's stored block at entry (p, q). -/
theorem k1_pay5_apply (s : Vec Ideal S1x1 .f32) (x : Vec Ideal S1024x128 .f32) (w : Vec Ideal S128x1024 .bf16)
    (bi fc : Vec Ideal S1x1024 .f32) (p q : Fin 1024) :
    k1_pay5 (F := Ideal) s x w bi fc (ix2 p q)
      = Quant.layer (fun k : Fin 128 => Quant.q8 (s (ix2 0 0)) (x (ix2 p k))) (fun k : Fin 128 => w (ix2 k q))
          (bi (ix2 0 q)) (fc (ix2 0 q)) := by
  unfold k1_pay5 Quant.layer
  show max ((FloatOps.matmul D1 none _ _ _ (ix2 p q) + broadcastTo S1024x1024 _ _ (ix2 p q))
    * broadcastTo S1024x1024 _ _ (ix2 p q)) Quant.zero32 = _
  rw [matmul1_apply, broadcastTo_1b_ab_apply, broadcastTo_1b_ab_apply, shapeCast_self, shapeCast_self, shapeCast_self,
    extractAt_1x1]
  rfl

end Cert.KernelIdeal.Payload

end
-- ==== Proof.KPayload2.lean ====
/-
  The second layer's block arithmetic at one output entry (p, q): the row p of the hidden block is quantised
  asymmetrically at the scale and zero point of the hidden activations and recentred at the zero point, multiplied
  into column q of the integer weights (a sum over the 1024 contracted positions, the matrix product having a zero
  accumulator), the integer bias of column q is added, the sum is rescaled by the combined scale of column q and
  clamped below at zero.
-/
import proofs.«100486_j23888608100973_1_alg».proof.Proof.Gen.KernelIdeal.Skeleton
import proofs.«100486_j23888608100973_1_alg».proof.Proof.LibQuant
import proofs.«100486_j23888608100973_1_alg».proof.Proof.KPayloadBase
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The second layer's contraction: rows of a 512x1024 block against columns of a 1024x1024 block. -/
abbrev D2 : DotDims S512x1024 S1024x1024 S512x1024 := dot_S512x1024_S1024x1024_S512x1024_1_0_0_1_n_n

theorem D2_lhs0 (i : S512x1024.Idx) (c : D2.contr.Idx) : (D2.lhsIdx i c 0).val = (i 0).val := by
  unfold DotDims.lhsIdx
  rw [dif_neg (show ¬(0 : Fin S512x1024.rank) ∈ D2.lhsBatch by decide), dif_pos (show (0 : Fin S512x1024.rank) ∈ D2.lhsNonContracting by decide)]
  rfl
theorem D2_lhs1 (i : S512x1024.Idx) (c : D2.contr.Idx) : (D2.lhsIdx i c 1).val = (c ⟨0, by decide⟩).val :=
  D2.lhsIdx_val_of_single rfl i c
theorem D2_rhs0 (i : S512x1024.Idx) (c : D2.contr.Idx) : (D2.rhsIdx i c 0).val = (c ⟨0, by decide⟩).val :=
  D2.rhsIdx_val_of_single rfl i c
theorem D2_rhs1 (i : S512x1024.Idx) (c : D2.contr.Idx) : (D2.rhsIdx i c 1).val = (i 1).val := by
  unfold DotDims.rhsIdx
  rw [dif_neg (show ¬(1 : Fin S1024x1024.rank) ∈ D2.rhsBatch by decide), dif_pos (show (1 : Fin S1024x1024.rank) ∈ D2.rhsNonContracting by decide)]
  rfl

/-- The matrix product into a zero accumulator, at row p and column q: the sum over the 1024 contracted positions
    of the left operand's row p times the right operand's column q. -/
theorem matmul2_apply (A : FVec Ideal S512x1024 .bf16) (B : FVec Ideal S1024x1024 .bf16) (p : Fin 512) (q : Fin 1024) :
    FloatOps.matmul D2 none A B (constant (F := Ideal) S512x1024 .f32 0x00000000#32) (ix2 p q)
      = ∑ k : Fin 1024, A (ix2 p k) * B (ix2 k q) := by
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 p q) ((contrEquiv1 D2 1024 rfl rfl).symm k) = ix2 p k := funext fun a => Fin.ext (by
    match a with
    | ⟨0, _⟩ => exact D2_lhs0 _ _
    | ⟨1, _⟩ => exact (D2_lhs1 _ _).trans hk)
  have er : D2.rhsIdx (ix2 p q) ((contrEquiv1 D2 1024 rfl rfl).symm k) = ix2 k q := funext fun a => Fin.ext (by
    match a with
    | ⟨0, _⟩ => exact (D2_rhs0 _ _).trans hk
    | ⟨1, _⟩ => exact D2_rhs1 _ _)
  rw [el, er]

/-- The second layer's stored block at entry (p, q). -/
theorem k2_pay1_apply (s z : Vec Ideal S1x1 .f32) (h : Vec Ideal S512x1024 .f32) (w : Vec Ideal S1024x1024 .bf16)
    (bi fc : Vec Ideal S1x1024 .f32) (p : Fin 512) (q : Fin 1024) :
    k2_pay1 (F := Ideal) s z h w bi fc (ix2 p q)
      = Quant.layer (fun k : Fin 1024 => Quant.qu8 (s (ix2 0 0)) (z (ix2 0 0)) (h (ix2 p k)))
          (fun k : Fin 1024 => w (ix2 k q)) (bi (ix2 0 q)) (fc (ix2 0 q)) := by
  unfold k2_pay1 Quant.layer
  show max ((FloatOps.matmul D2 none _ _ _ (ix2 p q) + broadcastTo S512x1024 _ _ (ix2 p q))
    * broadcastTo S512x1024 _ _ (ix2 p q)) Quant.zero32 = _
  rw [matmul2_apply, broadcastTo_1b_ab_apply, broadcastTo_1b_ab_apply, shapeCast_self, shapeCast_self, shapeCast_self,
    shapeCast_self, extractAt_1x1, extractAt_1x1]
  rfl

end Cert.KernelIdeal.Payload

end
-- ==== Proof.KPayload.lean ====
/-
  The arithmetic of the three block programs, read entry by entry: the running maximum of magnitudes, the first
  quantised layer with the extremes of its output, and the second quantised layer.
-/
import proofs.«100486_j23888608100973_1_alg».proof.Proof.KPayload0
import proofs.«100486_j23888608100973_1_alg».proof.Proof.KPayload1
import proofs.«100486_j23888608100973_1_alg».proof.Proof.KPayload2
-- ==== Proof.KWeights.lean ====
/-
  The quantised weights of the two layers as the host forms them from a weight matrix `W`: the per-row scale, the
  largest magnitude of the row over 127, and the transposed matrix whose entry at column `r` is `W r k` over the
  scale of row `r`, rounded half to even and clamped to [-128, 127].
-/
import proofs.«100486_j23888608100973_1_alg».proof.KernelIdeal
import Idealize.ShloMosaic.PureOps.Ideal

noncomputable section

namespace Cert.KernelIdeal.Weights

open Idealize.ShloMosaic Cert.KernelIdeal Cert.KernelIdeal.Facts₀

variable [Facts₀]

/-- The first layer's per-row weight scale: the largest magnitude of row `r` of the 1024 x 128 weight matrix, over 127. -/
def wscale1 (w : Vec Ideal S1024x128 .f32) : Vec Ideal S1024 .f32 := Host.divf (F := Ideal) (Host.reduce (FloatOps.maximumf (F := Ideal)) (Host.absf (F := Ideal) w) (constant (F := Ideal) S_ .f32 0xFF800000#32) reducesTo_S1024x128_S1024_d1 h_S_) (broadcastInDim S1024 ![] bcast_S_S1024 (constant (F := Ideal) S_ .f32 0x42FE0000#32))

/-- The first layer's quantised weights, transposed: at `(k, r)` the entry `W r k` over the scale of row `r`, rounded half
    to even and clamped to [-128, 127]. -/
def wq1T (w : Vec Ideal S1024x128 .f32) : Vec Ideal S128x1024 .f32 := transpose S128x1024 [1, 0] (minimumf (F := Ideal) (broadcastInDim S1024x128 ![] bcast_S_S1024x128 (id (constant (F := Ideal) S_ .f32 0x42FE0000#32))) (maximumf (F := Ideal) (broadcastInDim S1024x128 ![] bcast_S_S1024x128 (id (constant (F := Ideal) S_ .f32 0xC3000000#32))) (Host.roundeven (F := Ideal) (Host.divf (F := Ideal) w (broadcastInDim S1024x128 ![0, 1] bcast_S1024x1_S1024x128_0_1 (broadcastInDim S1024x1 ![0] bcast_S1024_S1024x1_0 (wscale1 w))))))) transposes_S1024x128_S128x1024_1_0

/-- The second layer's per-row weight scale: the largest magnitude of row `r` of the 1024 x 1024 weight matrix, over 127. -/
def wscale2 (w : Vec Ideal S1024x1024 .f32) : Vec Ideal S1024 .f32 := Host.divf (F := Ideal) (Host.reduce (FloatOps.maximumf (F := Ideal)) (Host.absf (F := Ideal) w) (constant (F := Ideal) S_ .f32 0xFF800000#32) reducesTo_S1024x1024_S1024_d1 h_S_) (broadcastInDim S1024 ![] bcast_S_S1024 (constant (F := Ideal) S_ .f32 0x42FE0000#32))

/-- The second layer's quantised weights, transposed: at `(k, r)` the entry `W r k` over the scale of row `r`, rounded half
    to even and clamped to [-128, 127]. -/
def wq2T (w : Vec Ideal S1024x1024 .f32) : Vec Ideal S1024x1024 .f32 := transpose S1024x1024 [1, 0] (minimumf (F := Ideal) (broadcastInDim S1024x1024 ![] bcast_S_S1024x1024 (id (constant (F := Ideal) S_ .f32 0x42FE0000#32))) (maximumf (F := Ideal) (broadcastInDim S1024x1024 ![] bcast_S_S1024x1024 (id (constant (F := Ideal) S_ .f32 0xC3000000#32))) (Host.roundeven (F := Ideal) (Host.divf (F := Ideal) w (broadcastInDim S1024x1024 ![0, 1] bcast_S1024x1_S1024x1024_0_1 (broadcastInDim S1024x1 ![0] bcast_S1024_S1024x1_0 (wscale2 w))))))) transposes_S1024x1024_S1024x1024_1_0

end Cert.KernelIdeal.Weights

end
-- ==== Proof.KHost1.lean ====
/- The host computations of the program up to the entry of its second region, read off the fold of buffer contents.

   Between the launch and the second region the program forms, from the weight matrix `W` and the bias `b` of the first
   layer and from the first region's result `r` (the largest magnitude of the input): the per-row weight scale (the largest
   magnitude of a row over 127), the quantised transposed weights, the activation scale `r / 127`, the combined scale
   of each output column (the activation scale times the column's weight scale) and the integer bias (the bias over the
   combined scale, rounded). A buffer that no operation of a stretch writes, and no region owns, keeps its contents
   across it; a buffer a stretch writes holds the stretch's operations applied to what the stretch found. Walking each
   buffer back through the boundaries in this way gives its contents at the second region's entry as a function of
   the argument arrays and of the first region's result; the small arrays are then read index by index. -/
import proofs.«100486_j23888608100973_1_alg».proof.Proof.Gen.KernelIdeal.Frame
import proofs.«100486_j23888608100973_1_alg».proof.Proof.LibQuant
import proofs.«100486_j23888608100973_1_alg».proof.Proof.KWeights
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host1

open Cert.KernelIdeal Cert.KernelIdeal.Gen Cert.KernelIdeal.Weights
open Idealize.ShloMosaic Idealize.ShloMosaic.TcCoe Idealize.ShloMosaic.Tactic
open Idealize.ShloMosaic.ValueIdx
open Idealize.ShloMosaic.Pipeline (Dat Cfg Window BodyObligation cellOf)

variable (m : (ℓ : Loc nD τ sig) → Buf (Elt Ideal) ℓ) (ρ : Dev nD → PrngReg)

/-- A buffer that no operation of a stretch writes holds after the stretch what it held before. -/
syntax "kept_across " ident : tactic
macro_rules
  | `(tactic| kept_across $ops:ident) =>
    `(tactic| exact StableHlo.after_of_forall_not_mem _ _ (List.forall_iff_forall_mem.mp (by
          simp only [$ops:ident, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-! ## The input array is never written before the second region -/

theorem V9_x (c : Dev nD) : (V9 m ρ c main_arg0 : S32768x128.Idx → EReal) = m ((c : Thread nD τ).loc main_arg0) :=
  calc W9 m ρ c (Proc.devRef .tc main_arg0)
    _ = W8 m ρ c (Proc.devRef .tc main_arg0) := by kept_across hostOps0_8
    _ = W7 m ρ c (Proc.devRef .tc main_arg0) := by kept_across hostOps0_7
    _ = W6 m ρ c (Proc.devRef .tc main_arg0) := by kept_across hostOps0_6
    _ = W5 m ρ c (Proc.devRef .tc main_arg0) := by kept_across hostOps0_5
    _ = W4 m ρ c (Proc.devRef .tc main_arg0) := by kept_across hostOps0_4
    _ = W3 m ρ c (Proc.devRef .tc main_arg0) := by kept_across hostOps0_3
    _ = W2 m ρ c (Proc.devRef .tc main_arg0) := by kept_across hostOps0_2
    _ = W1 m ρ c (Proc.devRef .tc main_arg0) := by kept_across hostOps0_1
    _ = W0 m ρ c (Proc.devRef .tc main_arg0) := by kept_across hostOps0
    _ = m ((c : Thread nD τ).loc main_arg0) := rfl

theorem V13_x (c : Dev nD) : (V13 m ρ c main_arg0 : S32768x128.Idx → EReal) = m ((c : Thread nD τ).loc main_arg0) :=
  calc W13 m ρ c (Proc.devRef .tc main_arg0)
    _ = W12 m ρ c (Proc.devRef .tc main_arg0) := by kept_across hostOps1_2
    _ = W11 m ρ c (Proc.devRef .tc main_arg0) := by kept_across hostOps1_1
    _ = W10 m ρ c (Proc.devRef .tc main_arg0) := by kept_across hostOps1
    _ = W9 m ρ c (Proc.devRef .tc main_arg0) := (W10_arr m ρ c 0).trans (((dat0 (V9 m ρ) c).arrAt_in 0 rfl _).trans (A_eq0 (V9 m ρ) c 0))
    _ = m ((c : Thread nD τ).loc main_arg0) := V9_x m ρ c

/-! ## The first layer's weights: from the launch to the second region's entry -/

/-- After the first stretch, the scale buffer holds the per-row scale of the weight argument. -/
theorem W1_v3 (c : Dev nD) :
    (W1 m ρ c (Proc.devRef .tc main_v3) : Vec Ideal S1024 .f32) = wscale1 (m ((c : Thread nD τ).loc main_arg1)) := by
  show StableHlo.after hostOps0 (W0 m ρ c) (Proc.devRef .tc main_v3) = _
  after_results
  rfl

/-- After the first stretch, the quotient buffer holds each weight over its row's scale. -/
theorem W1_v6 (c : Dev nD) :
    (W1 m ρ c (Proc.devRef .tc main_v6) : Vec Ideal S1024x128 .f32)
      = (Host.divf (m ((c : Thread nD τ).loc main_arg1)) (broadcastInDim S1024x128 ![0, 1] bcast_S1024x1_S1024x128_0_1
          (broadcastInDim S1024x1 ![0] bcast_S1024_S1024x1_0 (wscale1 (m ((c : Thread nD τ).loc main_arg1))))) : FVec Ideal S1024x128 .f32) := by
  show StableHlo.after hostOps0 (W0 m ρ c) (Proc.devRef .tc main_v6) = _
  after_results
  rfl

/-- The rounding stretch rounds the quotients. -/
theorem W2_v7 (c : Dev nD) :
    (W2 m ρ c (Proc.devRef .tc main_v7) : Vec Ideal S1024x128 .f32)
      = (Host.roundeven (W1 m ρ c (Proc.devRef .tc main_v6) : Vec Ideal S1024x128 .f32) : FVec Ideal S1024x128 .f32) := by
  show StableHlo.after hostOps0_1 (W1 m ρ c) (Proc.devRef .tc main_v7) = _
  after_results
  rfl

theorem W3_v7 (c : Dev nD) : W3 m ρ c (Proc.devRef .tc main_v7) = W2 m ρ c (Proc.devRef .tc main_v7) := by
  kept_across hostOps0_2

theorem W3_cst_1 (c : Dev nD) :
    (W3 m ρ c (Proc.devRef .tc main_cst_1) : Vec Ideal S_ .f32) = constant (F := Ideal) S_ .f32 0xC3000000#32 := by
  show StableHlo.after hostOps0_2 (W2 m ρ c) (Proc.devRef .tc main_cst_1) = _
  after_results

theorem W3_cst_2 (c : Dev nD) :
    (W3 m ρ c (Proc.devRef .tc main_cst_2) : Vec Ideal S_ .f32) = constant (F := Ideal) S_ .f32 0x42FE0000#32 := by
  show StableHlo.after hostOps0_2 (W2 m ρ c) (Proc.devRef .tc main_cst_2) = _
  after_results

/-- The clamping stretch clamps the rounded quotients between the two bounds. -/
theorem W4_v8 (c : Dev nD) :
    (W4 m ρ c (Proc.devRef .tc main_v8) : Vec Ideal S1024x128 .f32)
      = (minimumf (broadcastInDim S1024x128 ![] bcast_S_S1024x128 (id (W3 m ρ c (Proc.devRef .tc main_cst_2) : Vec Ideal S_ .f32)))
          (maximumf (broadcastInDim S1024x128 ![] bcast_S_S1024x128 (id (W3 m ρ c (Proc.devRef .tc main_cst_1) : Vec Ideal S_ .f32)))
            (W3 m ρ c (Proc.devRef .tc main_v7) : Vec Ideal S1024x128 .f32)) : FVec Ideal S1024x128 .f32) := by
  show StableHlo.after hostOps0_3 (W3 m ρ c) (Proc.devRef .tc main_v8) = _
  after_results
  rfl

/-- The next stretch transposes the clamped matrix and stores it in the narrower format. -/
theorem W5_v10 (c : Dev nD) :
    (W5 m ρ c (Proc.devRef .tc main_v10) : S128x1024.Idx → EReal)
      = fun i => transpose S128x1024 [1, 0] (W4 m ρ c (Proc.devRef .tc main_v8) : Vec Ideal S1024x128 .f32)
          transposes_S1024x128_S128x1024_1_0 i := by
  show StableHlo.after hostOps0_4 (W4 m ρ c) (Proc.devRef .tc main_v10) = _
  after_results_simp
  rfl

/-- At the fifth boundary the transposed-weights buffer holds the quantised, transposed weight argument. -/
theorem W5_w (c : Dev nD) :
    (W5 m ρ c (Proc.devRef .tc main_v10) : S128x1024.Idx → EReal) = fun i => wq1T (m ((c : Thread nD τ).loc main_arg1)) i := by
  rw [W5_v10, W4_v8, W3_cst_1, W3_cst_2, W3_v7, W2_v7, W1_v6]
  rfl

theorem V13_w (c : Dev nD) :
    (V13 m ρ c main_v10 : S128x1024.Idx → EReal) = fun i => wq1T (m ((c : Thread nD τ).loc main_arg1)) i :=
  calc W13 m ρ c (Proc.devRef .tc main_v10)
    _ = W12 m ρ c (Proc.devRef .tc main_v10) := by kept_across hostOps1_2
    _ = W11 m ρ c (Proc.devRef .tc main_v10) := by kept_across hostOps1_1
    _ = W10 m ρ c (Proc.devRef .tc main_v10) := by kept_across hostOps1
    _ = W9 m ρ c (Proc.devRef .tc main_v10) := W10_of_ne m ρ c main_v10 (by decide)
    _ = W8 m ρ c (Proc.devRef .tc main_v10) := by kept_across hostOps0_8
    _ = W7 m ρ c (Proc.devRef .tc main_v10) := by kept_across hostOps0_7
    _ = W6 m ρ c (Proc.devRef .tc main_v10) := by kept_across hostOps0_6
    _ = W5 m ρ c (Proc.devRef .tc main_v10) := by kept_across hostOps0_5
    _ = _ := W5_w m ρ c

/-- The scale buffer keeps the per-row scale up to the first region's exit. -/
theorem W10_v3 (c : Dev nD) :
    (W10 m ρ c (Proc.devRef .tc main_v3) : Vec Ideal S1024 .f32) = wscale1 (m ((c : Thread nD τ).loc main_arg1)) :=
  calc W10 m ρ c (Proc.devRef .tc main_v3)
    _ = W9 m ρ c (Proc.devRef .tc main_v3) := W10_of_ne m ρ c main_v3 (by decide)
    _ = W8 m ρ c (Proc.devRef .tc main_v3) := by kept_across hostOps0_8
    _ = W7 m ρ c (Proc.devRef .tc main_v3) := by kept_across hostOps0_7
    _ = W6 m ρ c (Proc.devRef .tc main_v3) := by kept_across hostOps0_6
    _ = W5 m ρ c (Proc.devRef .tc main_v3) := by kept_across hostOps0_5
    _ = W4 m ρ c (Proc.devRef .tc main_v3) := by kept_across hostOps0_4
    _ = W3 m ρ c (Proc.devRef .tc main_v3) := by kept_across hostOps0_3
    _ = W2 m ρ c (Proc.devRef .tc main_v3) := by kept_across hostOps0_2
    _ = W1 m ρ c (Proc.devRef .tc main_v3) := by kept_across hostOps0_1
    _ = _ := W1_v3 m ρ c

/-! ## The activation scale of the first layer, the combined scales and the integer biases -/

/-- The first region's result is what its pipeline leaves in the array of its second window. -/
theorem W10_v22 (c : Dev nD) : W10 m ρ c (Proc.devRef .tc main_v22) = (dat0 (V9 m ρ) c).arrAt 1 cfg0.N :=
  W10_arr m ρ c 1

/-- The activation scale: the first region's result over 127. -/
def ascale1 (r0 : Vec Ideal S1x1 .f32) : Vec Ideal S1x1 .f32 :=
  Host.divf r0 (broadcastInDim S1x1 ![] bcast_S_S1x1 (constant (F := Ideal) S_ .f32 0x42FE0000#32))

/-- The combined scale of the first layer: the activation scale times each row's weight scale. -/
def cscale1 (r0 : Vec Ideal S1x1 .f32) (ws : Vec Ideal S1024 .f32) : Vec Ideal S1024 .f32 :=
  (mulf (broadcastInDim S1024 ![] bcast_S_S1024 (shapeCast S_ (ascale1 r0) shapeCasts_S1x1_S_)) ws : FVec Ideal S1024 .f32)

theorem W11_v24 (c : Dev nD) :
    (W11 m ρ c (Proc.devRef .tc main_v24) : Vec Ideal S1x1 .f32) = ascale1 (W10 m ρ c (Proc.devRef .tc main_v22)) := by
  show StableHlo.after hostOps1 (W10 m ρ c) (Proc.devRef .tc main_v24) = _
  after_results_simp
  rfl

theorem W11_v27 (c : Dev nD) :
    (W11 m ρ c (Proc.devRef .tc main_v27) : Vec Ideal S1024 .f32)
      = cscale1 (W10 m ρ c (Proc.devRef .tc main_v22)) (W10 m ρ c (Proc.devRef .tc main_v3)) := by
  show StableHlo.after hostOps1 (W10 m ρ c) (Proc.devRef .tc main_v27) = _
  after_results_simp
  rfl

theorem W11_v28 (c : Dev nD) :
    (W11 m ρ c (Proc.devRef .tc main_v28) : Vec Ideal S1024 .f32)
      = (Host.divf (W10 m ρ c (Proc.devRef .tc main_arg2) : Vec Ideal S1024 .f32)
          (cscale1 (W10 m ρ c (Proc.devRef .tc main_v22)) (W10 m ρ c (Proc.devRef .tc main_v3))) : FVec Ideal S1024 .f32) := by
  show StableHlo.after hostOps1 (W10 m ρ c) (Proc.devRef .tc main_v28) = _
  after_results_simp
  rfl

theorem W12_v29 (c : Dev nD) :
    (W12 m ρ c (Proc.devRef .tc main_v29) : Vec Ideal S1024 .f32)
      = (Host.roundeven (W11 m ρ c (Proc.devRef .tc main_v28) : Vec Ideal S1024 .f32) : FVec Ideal S1024 .f32) := by
  show StableHlo.after hostOps1_1 (W11 m ρ c) (Proc.devRef .tc main_v29) = _
  after_results
  rfl

theorem W13_v30 (c : Dev nD) :
    (W13 m ρ c (Proc.devRef .tc main_v30) : Vec Ideal S1x1024 .f32)
      = (shapeCast S1x1024 (W12 m ρ c (Proc.devRef .tc main_v29) : Vec Ideal S1024 .f32) shapeCasts_S1024_S1x1024 : FVec Ideal S1x1024 .f32) := by
  show StableHlo.after hostOps1_2 (W12 m ρ c) (Proc.devRef .tc main_v30) = _
  after_results
  rfl

theorem W13_v31 (c : Dev nD) :
    (W13 m ρ c (Proc.devRef .tc main_v31) : Vec Ideal S1x1024 .f32)
      = (shapeCast S1x1024 (W12 m ρ c (Proc.devRef .tc main_v27) : Vec Ideal S1024 .f32) shapeCasts_S1024_S1x1024 : FVec Ideal S1x1024 .f32) := by
  show StableHlo.after hostOps1_2 (W12 m ρ c) (Proc.devRef .tc main_v31) = _
  after_results
  rfl

/-- The bias argument is never written before the first region's exit. -/
theorem W10_b1 (c : Dev nD) : (W10 m ρ c (Proc.devRef .tc main_arg2) : Vec Ideal S1024 .f32) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := by kept_across hostOps0_8
    _ = W7 m ρ c (Proc.devRef .tc main_arg2) := by kept_across hostOps0_7
    _ = W6 m ρ c (Proc.devRef .tc main_arg2) := by kept_across hostOps0_6
    _ = W5 m ρ c (Proc.devRef .tc main_arg2) := by kept_across hostOps0_5
    _ = W4 m ρ c (Proc.devRef .tc main_arg2) := by kept_across hostOps0_4
    _ = W3 m ρ c (Proc.devRef .tc main_arg2) := by kept_across hostOps0_3
    _ = W2 m ρ c (Proc.devRef .tc main_arg2) := by kept_across hostOps0_2
    _ = W1 m ρ c (Proc.devRef .tc main_arg2) := by kept_across hostOps0_1
    _ = W0 m ρ c (Proc.devRef .tc main_arg2) := by kept_across hostOps0
    _ = m ((c : Thread nD τ).loc main_arg2) := rfl

/-! ### Read at an index -/

/-- The one index of a one-by-one array. -/
theorem idx11 (y : S1x1.Idx) : y = ix2 (0 : Fin 1) (0 : Fin 1) := by
  funext d
  match d with
  | ⟨0, _⟩ => exact Fin.ext (Nat.lt_one_iff.mp (y 0).isLt)
  | ⟨1, _⟩ => exact Fin.ext (Nat.lt_one_iff.mp (y 1).isLt)

theorem ascale1_apply (r0 : Vec Ideal S1x1 .f32) (y : S1x1.Idx) :
    ascale1 r0 y = Ideal.div (r0 (ix2 (0 : Fin 1) (0 : Fin 1))) Quant.hi8 := by
  rw [idx11 y]; rfl

theorem cscale1_apply (r0 : Vec Ideal S1x1 .f32) (ws : Vec Ideal S1024 .f32) (j : Fin 1024) :
    cscale1 r0 ws (ix1 j) = Ideal.div (r0 (ix2 (0 : Fin 1) (0 : Fin 1))) Quant.hi8 * ws (ix1 j) := by
  show ascale1 r0 _ * ws (ix1 j) = _
  rw [ascale1_apply]

/-- The activation scale at the second region's entry. -/
theorem V13_s (c : Dev nD) (y : S1x1.Idx) :
    (V13 m ρ c main_v24 : S1x1.Idx → EReal) y
      = Ideal.div ((W10 m ρ c (Proc.devRef .tc main_v22) : S1x1.Idx → EReal) (ix2 (0 : Fin 1) (0 : Fin 1))) Quant.hi8 := by
  have e : (V13 m ρ c main_v24 : S1x1.Idx → EReal) = ascale1 (W10 m ρ c (Proc.devRef .tc main_v22)) :=
    calc W13 m ρ c (Proc.devRef .tc main_v24)
      _ = W12 m ρ c (Proc.devRef .tc main_v24) := by kept_across hostOps1_2
      _ = W11 m ρ c (Proc.devRef .tc main_v24) := by kept_across hostOps1_1
      _ = _ := W11_v24 m ρ c
  rw [e, ascale1_apply]

theorem W12_v27 (c : Dev nD) : W12 m ρ c (Proc.devRef .tc main_v27) = W11 m ρ c (Proc.devRef .tc main_v27) := by
  kept_across hostOps1_1

/-- The combined scale of output column `j` at the second region's entry. -/
theorem V13_fc (c : Dev nD) (j : Fin 1024) :
    (V13 m ρ c main_v31 : S1x1024.Idx → EReal) (ix2 (0 : Fin 1) j)
      = Ideal.div ((W10 m ρ c (Proc.devRef .tc main_v22) : S1x1.Idx → EReal) (ix2 (0 : Fin 1) (0 : Fin 1))) Quant.hi8
          * wscale1 (m ((c : Thread nD τ).loc main_arg1)) (ix1 j) := by
  show (W13 m ρ c (Proc.devRef .tc main_v31) : S1x1024.Idx → EReal) (ix2 (0 : Fin 1) j) = _
  rw [W13_v31, shapeCast_a_1a_apply, W12_v27, W11_v27, cscale1_apply, W10_v3]

/-- The integer bias of output column `j` at the second region's entry. -/
theorem V13_bi (c : Dev nD) (j : Fin 1024) :
    (V13 m ρ c main_v30 : S1x1024.Idx → EReal) (ix2 (0 : Fin 1) j)
      = Quant.biasInt (m ((c : Thread nD τ).loc main_arg2) (ix1 j))
          (Ideal.div ((W10 m ρ c (Proc.devRef .tc main_v22) : S1x1.Idx → EReal) (ix2 (0 : Fin 1) (0 : Fin 1))) Quant.hi8
            * wscale1 (m ((c : Thread nD τ).loc main_arg1)) (ix1 j)) := by
  show (W13 m ρ c (Proc.devRef .tc main_v30) : S1x1024.Idx → EReal) (ix2 (0 : Fin 1) j) = _
  rw [W13_v30, shapeCast_a_1a_apply, W12_v29, W11_v28]
  show Quant.rne (Ideal.div ((W10 m ρ c (Proc.devRef .tc main_arg2) : Vec Ideal S1024 .f32) (ix1 j))
    (cscale1 (W10 m ρ c (Proc.devRef .tc main_v22)) (W10 m ρ c (Proc.devRef .tc main_v3)) (ix1 j))) = _
  rw [cscale1_apply, W10_v3, W10_b1]
  rfl

/-! ## The quantised weights read at an index -/

/-- A vector of row values spread along the rows of a matrix reads, at `(j, k)`, the vector at `j`. -/
theorem rowspread_apply (ws : Vec Ideal S1024 .f32) (j : Fin 1024) (k : Fin 128) :
    broadcastInDim S1024x128 ![0, 1] bcast_S1024x1_S1024x128_0_1 (broadcastInDim S1024x1 ![0] bcast_S1024_S1024x1_0 ws) (ix2 j k)
      = ws (ix1 j) := by
  rw [broadcastInDim_apply ![0, 1] bcast_S1024x1_S1024x128_0_1 _ (ix2 j k) (ix2 j (0 : Fin 1))
    (fun a => match a with | ⟨0, _⟩ => rfl | ⟨1, _⟩ => rfl)]
  exact broadcastInDim_apply ![0] bcast_S1024_S1024x1_0 ws (ix2 j (0 : Fin 1)) (ix1 j) (fun a => match a with | ⟨0, _⟩ => rfl)

/-- Entry `(k, j)` of the quantised transposed weights is the symmetric 8-bit quantisation of weight `(j, k)` at
    row `j`'s scale. -/
theorem wq1T_apply (w : Vec Ideal S1024x128 .f32) (k : Fin 128) (j : Fin 1024) :
    wq1T w (ix2 k j) = Quant.q8 (wscale1 w (ix1 j)) (w (ix2 j k)) := by
  unfold wq1T
  rw [transpose_ix2_apply]
  show min Quant.hi8 (max Quant.lo8 (Quant.rne (Ideal.div (w (ix2 j k))
    (broadcastInDim S1024x128 ![0, 1] bcast_S1024x1_S1024x128_0_1 (broadcastInDim S1024x1 ![0] bcast_S1024_S1024x1_0 (wscale1 w)) (ix2 j k))))) = _
  rw [rowspread_apply]
  rfl

end Cert.KernelIdeal.Host1

end
-- ==== Proof.KHost2.lean ====
/-
  The host arithmetic between the first layer's exit and the second layer's entry, read off the printed program.

  The first layer leaves the smallest and the largest hidden activation in two one-by-one accumulators.  From them the
  host forms the activation scale of the second layer (the range `max(hmax, 0) - min(hmin, 0)` over 255), its zero point
  (`-min(hmin, 0)` over the scale, rounded), the per-column rescaling factors (the activation scale times each output
  row's weight scale) and the integer biases (each bias over its factor, rounded).  The quantised transposed weights
  were formed before the first region and are untouched since.  Each buffer is followed through the stretches of host
  operations and the regions that do not write it, and evaluated, entry by entry, where it is written.
-/
import proofs.«100486_j23888608100973_1_alg».proof.Proof.Gen.KernelIdeal.Frame
import proofs.«100486_j23888608100973_1_alg».proof.Proof.LibQuant
import proofs.«100486_j23888608100973_1_alg».proof.Proof.KWeights
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host2

open Idealize.ShloMosaic Idealize.ShloMosaic.TcCoe
open Cert.KernelIdeal Cert.KernelIdeal.Gen
open Idealize.ShloMosaic.ValueIdx
open Cert.KernelIdeal.Weights

variable (m : (ℓ : Loc nD τ sig) → Buf (Elt Ideal) ℓ) (ρ : Dev nD → PrngReg)

/-- A stretch of host operations leaves a buffer that none of them writes as it found it. -/
macro "stretch_skips" : tactic =>
  `(tactic| (refine StableHlo.after_of_forall_not_mem _ _ (List.forall_iff_forall_mem.mp ?_)
             simp only [hostOps0, hostOps0_1, hostOps0_2, hostOps0_3, hostOps0_4, hostOps0_5, hostOps0_6, hostOps0_7, hostOps0_8,
               hostOps1, hostOps1_1, hostOps1_2, hostOps2, hostOps2_1, hostOps2_2, hostOps2_3, hostOps2_4,
               List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Indices of the unit shapes -/

/-- A one-by-one matrix has one entry. -/
theorem idx11_eq (y : S1x1.Idx) : y = ix2 (0 : Fin 1) (0 : Fin 1) := by
  funext d
  match d with
  | ⟨0, h⟩ => exact Fin.ext (Nat.lt_one_iff.mp (y ⟨0, h⟩).isLt)
  | ⟨1, h⟩ => exact Fin.ext (Nat.lt_one_iff.mp (y ⟨1, h⟩).isLt)

/-- The one entry of a one-by-one matrix read as a scalar. -/
theorem scalar_of_1x1 {α : Type} (x : S1x1.Idx → α) (h : S1x1.ShapeCasts S_) (j : S_.Idx) :
    shapeCast S_ x h j = x (ix2 (0 : Fin 1) (0 : Fin 1)) := by
  unfold shapeCast
  exact congrArg x (idx11_eq _)

/-! ## The two extreme hidden activations -/

/-- The smallest hidden activation, as the first layer's region leaves it in its accumulator. -/
abbrev Hmin (c : Dev nD) : EReal := (W14 m ρ c (Proc.devRef .tc main_v32_1) : S1x1.Idx → EReal) (ix2 (0 : Fin 1) (0 : Fin 1))
/-- The largest hidden activation, as the first layer's region leaves it in its accumulator. -/
abbrev Hmax (c : Dev nD) : EReal := (W14 m ρ c (Proc.devRef .tc main_v32_2) : S1x1.Idx → EReal) (ix2 (0 : Fin 1) (0 : Fin 1))

/-! ## The activation scale and the zero point of the second layer -/

/-- The activation scale where it is computed: the range of the hidden activations, widened to hold zero, over 255. -/
theorem W15_scale (c : Dev nD) (y : S1x1.Idx) :
    (W15 m ρ c (Proc.devRef .tc main_v39) : S1x1.Idx → EReal) y = Quant.scale2 (Hmin m ρ c) (Hmax m ρ c) := by
  show StableHlo.after hostOps2 (W14 m ρ c) (Proc.devRef .tc main_v39) y = _
  after_results
  rw [idx11_eq y]
  rfl

/-- The unrounded zero point where it is computed: minus the smaller of the smallest activation and zero, over the scale. -/
theorem W15_zp_raw (c : Dev nD) (y : S1x1.Idx) :
    (W15 m ρ c (Proc.devRef .tc main_v41) : S1x1.Idx → EReal) y
      = Ideal.div (-(min (Hmin m ρ c) Quant.zero32)) (Quant.scale2 (Hmin m ρ c) (Hmax m ρ c)) := by
  show StableHlo.after hostOps2 (W14 m ρ c) (Proc.devRef .tc main_v41) y = _
  after_results
  rw [idx11_eq y]
  rfl

/-- The zero point where it is computed: the rounding of the quotient above. -/
theorem W16_zp (c : Dev nD) (y : S1x1.Idx) :
    (W16 m ρ c (Proc.devRef .tc main_v42) : S1x1.Idx → EReal) y
      = Quant.zeroPoint (Hmin m ρ c) (Quant.scale2 (Hmin m ρ c) (Hmax m ρ c)) := by
  show StableHlo.after hostOps2_1 (StableHlo.after hostOps2 (W14 m ρ c)) (Proc.devRef .tc main_v42) y = _
  after_results
  rw [idx11_eq y]
  rfl

/-- The activation scale is not written again before the second layer's region. -/
theorem W19_scale_eq (c : Dev nD) : W19 m ρ c (Proc.devRef .tc main_v39) = W15 m ρ c (Proc.devRef .tc main_v39) :=
  calc W19 m ρ c (Proc.devRef .tc main_v39)
    _ = W18 m ρ c (Proc.devRef .tc main_v39) := by stretch_skips
    _ = W17 m ρ c (Proc.devRef .tc main_v39) := by stretch_skips
    _ = W16 m ρ c (Proc.devRef .tc main_v39) := by stretch_skips
    _ = W15 m ρ c (Proc.devRef .tc main_v39) := by stretch_skips

/-- The zero point is not written again before the second layer's region. -/
theorem W19_zp_eq (c : Dev nD) : W19 m ρ c (Proc.devRef .tc main_v42) = W16 m ρ c (Proc.devRef .tc main_v42) :=
  calc W19 m ρ c (Proc.devRef .tc main_v42)
    _ = W18 m ρ c (Proc.devRef .tc main_v42) := by stretch_skips
    _ = W17 m ρ c (Proc.devRef .tc main_v42) := by stretch_skips
    _ = W16 m ρ c (Proc.devRef .tc main_v42) := by stretch_skips

/-- The second layer's region finds the activation scale in its scale window. -/
theorem V19_s (c : Dev nD) (y : S1x1.Idx) :
    (V19 m ρ c main_v39 : S1x1.Idx → EReal) y = Quant.scale2 (Hmin m ρ c) (Hmax m ρ c) := by
  show (W19 m ρ c (Proc.devRef .tc main_v39) : S1x1.Idx → EReal) y = _
  rw [W19_scale_eq]
  exact W15_scale m ρ c y

/-- The second layer's region finds the zero point in its zero-point window. -/
theorem V19_zp (c : Dev nD) (y : S1x1.Idx) :
    (V19 m ρ c main_v42 : S1x1.Idx → EReal) y = Quant.zeroPoint (Hmin m ρ c) (Quant.scale2 (Hmin m ρ c) (Hmax m ρ c)) := by
  show (W19 m ρ c (Proc.devRef .tc main_v42) : S1x1.Idx → EReal) y = _
  rw [W19_zp_eq]
  exact W16_zp m ρ c y

/-- The activation scale as a scalar, where it is reshaped. -/
theorem W17_scale0 (c : Dev nD) (y : S_.Idx) :
    (W17 m ρ c (Proc.devRef .tc main_v43) : S_.Idx → EReal) y = Quant.scale2 (Hmin m ρ c) (Hmax m ρ c) := by
  show StableHlo.after hostOps2_2 (W16 m ρ c) (Proc.devRef .tc main_v43) y = _
  after_results
  show shapeCast S_ (W16 m ρ c (Proc.devRef .tc main_v39) : S1x1.Idx → EReal) shapeCasts_S1x1_S_ y = _
  rw [scalar_of_1x1]
  have e : W16 m ρ c (Proc.devRef .tc main_v39) = W15 m ρ c (Proc.devRef .tc main_v39) := by stretch_skips
  rw [e]
  exact W15_scale m ρ c _

/-- The scalar activation scale at the run's end: the second layer's region does not own it. -/
theorem W20_s (c : Dev nD) :
    (W20 m ρ c (Proc.devRef .tc main_v43) : S_.Idx → EReal) = fun _ => Quant.scale2 (Hmin m ρ c) (Hmax m ρ c) := by
  funext y
  have e : W20 m ρ c (Proc.devRef .tc main_v43) = W17 m ρ c (Proc.devRef .tc main_v43) :=
    calc W20 m ρ c (Proc.devRef .tc main_v43)
      _ = W19 m ρ c (Proc.devRef .tc main_v43) := W20_of_ne m ρ c main_v43 (by decide)
      _ = W18 m ρ c (Proc.devRef .tc main_v43) := by stretch_skips
      _ = W17 m ρ c (Proc.devRef .tc main_v43) := by stretch_skips
  rw [e]
  exact W17_scale0 m ρ c y

/-! ## The weight scale of the second layer -/

/-- The stretch that forms the weight scale, from any contents: the scale of the weights it finds. -/
theorem wscale2_after (V : Valuation τ sig (Elt Ideal)) :
    StableHlo.after hostOps0_4 V (Proc.devRef .tc main_v14) = wscale2 (V (Proc.devRef .tc main_arg3)) := by
  after_results
  rfl

/-- The second layer's weights are as launched when their scale is formed. -/
theorem W4_weights (c : Dev nD) : W4 m ρ c (Proc.devRef .tc main_arg3) = m ((c : Thread nD τ).loc main_arg3) :=
  calc W4 m ρ c (Proc.devRef .tc main_arg3)
    _ = W3 m ρ c (Proc.devRef .tc main_arg3) := by stretch_skips
    _ = W2 m ρ c (Proc.devRef .tc main_arg3) := by stretch_skips
    _ = W1 m ρ c (Proc.devRef .tc main_arg3) := by stretch_skips
    _ = W0 m ρ c (Proc.devRef .tc main_arg3) := by stretch_skips
    _ = m ((c : Thread nD τ).loc main_arg3) := rfl

/-- The weight scale where it is formed. -/
theorem W5_wscale (c : Dev nD) :
    W5 m ρ c (Proc.devRef .tc main_v14) = wscale2 (m ((c : Thread nD τ).loc main_arg3)) :=
  (wscale2_after (W4 m ρ c)).trans (congrArg wscale2 (W4_weights m ρ c))

/-- The weight scale is written once: neither a later host operation nor the first two regions touch it. -/
theorem W16_wscale_eq (c : Dev nD) : W16 m ρ c (Proc.devRef .tc main_v14) = W5 m ρ c (Proc.devRef .tc main_v14) :=
  calc W16 m ρ c (Proc.devRef .tc main_v14)
    _ = W15 m ρ c (Proc.devRef .tc main_v14) := by stretch_skips
    _ = W14 m ρ c (Proc.devRef .tc main_v14) := by stretch_skips
    _ = W13 m ρ c (Proc.devRef .tc main_v14) := W14_of_ne m ρ c main_v14 (by decide)
    _ = W12 m ρ c (Proc.devRef .tc main_v14) := by stretch_skips
    _ = W11 m ρ c (Proc.devRef .tc main_v14) := by stretch_skips
    _ = W10 m ρ c (Proc.devRef .tc main_v14) := by stretch_skips
    _ = W9 m ρ c (Proc.devRef .tc main_v14) := W10_of_ne m ρ c main_v14 (by decide)
    _ = W8 m ρ c (Proc.devRef .tc main_v14) := by stretch_skips
    _ = W7 m ρ c (Proc.devRef .tc main_v14) := by stretch_skips
    _ = W6 m ρ c (Proc.devRef .tc main_v14) := by stretch_skips
    _ = W5 m ρ c (Proc.devRef .tc main_v14) := by stretch_skips

/-- The weight scale as the last stretches of host operations find it. -/
theorem W16_wscale (c : Dev nD) :
    W16 m ρ c (Proc.devRef .tc main_v14) = wscale2 (m ((c : Thread nD τ).loc main_arg3)) :=
  (W16_wscale_eq m ρ c).trans (W5_wscale m ρ c)

/-! ## The rescaling factors and the integer biases of the second layer -/

/-- A scalar read off a one-by-one matrix and spread along a vector multiplies every entry by the matrix's entry. -/
theorem spread_mul (x : S1x1.Idx → EReal) (w : S1024.Idx → EReal) (i : S1024.Idx) :
    mulf (F := Ideal) (φ := .f32) (broadcastInDim S1024 ![] Gen.bcast_S_S1024 (fun k => shapeCast S_ x Gen.shapeCasts_S1x1_S_ k)) w i
      = x (ix2 (0 : Fin 1) (0 : Fin 1)) * w i := by
  show shapeCast S_ x Gen.shapeCasts_S1x1_S_ _ * w i = _
  rw [scalar_of_1x1]

/-- The stretch that forms the rescaling factors, from any contents: the activation scale it finds times the weight
    scale it finds, column by column. -/
theorem factor_after (V : Valuation τ sig (Elt Ideal)) (j : Fin 1024) (s : EReal) (ws : S1024.Idx → EReal)
    (hs : (V (Proc.devRef .tc main_v39) : S1x1.Idx → EReal) (ix2 (0 : Fin 1) (0 : Fin 1)) = s)
    (hw : (V (Proc.devRef .tc main_v14) : S1024.Idx → EReal) = ws) :
    (StableHlo.after hostOps2_2 V (Proc.devRef .tc main_v45) : S1024.Idx → EReal) (ix1 j) = s * ws (ix1 j) := by
  after_results
  refine (spread_mul (V (Proc.devRef .tc main_v39)) (V (Proc.devRef .tc main_v14)) (ix1 j)).trans ?_
  rw [hs, hw]

/-- The same stretch's quotients: each bias over its rescaling factor. -/
theorem bias_raw_after (V : Valuation τ sig (Elt Ideal)) (j : Fin 1024) (s : EReal) (ws b : S1024.Idx → EReal)
    (hs : (V (Proc.devRef .tc main_v39) : S1x1.Idx → EReal) (ix2 (0 : Fin 1) (0 : Fin 1)) = s)
    (hw : (V (Proc.devRef .tc main_v14) : S1024.Idx → EReal) = ws)
    (hb : (V (Proc.devRef .tc main_arg4) : S1024.Idx → EReal) = b) :
    (StableHlo.after hostOps2_2 V (Proc.devRef .tc main_v46) : S1024.Idx → EReal) (ix1 j)
      = Ideal.div (b (ix1 j)) (s * ws (ix1 j)) := by
  after_results
  refine (congrArg (Ideal.div _) (spread_mul (V (Proc.devRef .tc main_v39)) (V (Proc.devRef .tc main_v14)) (ix1 j))).trans ?_
  rw [hs, hw, hb]

/-- The rounding of the quotients. -/
theorem bias_round_after (V : Valuation τ sig (Elt Ideal)) (i : S1024.Idx) :
    (StableHlo.after hostOps2_3 V (Proc.devRef .tc main_v47) : S1024.Idx → EReal) i
      = Quant.rne ((V (Proc.devRef .tc main_v46) : S1024.Idx → EReal) i) := by
  after_results
  rfl

/-- The rounded quotients laid out as a row. -/
theorem bias_row_after (V : Valuation τ sig (Elt Ideal)) (j : Fin 1024) :
    (StableHlo.after hostOps2_4 V (Proc.devRef .tc main_v48) : S1x1024.Idx → EReal) (ix2 (0 : Fin 1) j)
      = (V (Proc.devRef .tc main_v47) : S1024.Idx → EReal) (ix1 j) := by
  after_results
  exact shapeCast_a_1a_apply (V (Proc.devRef .tc main_v47) : S1024.Idx → EReal) Gen.shapeCasts_S1024_S1x1024 0 j

/-- The rescaling factors laid out as a row. -/
theorem factor_row_after (V : Valuation τ sig (Elt Ideal)) (j : Fin 1024) :
    (StableHlo.after hostOps2_4 V (Proc.devRef .tc main_v49) : S1x1024.Idx → EReal) (ix2 (0 : Fin 1) j)
      = (V (Proc.devRef .tc main_v45) : S1024.Idx → EReal) (ix1 j) := by
  after_results
  exact shapeCast_a_1a_apply (V (Proc.devRef .tc main_v45) : S1024.Idx → EReal) Gen.shapeCasts_S1024_S1x1024 0 j

/-- The activation scale as the stretch forming the factors finds it. -/
theorem W16_scale (c : Dev nD) (y : S1x1.Idx) :
    (W16 m ρ c (Proc.devRef .tc main_v39) : S1x1.Idx → EReal) y = Quant.scale2 (Hmin m ρ c) (Hmax m ρ c) := by
  have e : W16 m ρ c (Proc.devRef .tc main_v39) = W15 m ρ c (Proc.devRef .tc main_v39) := by stretch_skips
  rw [e]
  exact W15_scale m ρ c y

/-- The rescaling factors where they are formed: the activation scale times each row's weight scale. -/
theorem W17_factor (c : Dev nD) (j : Fin 1024) :
    (W17 m ρ c (Proc.devRef .tc main_v45) : S1024.Idx → EReal) (ix1 j)
      = Quant.scale2 (Hmin m ρ c) (Hmax m ρ c) * wscale2 (m ((c : Thread nD τ).loc main_arg3)) (ix1 j) := by
  exact factor_after (W16 m ρ c) j _ _ (W16_scale m ρ c _) (W16_wscale m ρ c)

/-- The second layer's biases are as launched when the integer biases are formed. -/
theorem W16_bias (c : Dev nD) : W16 m ρ c (Proc.devRef .tc main_arg4) = m ((c : Thread nD τ).loc main_arg4) :=
  calc W16 m ρ c (Proc.devRef .tc main_arg4)
    _ = W17 m ρ c (Proc.devRef .tc main_arg4) := Eq.symm (by stretch_skips)
    _ = W18 m ρ c (Proc.devRef .tc main_arg4) := Eq.symm (by stretch_skips)
    _ = W19 m ρ c (Proc.devRef .tc main_arg4) := Eq.symm (by stretch_skips)
    _ = W20 m ρ c (Proc.devRef .tc main_arg4) := (W20_of_ne m ρ c main_arg4 (by decide)).symm
    _ = m ((c : Thread nD τ).loc main_arg4) := W20_main_arg4 m ρ c

/-- The second layer's region finds the rescaling factors in their window. -/
theorem V19_fc (c : Dev nD) (j : Fin 1024) :
    (V19 m ρ c main_v49 : S1x1024.Idx → EReal) (ix2 (0 : Fin 1) j)
      = Quant.scale2 (Hmin m ρ c) (Hmax m ρ c) * wscale2 (m ((c : Thread nD τ).loc main_arg3)) (ix1 j) := by
  refine (factor_row_after (W18 m ρ c) j).trans ?_
  have e : W18 m ρ c (Proc.devRef .tc main_v45) = W17 m ρ c (Proc.devRef .tc main_v45) := by stretch_skips
  rw [e]
  exact W17_factor m ρ c j

/-- The second layer's region finds the integer biases in their window: each bias over its rescaling factor, rounded. -/
theorem V19_bi (c : Dev nD) (j : Fin 1024) :
    (V19 m ρ c main_v48 : S1x1024.Idx → EReal) (ix2 (0 : Fin 1) j)
      = Quant.biasInt ((m ((c : Thread nD τ).loc main_arg4) : S1024.Idx → EReal) (ix1 j))
          (Quant.scale2 (Hmin m ρ c) (Hmax m ρ c) * wscale2 (m ((c : Thread nD τ).loc main_arg3)) (ix1 j)) := by
  refine (bias_row_after (W18 m ρ c) j).trans ?_
  refine (bias_round_after (W17 m ρ c) (ix1 j)).trans ?_
  exact congrArg Quant.rne (bias_raw_after (W16 m ρ c) j _ _ _ (W16_scale m ρ c _) (W16_wscale m ρ c) (W16_bias m ρ c))

/-- The rescaling factors at the run's end: the second layer's region does not own the vector they were formed in. -/
theorem W20_fs (c : Dev nD) (j : Fin 1024) :
    (W20 m ρ c (Proc.devRef .tc main_v45) : S1024.Idx → EReal) (ix1 j)
      = Quant.scale2 (Hmin m ρ c) (Hmax m ρ c) * wscale2 (m ((c : Thread nD τ).loc main_arg3)) (ix1 j) := by
  have e : W20 m ρ c (Proc.devRef .tc main_v45) = W17 m ρ c (Proc.devRef .tc main_v45) :=
    calc W20 m ρ c (Proc.devRef .tc main_v45)
      _ = W19 m ρ c (Proc.devRef .tc main_v45) := W20_of_ne m ρ c main_v45 (by decide)
      _ = W18 m ρ c (Proc.devRef .tc main_v45) := by stretch_skips
      _ = W17 m ρ c (Proc.devRef .tc main_v45) := by stretch_skips
  rw [e]
  exact W17_factor m ρ c j

/-! ## The quantised transposed weights of the second layer -/

/-- The stretch that forms the weight scale also forms the quotients, from any contents: each weight over its row's scale. -/
theorem wratio2_after (V : Valuation τ sig (Elt Ideal)) :
    (StableHlo.after hostOps0_4 V (Proc.devRef .tc main_v17) : S1024x1024.Idx → EReal)
      = Host.divf (F := Ideal) (φ := .f32) (V (Proc.devRef .tc main_arg3))
          (broadcastInDim S1024x1024 ![0, 1] bcast_S1024x1_S1024x1024_0_1
            (broadcastInDim S1024x1 ![0] bcast_S1024_S1024x1_0 (wscale2 (V (Proc.devRef .tc main_arg3))))) := by
  after_results
  rfl

/-- The rounding of the quotients. -/
theorem wround_after (V : Valuation τ sig (Elt Ideal)) :
    (StableHlo.after hostOps0_5 V (Proc.devRef .tc main_v18) : S1024x1024.Idx → EReal)
      = Host.roundeven (F := Ideal) (φ := .f32) (V (Proc.devRef .tc main_v17)) := by
  after_results
  rfl

/-- The lower clamp bound. -/
theorem wlo_after (V : Valuation τ sig (Elt Ideal)) :
    (StableHlo.after hostOps0_6 V (Proc.devRef .tc main_cst_5) : S_.Idx → EReal) = constant (F := Ideal) S_ .f32 0xC3000000#32 := by
  after_results

/-- The upper clamp bound. -/
theorem whi_after (V : Valuation τ sig (Elt Ideal)) :
    (StableHlo.after hostOps0_6 V (Proc.devRef .tc main_cst_6) : S_.Idx → EReal) = constant (F := Ideal) S_ .f32 0x42FE0000#32 := by
  after_results

/-- The clamp, from any contents. -/
theorem wclip_after (V : Valuation τ sig (Elt Ideal)) :
    (StableHlo.after hostOps0_7 V (Proc.devRef .tc main_v19) : S1024x1024.Idx → EReal)
      = minimumf (F := Ideal) (φ := .f32) (broadcastInDim S1024x1024 ![] bcast_S_S1024x1024 (V (Proc.devRef .tc main_cst_6)))
          (maximumf (F := Ideal) (φ := .f32) (broadcastInDim S1024x1024 ![] bcast_S_S1024x1024 (V (Proc.devRef .tc main_cst_5)))
            (V (Proc.devRef .tc main_v18))) := by
  after_results
  rfl

/-- The transposition (the change of float format after it is the identity on the extended reals). -/
theorem wtranspose_after (V : Valuation τ sig (Elt Ideal)) :
    (StableHlo.after hostOps0_8 V (Proc.devRef .tc main_v21) : S1024x1024.Idx → EReal)
      = transpose S1024x1024 [1, 0] (V (Proc.devRef .tc main_v19) : S1024x1024.Idx → EReal) transposes_S1024x1024_S1024x1024_1_0 := by
  after_results
  rfl

/-- The quantised transposed weights where they are formed. -/
theorem W9_wq (c : Dev nD) :
    (W9 m ρ c (Proc.devRef .tc main_v21) : S1024x1024.Idx → EReal) = wq2T (m ((c : Thread nD τ).loc main_arg3)) := by
  refine (wtranspose_after (W8 m ρ c)).trans ?_
  have e19 := wclip_after (W7 m ρ c)
  have e18 : W7 m ρ c (Proc.devRef .tc main_v18) = W6 m ρ c (Proc.devRef .tc main_v18) := by stretch_skips
  have e17 := wratio2_after (W4 m ρ c)
  rw [W4_weights] at e17
  unfold wq2T
  refine congrArg (fun x => transpose S1024x1024 [1, 0] x transposes_S1024x1024_S1024x1024_1_0) ?_
  refine e19.trans ?_
  have ehi : (W7 m ρ c (Proc.devRef .tc main_cst_6) : S_.Idx → EReal) = constant (F := Ideal) S_ .f32 0x42FE0000#32 := whi_after (W6 m ρ c)
  have elo : (W7 m ρ c (Proc.devRef .tc main_cst_5) : S_.Idx → EReal) = constant (F := Ideal) S_ .f32 0xC3000000#32 := wlo_after (W6 m ρ c)
  rw [ehi, elo, e18]
  refine congrArg (fun x => minimumf (F := Ideal) (φ := .f32) _ (maximumf (F := Ideal) (φ := .f32) _ x)) ?_
  refine (wround_after (W5 m ρ c)).trans ?_
  exact congrArg (Host.roundeven (F := Ideal) (φ := .f32)) e17
/-- The quantised transposed weights are written once, before the first region. -/
theorem W19_wq_eq (c : Dev nD) : W19 m ρ c (Proc.devRef .tc main_v21) = W9 m ρ c (Proc.devRef .tc main_v21) :=
  calc W19 m ρ c (Proc.devRef .tc main_v21)
    _ = W18 m ρ c (Proc.devRef .tc main_v21) := by stretch_skips
    _ = W17 m ρ c (Proc.devRef .tc main_v21) := by stretch_skips
    _ = W16 m ρ c (Proc.devRef .tc main_v21) := by stretch_skips
    _ = W15 m ρ c (Proc.devRef .tc main_v21) := by stretch_skips
    _ = W14 m ρ c (Proc.devRef .tc main_v21) := by stretch_skips
    _ = W13 m ρ c (Proc.devRef .tc main_v21) := W14_of_ne m ρ c main_v21 (by decide)
    _ = W12 m ρ c (Proc.devRef .tc main_v21) := by stretch_skips
    _ = W11 m ρ c (Proc.devRef .tc main_v21) := by stretch_skips
    _ = W10 m ρ c (Proc.devRef .tc main_v21) := by stretch_skips
    _ = W9 m ρ c (Proc.devRef .tc main_v21) := W10_of_ne m ρ c main_v21 (by decide)

/-- The second layer's region finds the quantised transposed weights in their window. -/
theorem V19_w (c : Dev nD) :
    (V19 m ρ c main_v21 : S1024x1024.Idx → EReal) = fun i => wq2T (m ((c : Thread nD τ).loc main_arg3)) i := by
  show (W19 m ρ c (Proc.devRef .tc main_v21) : S1024x1024.Idx → EReal) = _
  rw [W19_wq_eq]
  exact W9_wq m ρ c

/-! ## The hidden activations and the regions' own arrays -/

/-- The second layer's region finds the hidden activations as the first layer's region left them. -/
theorem V19_h (c : Dev nD) :
    (V19 m ρ c main_v32_0 : S32768x1024.Idx → EReal) = W14 m ρ c (Proc.devRef .tc main_v32_0) :=
  calc W19 m ρ c (Proc.devRef .tc main_v32_0)
    _ = W18 m ρ c (Proc.devRef .tc main_v32_0) := by stretch_skips
    _ = W17 m ρ c (Proc.devRef .tc main_v32_0) := by stretch_skips
    _ = W16 m ρ c (Proc.devRef .tc main_v32_0) := by stretch_skips
    _ = W15 m ρ c (Proc.devRef .tc main_v32_0) := by stretch_skips
    _ = W14 m ρ c (Proc.devRef .tc main_v32_0) := by stretch_skips

/-- The output at the run's end is what the second layer's pipeline leaves in its output window's array. -/
theorem W20_o (c : Dev nD) : W20 m ρ c (Proc.devRef .tc main_v50) = (dat2 (V19 m ρ) c).arrAt 6 cfg2.N :=
  W20_arr m ρ c 6

/-- The hidden activations at the first layer's exit are what its pipeline leaves in its output window's array. -/
theorem W14_h (c : Dev nD) : W14 m ρ c (Proc.devRef .tc main_v32_0) = (dat1 (V13 m ρ) c).arrAt 5 cfg1.N :=
  W14_arr m ρ c 5
/-- The running minimum at the first layer's exit. -/
theorem W14_hmin (c : Dev nD) : W14 m ρ c (Proc.devRef .tc main_v32_1) = (dat1 (V13 m ρ) c).arrAt 6 cfg1.N :=
  W14_arr m ρ c 6
/-- The running maximum at the first layer's exit. -/
theorem W14_hmax (c : Dev nD) : W14 m ρ c (Proc.devRef .tc main_v32_2) = (dat1 (V13 m ρ) c).arrAt 7 cfg1.N :=
  W14_arr m ρ c 7

end Cert.KernelIdeal.Host2

end
-- ==== Proof.KValue.lean ====
/-
  The kernel program's three results as the quantised network in its fused form, over the argument arrays.

  The three regions are read one after the other. Region 0 leaves the largest magnitude of `x`; the host divides it
  by 127 into the first scale. Region 1, entered with that scale, the quantised transposed weights, the integer
  biases and the combined scales, leaves the hidden activations `Quant.hiddenK` and their least and largest entry;
  the host turns those into the second scale and zero point (`Quant.scaleOf`, `Quant.zeroOf`). Region 2, entered
  with them, leaves `Quant.outK`. The second and third results are the second scale and the second layer's combined
  scales, written by the host.
-/
import proofs.«100486_j23888608100973_1_alg».proof.Proof.KRegion0
import proofs.«100486_j23888608100973_1_alg».proof.Proof.KRegion1
import proofs.«100486_j23888608100973_1_alg».proof.Proof.KRegion2
import proofs.«100486_j23888608100973_1_alg».proof.Proof.KPayload
import proofs.«100486_j23888608100973_1_alg».proof.Proof.KHost1
import proofs.«100486_j23888608100973_1_alg».proof.Proof.KHost2
import proofs.«100486_j23888608100973_1_alg».proof.Proof.KWeights
import proofs.«100486_j23888608100973_1_alg».proof.Proof.LibQuantLaws

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The largest magnitude of `x`. -/
def amax : EReal :=
  Quant.supAll fun (r : Fin 32768) (k : Fin 128) => Quant.mag ((m ((c : Thread nD τ).loc main_arg0) : S32768x128.Idx → EReal) (ix2 r k))

/-- The hidden activations, over the argument arrays. -/
def hid : Fin 32768 → Fin 1024 → EReal :=
  Quant.hiddenK (fun r k => (m ((c : Thread nD τ).loc main_arg0) : S32768x128.Idx → EReal) (ix2 r k))
    (fun k j => Weights.wq1T (m ((c : Thread nD τ).loc main_arg1)) (ix2 k j))
    (fun j => (m ((c : Thread nD τ).loc main_arg2) : S1024.Idx → EReal) (ix1 j))
    (fun j => Weights.wscale1 (m ((c : Thread nD τ).loc main_arg1)) (ix1 j))
    (Ideal.div (amax m c) Quant.hi8)

/-- Region 0 leaves the largest magnitude of `x`. -/
theorem r0 : (W10 m ρ c (Proc.devRef .tc main_v22) : S1x1.Idx → EReal) = fun _ => amax m c := by
  rw [Host1.W10_v22 m ρ c, Region0.amax_final (V9 m ρ) Payload.k0_pay1_apply Payload.k0_pay2_apply c]
  show (fun _ => Quant.supAll fun (r : Fin 32768) (k : Fin 128) =>
      Quant.mag ((V9 m ρ c main_arg0 : S32768x128.Idx → EReal) (ix2 r k))) = _
  rw [Host1.V9_x m ρ c]
  rfl

/-- Region 1's hidden activations, at its entry contents, are `hid`. -/
theorem hidK_eq : Region1.hidK (V13 m ρ) c = hid m c := by
  funext r j
  show Quant.layer (fun k : Fin 128 => Quant.q8 ((V13 m ρ c main_v24 : S1x1.Idx → EReal) (ix2 0 0))
        ((V13 m ρ c main_arg0 : S32768x128.Idx → EReal) (ix2 r k)))
      (fun k : Fin 128 => (V13 m ρ c main_v10 : S128x1024.Idx → EReal) (ix2 k j))
      ((V13 m ρ c main_v30 : S1x1024.Idx → EReal) (ix2 0 j)) ((V13 m ρ c main_v31 : S1x1024.Idx → EReal) (ix2 0 j)) = _
  rw [Host1.V13_s m ρ c, Host1.V13_x m ρ c, Host1.V13_w m ρ c, Host1.V13_bi m ρ c j, Host1.V13_fc m ρ c j, r0 m ρ c]
  rfl

/-- Region 1 leaves the hidden activations … -/
theorem h_k : (W14 m ρ c (Proc.devRef .tc main_v32_0) : S32768x1024.Idx → EReal) = fun i : S32768x1024.Idx => hid m c (i 0) (i 1) := by
  rw [Host2.W14_h m ρ c, Region1.h_final (V13 m ρ) Payload.k1_pay5_apply c, hidK_eq]
  rfl

/-- … their least entry … -/
theorem hmin_k : Host2.Hmin m ρ c = Quant.infAll (hid m c) := by
  show (W14 m ρ c (Proc.devRef .tc main_v32_1) : S1x1.Idx → EReal) (ix2 0 0) = _
  rw [Host2.W14_hmin m ρ c,
    Region1.hmin_final (V13 m ρ) Payload.k1_pay5_apply Payload.k1_pay7_apply Payload.k1_pay2_apply Payload.k1_pay3_apply c, hidK_eq]

/-- … and their largest. -/
theorem hmax_k : Host2.Hmax m ρ c = Quant.supAll (hid m c) := by
  show (W14 m ρ c (Proc.devRef .tc main_v32_2) : S1x1.Idx → EReal) (ix2 0 0) = _
  rw [Host2.W14_hmax m ρ c,
    Region1.hmax_final (V13 m ρ) Payload.k1_pay5_apply Payload.k1_pay6_apply Payload.k1_pay1_apply Payload.k1_pay4_apply c, hidK_eq]

/-- The first result: region 2 leaves the output layer of the hidden activations. -/
theorem out_k : (W20 m ρ c (Proc.devRef .tc main_v50) : S32768x1024.Idx → EReal)
    = fun i : S32768x1024.Idx => Quant.outK (hid m c) (fun k j => Weights.wq2T (m ((c : Thread nD τ).loc main_arg3)) (ix2 k j))
        (fun j => (m ((c : Thread nD τ).loc main_arg4) : S1024.Idx → EReal) (ix1 j))
        (fun j => Weights.wscale2 (m ((c : Thread nD τ).loc main_arg3)) (ix1 j)) (i 0) (i 1) := by
  rw [Host2.W20_o m ρ c, Region2.o_final (V19 m ρ) Payload.k2_pay1_apply c]
  funext i
  show Quant.layer (fun k : Fin 1024 => Quant.qu8 ((V19 m ρ c main_v39 : S1x1.Idx → EReal) (ix2 0 0))
        ((V19 m ρ c main_v42 : S1x1.Idx → EReal) (ix2 0 0)) ((V19 m ρ c main_v32_0 : S32768x1024.Idx → EReal) (ix2 (i 0) k)))
      (fun k : Fin 1024 => (V19 m ρ c main_v21 : S1024x1024.Idx → EReal) (ix2 k (i 1)))
      ((V19 m ρ c main_v48 : S1x1024.Idx → EReal) (ix2 0 (i 1))) ((V19 m ρ c main_v49 : S1x1024.Idx → EReal) (ix2 0 (i 1))) = _
  rw [Host2.V19_s m ρ c, Host2.V19_zp m ρ c, Host2.V19_h m ρ c, Host2.V19_w m ρ c, Host2.V19_bi m ρ c (i 1),
    Host2.V19_fc m ρ c (i 1), h_k m ρ c, hmin_k m ρ c, hmax_k m ρ c]
  rfl

/-- The second result: the second layer's activation scale. -/
theorem s2_k : (W20 m ρ c (Proc.devRef .tc main_v43) : S_.Idx → EReal) = fun _ => Quant.scaleOf (hid m c) := by
  rw [Host2.W20_s m ρ c, hmin_k m ρ c, hmax_k m ρ c]
  rfl

/-- The third result: the second layer's combined scales. -/
theorem fs2_k (j : Fin 1024) : (W20 m ρ c (Proc.devRef .tc main_v45) : S1024.Idx → EReal) (ix1 j)
    = Quant.scaleOf (hid m c) * Weights.wscale2 (m ((c : Thread nD τ).loc main_arg3)) (ix1 j) := by
  rw [Host2.W20_fs m ρ c j, hmin_k m ρ c, hmax_k m ρ c]
  rfl

end Cert.KernelIdeal.KValue

end
-- ==== Proof.RefValue.lean ====
/-
  The reference program's stages, read at an index over the extended reals, are the functions of the quantised
  two-layer perceptron: the first activation scale is the largest magnitude of the input over 127; a hidden
  activation is one quantised linear layer and rectifier of the symmetrically quantised input row; the second
  scale and zero point come from the extreme hidden activations; an output element is one quantised layer of the
  asymmetrically quantised hidden row.
-/
import proofs.«100486_j23888608100973_1_alg».proof.Proof.Gen.ReferenceIdeal.Read
import proofs.«100486_j23888608100973_1_alg».proof.Proof.LibQuant
import proofs.«100486_j23888608100973_1_alg».proof.Proof.LibQuantLaws
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Read Idealize.ShloMosaic Idealize.ShloMosaic.ValueIdx

variable (x0 : (⟨S32768x128, .f32⟩ : BufTy).Contents (Elt Ideal))
  (x1 : (⟨S1024x128, .f32⟩ : BufTy).Contents (Elt Ideal))
  (x2 : (⟨S1024, .f32⟩ : BufTy).Contents (Elt Ideal))
  (x3 : (⟨S1024x1024, .f32⟩ : BufTy).Contents (Elt Ideal))
  (x4 : (⟨S1024, .f32⟩ : BufTy).Contents (Elt Ideal))

/-- The first layer's activation scale. -/
def s1 : EReal := val_main_v2 (F := Ideal) x0 ix0

/-- The dequantised-and-requantised input entry: the quantised entry times the scale, over the scale. -/
theorem v19_at (r : Fin 32768) (k : Fin 128) :
    val_main_v19 (F := Ideal) x0 (ix2 r k)
      = Ideal.div (Quant.q8 (s1 x0) (x0 (ix2 r k)) * s1 x0) (s1 x0) := by
  rw [val_main_v19_apply, val_main_v8_apply, val_main_v18_apply, val_main_v7_apply, val_main_v6_apply,
    val_main_call1_v4_apply, val_main_call1_v3_apply, val_main_cst_2_apply, val_main_call1_v2_apply,
    val_main_call1_v1_apply, val_main_call1_v0_apply, val_main_cst_1_apply, val_main_v5_apply,
    val_main_v4_apply, val_main_v3_apply]
  rfl

/-- The first layer's integer bias at a column. -/
theorem v27_at (r : Fin 32768) (j : Fin 1024) :
    val_main_v27 (F := Ideal) x0 x1 x2 (ix2 r j)
      = Quant.biasInt (x2 (ix1 j)) (s1 x0 * val_main_v12 (F := Ideal) x1 (ix1 j)) := by
  have e : idx_main_v26 (idx_main_v27 (ix2 r j)) = ix1 j :=
    funext fun a => Fin.ext (by match a with | ⟨0, _⟩ => rfl)
  rw [val_main_v27_apply, val_main_v26_apply, e, val_main_v23_apply, val_main_v22_apply, val_main_v21_apply,
    val_main_v20_apply]
  rfl

/-- The first layer's combined scale at a column. -/
theorem v32_at (r : Fin 32768) (j : Fin 1024) :
    val_main_v32 (F := Ideal) x0 x1 (ix2 r j) = s1 x0 * val_main_v12 (F := Ideal) x1 (ix1 j) := by
  have e : idx_main_v31 (idx_main_v32 (ix2 r j)) = ix1 j :=
    funext fun a => Fin.ext (by match a with | ⟨0, _⟩ => rfl)
  rw [val_main_v32_apply, val_main_v31_apply, e, val_main_v30_apply, val_main_v29_apply]
  rfl

/-- The hidden activations. -/
def hid : Fin 32768 → Fin 1024 → EReal := fun r j => val_main_v34 (F := Ideal) x0 x1 x2 (ix2 r j)

theorem hid_eq (r : Fin 32768) (j : Fin 1024) :
    hid x0 x1 x2 r j
      = Quant.layer (fun k : Fin 128 => Ideal.div (Quant.q8 (s1 x0) (x0 (ix2 r k)) * s1 x0) (s1 x0))
          (fun k : Fin 128 => val_main_v24 (F := Ideal) x1 (ix2 k j))
          (Quant.biasInt (x2 (ix1 j)) (s1 x0 * val_main_v12 (F := Ideal) x1 (ix1 j)))
          (s1 x0 * val_main_v12 (F := Ideal) x1 (ix1 j)) := by
  have el : ∀ k : Fin 128, lidx_main_v25 (ix2 r j) k = ix2 r k := fun k =>
    funext fun a => Fin.ext (by match a with | ⟨0, _⟩ => rfl | ⟨1, _⟩ => rfl)
  have er : ∀ k : Fin 128, ridx_main_v25 (ix2 r j) k = ix2 k j := fun k =>
    funext fun a => Fin.ext (by match a with | ⟨0, _⟩ => rfl | ⟨1, _⟩ => rfl)
  unfold hid
  rw [val_main_v34_apply, val_main_call5_v0_apply, val_main_call5_cst_apply, val_main_v33_apply,
    val_main_v28_apply, val_main_v25_apply, v27_at, v32_at]
  simp only [el, er, v19_at]
  rfl

/-- The second layer's activation scale. -/
def s2 : EReal := val_main_v40 (F := Ideal) x0 x1 x2 ix0

/-- The second layer's zero point. -/
def zp : EReal := val_main_v43 (F := Ideal) x0 x1 x2 ix0

/-- The dequantised-and-requantised hidden entry. -/
theorem v64_at (r : Fin 32768) (k : Fin 1024) :
    val_main_v64 (F := Ideal) x0 x1 x2 (ix2 r k)
      = Ideal.div (Quant.qu8 (s2 x0 x1 x2) (zp x0 x1 x2) (hid x0 x1 x2 r k) * s2 x0 x1 x2) (s2 x0 x1 x2) := by
  rw [val_main_v64_apply, val_main_v53_apply, val_main_v63_apply, val_main_v52_apply, val_main_v51_apply,
    val_main_v50_apply, val_main_v49_apply,
    val_main_call8_v4_apply, val_main_call8_v3_apply, val_main_cst_13_apply, val_main_call8_v2_apply,
    val_main_call8_v1_apply, val_main_call8_v0_apply, val_main_cst_12_apply, val_main_v48_apply,
    val_main_v47_apply, val_main_v46_apply, val_main_v45_apply, val_main_v44_apply]
  rfl

/-- The second layer's combined scale at a column. -/
theorem fs2_eq (j : Fin 1024) :
    val_main_v75 (F := Ideal) x0 x1 x2 x3 (ix1 j) = s2 x0 x1 x2 * val_main_v57 (F := Ideal) x3 (ix1 j) := by
  rw [val_main_v75_apply, val_main_v74_apply]
  rfl

/-- The second layer's integer bias at a column. -/
theorem v72_at (r : Fin 32768) (j : Fin 1024) :
    val_main_v72 (F := Ideal) x0 x1 x2 x3 x4 (ix2 r j)
      = Quant.biasInt (x4 (ix1 j)) (s2 x0 x1 x2 * val_main_v57 (F := Ideal) x3 (ix1 j)) := by
  have e : idx_main_v71 (idx_main_v72 (ix2 r j)) = ix1 j :=
    funext fun a => Fin.ext (by match a with | ⟨0, _⟩ => rfl)
  rw [val_main_v72_apply, val_main_v71_apply, e, val_main_v68_apply, val_main_v67_apply, val_main_v66_apply,
    val_main_v65_apply]
  rfl

theorem v77_at (r : Fin 32768) (j : Fin 1024) :
    val_main_v77 (F := Ideal) x0 x1 x2 x3 (ix2 r j) = s2 x0 x1 x2 * val_main_v57 (F := Ideal) x3 (ix1 j) := by
  have e : idx_main_v76 (idx_main_v77 (ix2 r j)) = ix1 j :=
    funext fun a => Fin.ext (by match a with | ⟨0, _⟩ => rfl)
  rw [val_main_v77_apply, val_main_v76_apply, e, fs2_eq]

theorem out_at (r : Fin 32768) (j : Fin 1024) :
    val_main_v79 (F := Ideal) x0 x1 x2 x3 x4 (ix2 r j)
      = Quant.layer
          (fun k : Fin 1024 => Ideal.div (Quant.qu8 (s2 x0 x1 x2) (zp x0 x1 x2) (hid x0 x1 x2 r k) * s2 x0 x1 x2) (s2 x0 x1 x2))
          (fun k : Fin 1024 => val_main_v69 (F := Ideal) x3 (ix2 k j))
          (Quant.biasInt (x4 (ix1 j)) (s2 x0 x1 x2 * val_main_v57 (F := Ideal) x3 (ix1 j)))
          (s2 x0 x1 x2 * val_main_v57 (F := Ideal) x3 (ix1 j)) := by
  have el : ∀ k : Fin 1024, lidx_main_v70 (ix2 r j) k = ix2 r k := fun k =>
    funext fun a => Fin.ext (by match a with | ⟨0, _⟩ => rfl | ⟨1, _⟩ => rfl)
  have er : ∀ k : Fin 1024, ridx_main_v70 (ix2 r j) k = ix2 k j := fun k =>
    funext fun a => Fin.ext (by match a with | ⟨0, _⟩ => rfl | ⟨1, _⟩ => rfl)
  rw [val_main_v79_apply, val_main_call12_v0_apply, val_main_call12_cst_apply, val_main_v78_apply,
    val_main_v73_apply, val_main_v70_apply, v72_at, v77_at]
  simp only [el, er, v64_at]
  rfl

theorem out_eq (i : S32768x1024.Idx) :
    val_main_v79 (F := Ideal) x0 x1 x2 x3 x4 i
      = Quant.layer
          (fun k : Fin 1024 => Ideal.div (Quant.qu8 (s2 x0 x1 x2) (zp x0 x1 x2) (hid x0 x1 x2 (i 0) k) * s2 x0 x1 x2) (s2 x0 x1 x2))
          (fun k : Fin 1024 => val_main_v69 (F := Ideal) x3 (ix2 k (i 1)))
          (Quant.biasInt (x4 (ix1 (i 1))) (s2 x0 x1 x2 * val_main_v57 (F := Ideal) x3 (ix1 (i 1))))
          (s2 x0 x1 x2 * val_main_v57 (F := Ideal) x3 (ix1 (i 1))) := by
  have hi : i = ix2 (i 0) (i 1) := eq_ix2 i
  rw [hi]
  exact out_at x0 x1 x2 x3 x4 (i 0) (i 1)

/-! ### The largest and the smallest entry of a matrix as a reduction over both axes -/

/-- The supremum over all index pairs is the supremum over the rows of the suprema over the columns. -/
theorem sup_idx2 {R C : Nat} (x : (⟨2, ![R, C]⟩ : Shape).Idx → EReal) :
    Finset.univ.sup x = Finset.univ.sup fun r : Fin R => Finset.univ.sup fun c : Fin C => x (ix2 r c) := by
  apply le_antisymm
  · refine Finset.sup_le fun i _ => ?_
    obtain ⟨a, b, rfl⟩ : ∃ (a : Fin R) (b : Fin C), i = ix2 a b := ⟨i 0, i 1, eq_ix2 i⟩
    exact le_trans (Finset.le_sup (f := fun c : Fin C => x (ix2 a c)) (Finset.mem_univ b))
      (Finset.le_sup (f := fun r : Fin R => Finset.univ.sup fun c : Fin C => x (ix2 r c)) (Finset.mem_univ a))
  · exact Finset.sup_le fun r _ => Finset.sup_le fun c _ => Finset.le_sup (Finset.mem_univ _)

/-- The infimum over all index pairs is the infimum over the rows of the infima over the columns. -/
theorem inf_idx2 {R C : Nat} (x : (⟨2, ![R, C]⟩ : Shape).Idx → EReal) :
    Finset.univ.inf x = Finset.univ.inf fun r : Fin R => Finset.univ.inf fun c : Fin C => x (ix2 r c) := by
  apply le_antisymm
  · exact Finset.le_inf fun r _ => Finset.le_inf fun c _ => Finset.inf_le (Finset.mem_univ _)
  · refine Finset.le_inf fun i _ => ?_
    obtain ⟨a, b, rfl⟩ : ∃ (a : Fin R) (b : Fin C), i = ix2 a b := ⟨i 0, i 1, eq_ix2 i⟩
    exact le_trans
      (Finset.inf_le (f := fun r : Fin R => Finset.univ.inf fun c : Fin C => x (ix2 r c)) (Finset.mem_univ a))
      (Finset.inf_le (f := fun c : Fin C => x (ix2 a c)) (Finset.mem_univ b))

/-- A maximum-reduction of a matrix over both axes into a scalar, started at the least element, is the largest entry. -/
theorem reduce_max_all {R C : Nat} (x : (⟨2, ![R, C]⟩ : Shape).Idx → Ideal .f32) (init : (⟨0, ![]⟩ : Shape).Idx → Ideal .f32)
    (h : (⟨2, ![R, C]⟩ : Shape).ReducesTo [0, 1] ⟨0, ![]⟩) (hu : 0 < (⟨0, ![]⟩ : Shape).numel)
    (hinit : init (Shape.Idx.first hu) = ⊥) (j : (⟨0, ![]⟩ : Shape).Idx) :
    Host.reduce (FloatOps.maximumf (F := Ideal) (φ := .f32)) x init h hu j = Quant.supAll fun r c => x (ix2 r c) := by
  rw [Host.reduce_eq_fold, hinit, Finset.filter_true_of_mem (fun i _ => (eq_ix0 _).trans (eq_ix0 _).symm)]
  exact sup_idx2 x

/-- A minimum-reduction of a matrix over both axes into a scalar, started at the greatest element, is the smallest entry. -/
theorem reduce_min_all {R C : Nat} (x : (⟨2, ![R, C]⟩ : Shape).Idx → Ideal .f32) (init : (⟨0, ![]⟩ : Shape).Idx → Ideal .f32)
    (h : (⟨2, ![R, C]⟩ : Shape).ReducesTo [0, 1] ⟨0, ![]⟩) (hu : 0 < (⟨0, ![]⟩ : Shape).numel)
    (hinit : init (Shape.Idx.first hu) = ⊤) (j : (⟨0, ![]⟩ : Shape).Idx) :
    Host.reduce (FloatOps.minimumf (F := Ideal) (φ := .f32)) x init h hu j = Quant.infAll fun r c => x (ix2 r c) := by
  rw [Host.reduce_eq_fold, hinit, Finset.filter_true_of_mem (fun i _ => (eq_ix0 _).trans (eq_ix0 _).symm)]
  exact inf_idx2 x

/-- The largest magnitude of the input. -/
theorem v1_eq : val_main_v1 (F := Ideal) x0 ix0 = Quant.supAll fun (r : Fin 32768) (k : Fin 128) => Quant.mag (x0 (ix2 r k)) := by
  unfold val_main_v1
  exact reduce_max_all (R := 32768) (C := 128) (val_main_v0 (F := Ideal) x0) _ _ _ Quant.bot32 ix0

theorem s1_eq :
    s1 x0 = Ideal.div (Quant.supAll fun (r : Fin 32768) (k : Fin 128) => Quant.mag (x0 (ix2 r k))) Quant.hi8 := by
  unfold s1
  rw [val_main_v2_apply, v1_eq]
  rfl

/-- The largest hidden activation. -/
theorem v37_eq : val_main_v37 (F := Ideal) x0 x1 x2 ix0 = Quant.supAll (hid x0 x1 x2) := by
  unfold val_main_v37
  exact reduce_max_all (R := 32768) (C := 1024) (val_main_v34 (F := Ideal) x0 x1 x2) _ _ _ Quant.bot32 ix0

/-- The smallest hidden activation. -/
theorem v35_eq : val_main_v35 (F := Ideal) x0 x1 x2 ix0 = Quant.infAll (hid x0 x1 x2) := by
  unfold val_main_v35
  exact reduce_min_all (R := 32768) (C := 1024) (val_main_v34 (F := Ideal) x0 x1 x2) _ _ _ Quant.top32 ix0

theorem v36_eq : val_main_v36 (F := Ideal) x0 x1 x2 ix0 = min (Quant.infAll (hid x0 x1 x2)) Quant.zero32 := by
  rw [val_main_v36_apply, v35_eq]
  rfl

theorem s2_eq : s2 x0 x1 x2 = Quant.scale2 (Quant.infAll (hid x0 x1 x2)) (Quant.supAll (hid x0 x1 x2)) := by
  unfold s2
  rw [val_main_v40_apply, val_main_v39_apply, val_main_v38_apply, v37_eq, v36_eq]
  rfl

theorem zp_eq : zp x0 x1 x2 = Quant.zeroPoint (Quant.infAll (hid x0 x1 x2)) (s2 x0 x1 x2) := by
  unfold zp
  rw [val_main_v43_apply, val_main_v42_apply, val_main_v41_apply, v36_eq]
  rfl

end Cert.ReferenceIdeal.RefValue

end
-- ==== Proof.RefFinal.lean ====
/-
  The reference's three results as the quantised network in its quantise–dequantise–divide form: the hidden
  activations are `Quant.hiddenR` of the argument arrays, the second layer's scale and zero point are
  `Quant.scaleOf` / `Quant.zeroOf` of them, and the output is `Quant.outR`.
-/
import proofs.«100486_j23888608100973_1_alg».proof.Proof.RefValue
import proofs.«100486_j23888608100973_1_alg».proof.Proof.LibQuantLaws

noncomputable section

namespace Cert.ReferenceIdeal.RefFinal

open Cert.ReferenceIdeal Cert.ReferenceIdeal.Read Cert.ReferenceIdeal.RefValue Idealize.ShloMosaic Idealize.ShloMosaic.ValueIdx

variable (x0 : (⟨S32768x128, .f32⟩ : BufTy).Contents (Elt Ideal))
  (x1 : (⟨S1024x128, .f32⟩ : BufTy).Contents (Elt Ideal))
  (x2 : (⟨S1024, .f32⟩ : BufTy).Contents (Elt Ideal))
  (x3 : (⟨S1024x1024, .f32⟩ : BufTy).Contents (Elt Ideal))
  (x4 : (⟨S1024, .f32⟩ : BufTy).Contents (Elt Ideal))

/-- The hidden activations in the reference's form, over the argument arrays: the first layer's scale is the
    largest magnitude of `x` over 127, the weights and their per-row scales are the reference's own stages. -/
def hidR : Fin 32768 → Fin 1024 → EReal :=
  Quant.hiddenR (fun r k => x0 (ix2 r k)) (fun k j => val_main_v24 (F := Ideal) x1 (ix2 k j)) (fun j => x2 (ix1 j))
    (fun j => val_main_v12 (F := Ideal) x1 (ix1 j))
    (Ideal.div (Quant.supAll fun (r : Fin 32768) (k : Fin 128) => Quant.mag (x0 (ix2 r k))) Quant.hi8)

theorem hid_is : hid x0 x1 x2 = hidR x0 x1 x2 :=
  funext fun r => funext fun j => by rw [hid_eq, s1_eq]; rfl

theorem s2_is : s2 x0 x1 x2 = Quant.scaleOf (hidR x0 x1 x2) := by rw [s2_eq, hid_is]; rfl

theorem zp_is : zp x0 x1 x2 = Quant.zeroOf (hidR x0 x1 x2) := by rw [zp_eq, s2_is, hid_is]; rfl

/-- The first result at an index. -/
theorem out_is (i : S32768x1024.Idx) :
    val_main_v79 (F := Ideal) x0 x1 x2 x3 x4 i
      = Quant.outR (hidR x0 x1 x2) (fun k j => val_main_v69 (F := Ideal) x3 (ix2 k j)) (fun j => x4 (ix1 j))
          (fun j => val_main_v57 (F := Ideal) x3 (ix1 j)) (i 0) (i 1) := by
  rw [out_eq, zp_is, s2_is, hid_is]; rfl

/-- The third result at a column. -/
theorem fs2_is (j : Fin 1024) :
    val_main_v75 (F := Ideal) x0 x1 x2 x3 (ix1 j)
      = Quant.scaleOf (hidR x0 x1 x2) * val_main_v57 (F := Ideal) x3 (ix1 j) := by
  rw [fs2_eq, s2_is]

end Cert.ReferenceIdeal.RefFinal

end
-- ==== Proof.WeightsBridge.lean ====
/-
  The quantised weights are formed by the same host operations in the kernel program and in the reference: the
  per-row weight scales and the transposed, rounded, clamped quotients of the two layers are one array each.
-/
import proofs.«100486_j23888608100973_1_alg».proof.Proof.KWeights
import proofs.«100486_j23888608100973_1_alg».proof.Proof.Gen.ReferenceIdeal.Read

noncomputable section

namespace Cert.WeightsBridge

open Idealize.ShloMosaic
open Cert.ReferenceIdeal.Read

variable [Cert.KernelIdeal.Facts₀]

/-- The first layer's per-row weight scales. -/
theorem wscale1_eq (w1 : (⟨2, ![1024, 128]⟩ : Shape).Idx → EReal) :
    Cert.KernelIdeal.Weights.wscale1 w1 = val_main_v12 (F := Ideal) w1 := by
  unfold Cert.KernelIdeal.Weights.wscale1 val_main_v12 val_main_v11 val_main_v10 val_main_v9 val_main_cst_3 val_main_cst_4
  rfl

/-- The first layer's quantised transposed weights. -/
theorem wq1T_eq (w1 : (⟨2, ![1024, 128]⟩ : Shape).Idx → EReal) :
    Cert.KernelIdeal.Weights.wq1T w1 = val_main_v24 (F := Ideal) w1 := by
  unfold Cert.KernelIdeal.Weights.wq1T
  rw [wscale1_eq]
  unfold val_main_v24 val_main_v17 val_main_call3_v4 val_main_call3_v3 val_main_cst_6 val_main_call3_v2
    val_main_call3_v1 val_main_call3_v0 val_main_cst_5 val_main_v16 val_main_v15 val_main_v14 val_main_v13
  rfl

/-- The second layer's per-row weight scales. -/
theorem wscale2_eq (w2 : (⟨2, ![1024, 1024]⟩ : Shape).Idx → EReal) :
    Cert.KernelIdeal.Weights.wscale2 w2 = val_main_v57 (F := Ideal) w2 := by
  unfold Cert.KernelIdeal.Weights.wscale2 val_main_v57 val_main_v56 val_main_v55 val_main_v54 val_main_cst_14 val_main_cst_15
  rfl

/-- The second layer's quantised transposed weights. -/
theorem wq2T_eq (w2 : (⟨2, ![1024, 1024]⟩ : Shape).Idx → EReal) :
    Cert.KernelIdeal.Weights.wq2T w2 = val_main_v69 (F := Ideal) w2 := by
  unfold Cert.KernelIdeal.Weights.wq2T
  rw [wscale2_eq]
  unfold val_main_v69 val_main_v62 val_main_call10_v4 val_main_call10_v3 val_main_cst_17 val_main_call10_v2
    val_main_call10_v1 val_main_call10_v0 val_main_cst_16 val_main_v61 val_main_v60 val_main_v59 val_main_v58
  rfl

end Cert.WeightsBridge

end
-- ==== Proof.Bridge.lean ====
/-
  The kernel's three results and the reference's three results are the same arrays.

  Both hidden layers are the quantised network's hidden layer over the same scale, weights, biases and weight
  scales — the kernel's in the fused form, the reference's in the quantise–dequantise–divide form, which are one
  function (`Quant.hiddenR_eq_hiddenK`) —, so the second layer's scale and zero point agree, and the two output
  layers are again the two forms of one function (`Quant.outR_eq_outK`). The quantised weights and their per-row
  scales are computed by the same host operations in both programs.
-/
import proofs.«100486_j23888608100973_1_alg».proof.Proof.KValue
import proofs.«100486_j23888608100973_1_alg».proof.Proof.RefFinal
import proofs.«100486_j23888608100973_1_alg».proof.Proof.WeightsBridge

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-- The reference's hidden activations, at the kernel's argument arrays, are the kernel's. -/
theorem hid_eq :
    Cert.ReferenceIdeal.RefFinal.hidR (m ((c : Thread nD τ).loc main_arg0)) (m ((c : Thread nD τ).loc main_arg1))
      (m ((c : Thread nD τ).loc main_arg2)) = KValue.hid m c := by
  unfold Cert.ReferenceIdeal.RefFinal.hidR KValue.hid KValue.amax
  rw [Quant.hiddenR_eq_hiddenK, ← Cert.WeightsBridge.wq1T_eq, ← Cert.WeightsBridge.wscale1_eq]

/-- The first result. -/
theorem out_eq (i : S32768x1024.Idx) :
    Cert.ReferenceIdeal.Read.val_main_v79 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) i
      = (W20 m ρ c (Proc.devRef .tc main_v50) : S32768x1024.Idx → EReal) i := by
  rw [Cert.ReferenceIdeal.RefFinal.out_is, KValue.out_k m ρ c, hid_eq m c, Quant.outR_eq_outK,
    ← Cert.WeightsBridge.wq2T_eq, ← Cert.WeightsBridge.wscale2_eq]

/-- The second result. -/
theorem s2_eq :
    Cert.ReferenceIdeal.Read.val_main_v40 (F := Ideal) (m ((c : Thread nD τ).loc main_arg0)) (m ((c : Thread nD τ).loc main_arg1))
      (m ((c : Thread nD τ).loc main_arg2)) ix0
      = (W20 m ρ c (Proc.devRef .tc main_v43) : S_.Idx → EReal) ix0 := by
  rw [KValue.s2_k m ρ c]
  show Cert.ReferenceIdeal.RefValue.s2 _ _ _ = Quant.scaleOf (KValue.hid m c)
  rw [Cert.ReferenceIdeal.RefFinal.s2_is, hid_eq m c]

/-- The third result. -/
theorem fs2_eq (j : Fin 1024) :
    Cert.ReferenceIdeal.Read.val_main_v75 (F := Ideal) (m ((c : Thread nD τ).loc main_arg0)) (m ((c : Thread nD τ).loc main_arg1))
      (m ((c : Thread nD τ).loc main_arg2)) (m ((c : Thread nD τ).loc main_arg3)) (ix1 j)
      = (W20 m ρ c (Proc.devRef .tc main_v45) : S1024.Idx → EReal) (ix1 j) := by
  rw [KValue.fs2_k m ρ c j, Cert.ReferenceIdeal.RefFinal.fs2_is, hid_eq m c, ← Cert.WeightsBridge.wscale2_eq]

end Cert.Bridge

end
-- ==== Proof.lean ====
/-
  The proof of `Cert.Claim` for an int8 fake-quantised two-layer perceptron: a fused three-stage kernel
  (the largest magnitude of `x`; the first quantised layer with the rectifier and the running extremes of the
  hidden activations; the second quantised layer with the rectifier) against its plain reference, which quantises,
  multiplies back by the scale and divides by it again before each layer.

  The three frames are the generated ones (the reference's is its generated run with the results dropped); the
  ideal pass rewrote nothing, so `preserves` is trivial. For `algebraic` the kernel's run is read with its three
  results kept (`Run.run_values`), each result a closed function of the argument arrays (`KValue`), the reference's
  run likewise (`RefFinal`), and the two families of functions are equal (`Bridge`): on the extended reals
  `(c * s) / s = c` for every nonzero scale `s` when `c` vanishes at an infinite `s`, and at `s = 0` the layer's
  combined scale is `0`, which erases the difference. No finiteness of the inputs is used.
-/
import proofs.«100486_j23888608100973_1_alg».proof.Defs
import proofs.«100486_j23888608100973_1_alg».proof.Proof.Gen.Kernel
import proofs.«100486_j23888608100973_1_alg».proof.Proof.Gen.Kernel.Skeleton
import proofs.«100486_j23888608100973_1_alg».proof.Proof.Gen.Kernel.Launch
import proofs.«100486_j23888608100973_1_alg».proof.Proof.Gen.Kernel.Points
import proofs.«100486_j23888608100973_1_alg».proof.Proof.Gen.Kernel.Frame
import proofs.«100486_j23888608100973_1_alg».proof.Proof.Gen.KernelIdeal
import proofs.«100486_j23888608100973_1_alg».proof.Proof.Gen.KernelIdeal.Skeleton
import proofs.«100486_j23888608100973_1_alg».proof.Proof.Gen.KernelIdeal.Launch
import proofs.«100486_j23888608100973_1_alg».proof.Proof.Gen.KernelIdeal.Points
import proofs.«100486_j23888608100973_1_alg».proof.Proof.Gen.KernelIdeal.Frame
import proofs.«100486_j23888608100973_1_alg».proof.Proof.Gen.ReferenceIdeal
import proofs.«100486_j23888608100973_1_alg».proof.Proof.Gen.ReferenceIdeal.Run
import proofs.«100486_j23888608100973_1_alg».proof.Proof.Gen.ReferenceIdeal.Read
import proofs.«100486_j23888608100973_1_alg».proof.Proof.Gen.Pre_finite_inputs
import proofs.«100486_j23888608100973_1_alg».proof.Proof.KRun
import proofs.«100486_j23888608100973_1_alg».proof.Proof.Bridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the kernel's three result arrays: the kernel by its run, the reference because its
    three result terms, at arguments that agree, are those arrays index by index. -/
theorem algebraic : Cert.algebraic_KernelIdeal_ReferenceIdeal := by
  intro m ρ m' ρ' _ hagree
  refine ⟨fun c => Cert.KernelIdeal.Gen.W20 m ρ c (Proc.devRef .tc Cert.KernelIdeal.main_v50),
    fun c => Cert.KernelIdeal.Gen.W20 m ρ c (Proc.devRef .tc Cert.KernelIdeal.main_v43),
    fun c => Cert.KernelIdeal.Gen.W20 m ρ c (Proc.devRef .tc Cert.KernelIdeal.main_v45),
    Cert.KernelIdeal.Run.run_values (F := Ideal) m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v79_eq, (hagree c).1, (hagree c).2.1, (hagree c).2.2.1, (hagree c).2.2.2.1, (hagree c).2.2.2.2]
    exact funext fun i => Cert.Bridge.out_eq m ρ c i
  · rw [Cert.ReferenceIdeal.Read.val_main_v40_eq, (hagree c).1, (hagree c).2.1, (hagree c).2.2.1]
    exact funext fun y => by rw [Idealize.ShloMosaic.ValueIdx.eq_ix0 y]; exact Cert.Bridge.s2_eq m ρ c
  · rw [Cert.ReferenceIdeal.Read.val_main_v75_eq, (hagree c).1, (hagree c).2.1, (hagree c).2.2.1, (hagree c).2.2.2.1]
    exact funext fun y => by rw [Idealize.ShloMosaic.ValueIdx.eq_ix1 y]; exact Cert.Bridge.fs2_eq m ρ c (y 0)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
